-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v58)) (v1 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S500000 : Shape := ⟨1, ![500000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg11 : FVec F S128 .f32) (main_arg12 : FVec F S128x128 .f32) (main_arg13 : FVec F S128 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg12
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg8 : FVec F S128x128 .f32) (main_arg9 : FVec F S128 .f32) (main_arg10 : FVec F S128x128 .f32) (main_arg11 : FVec F S128 .f32) (main_arg12 : FVec F S128x128 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg10
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg11 main_arg12 main_arg13 main_v33

def fn {F : FTy → Type} [FloatOps F] (main_arg0 : FVec F S100000x128 .f32) (main_arg1 : FVec F S50000x128 .f32) (main_arg2 : IVec S500000 32) (main_arg3 : IVec S500000 32) (main_arg4 : IVec S500000 32) (main_arg5 : IVec S500000 32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg8 main_arg9 main_arg10 main_arg11 main_arg12 main_arg13 main_v13 main_v16
-- ==== Kernel.lean ====
abbrev S100000x128 : Shape := ⟨2, ![100000, 128]⟩
abbrev S50000x128 : Shape := ⟨2, ![50000, 128]⟩
abbrev S500000 : Shape := ⟨1, ![500000]⟩
abbrev S128x128 : Shape := ⟨2, ![128, 128]⟩
abbrev S128 : Shape := ⟨1, ![128]⟩
abbrev S_ : Shape := ⟨0, ![]⟩
abbrev S50000 : Shape := ⟨1, ![50000]⟩
abbrev S500000x1 : Shape := ⟨2, ![500000, 1]⟩
abbrev S100000 : Shape := ⟨1, ![100000]⟩
abbrev S500000x128 : Shape := ⟨2, ![500000, 128]⟩
abbrev S1x128 : Shape := ⟨2, ![1, 128]⟩
abbrev S50000x1 : Shape := ⟨2, ![50000, 1]⟩
abbrev S2000x128 : Shape := ⟨2, ![2000, 128]⟩
abbrev S2000x1 : Shape := ⟨2, ![2000, 1]⟩
abbrev S100000x1 : Shape := ⟨2, ![100000, 1]⟩

abbrev nBuf : Space → Nat
  | .hbm => 88
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S500000, .i32⟩
  | .hbm, ⟨3, _⟩ => ⟨S500000, .i32⟩
  | .hbm, ⟨4, _⟩ => ⟨S500000, .i32⟩
  | .hbm, ⟨5, _⟩ => ⟨S500000, .i32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S_, .f32⟩
  | .hbm, ⟨15, _⟩ => ⟨S500000, .f32⟩
  | .hbm, ⟨16, _⟩ => ⟨S_, .f32⟩
  | .hbm, ⟨17, _⟩ => ⟨S50000, .f32⟩
  | .hbm, ⟨18, _⟩ => ⟨S500000x1, .i32⟩
  | .hbm, ⟨19, _⟩ => ⟨S50000, .f32⟩
  | .hbm, ⟨20, _⟩ => ⟨S_, .f32⟩
  | .hbm, ⟨21, _⟩ => ⟨S100000, .f32⟩
  | .hbm, ⟨22, _⟩ => ⟨S500000x1, .i32⟩
  | .hbm, ⟨23, _⟩ => ⟨S100000, .f32⟩
  | .hbm, ⟨24, _⟩ => ⟨S_, .i32⟩
  | .hbm, ⟨25, _⟩ => ⟨S500000, .i32⟩
  | .hbm, ⟨26, _⟩ => ⟨S500000, .i1⟩
  | .hbm, ⟨27, _⟩ => ⟨S_, .i32⟩
  | .hbm, ⟨28, _⟩ => ⟨S500000, .i32⟩
  | .hbm, ⟨29, _⟩ => ⟨S500000, .i32⟩
  | .hbm, ⟨30, _⟩ => ⟨S500000, .i32⟩
  | .hbm, ⟨31, _⟩ => ⟨S500000x1, .i32⟩
  | .hbm, ⟨32, _⟩ => ⟨S500000x128, .f32⟩
  | .hbm, ⟨33, _⟩ => ⟨S_, .f32⟩
  | .hbm, ⟨34, _⟩ => ⟨S50000x128, .f32⟩
  | .hbm, ⟨35, _⟩ => ⟨S500000x1, .i32⟩
  | .hbm, ⟨36, _⟩ => ⟨S50000x128, .f32⟩
  | .hbm, ⟨37, _⟩ => ⟨S1x128, .f32⟩
  | .hbm, ⟨38, _⟩ => ⟨S50000x1, .f32⟩
  | .hbm, ⟨39, _⟩ => ⟨S50000x128, .f32⟩
  | .hbm, ⟨40, _⟩ => ⟨S_, .i32⟩
  | .hbm, ⟨41, _⟩ => ⟨S500000, .i32⟩
  | .hbm, ⟨42, _⟩ => ⟨S500000, .i1⟩
  | .hbm, ⟨43, _⟩ => ⟨S_, .i32⟩
  | .hbm, ⟨44, _⟩ => ⟨S500000, .i32⟩
  | .hbm, ⟨45, _⟩ => ⟨S500000, .i32⟩
  | .hbm, ⟨46, _⟩ => ⟨S500000, .i32⟩
  | .hbm, ⟨47, _⟩ => ⟨S500000x1, .i32⟩
  | .hbm, ⟨48, _⟩ => ⟨S500000x128, .f32⟩
  | .hbm, ⟨49, _⟩ => ⟨S_, .f32⟩
  | .hbm, ⟨50, _⟩ => ⟨S100000x128, .f32⟩
  | .hbm, ⟨51, _⟩ => ⟨S500000x1, .i32⟩
  | .hbm, ⟨52, _⟩ => ⟨S100000x128, .f32⟩
  | .hbm, ⟨53, _⟩ => ⟨S1x128, .f32⟩
  | .hbm, ⟨54, _⟩ => ⟨S100000x1, .f32⟩
  | .hbm, ⟨55, _⟩ => ⟨S100000x128, .f32⟩
  | .hbm, ⟨56, _⟩ => ⟨S_, .i32⟩
  | .hbm, ⟨57, _⟩ => ⟨S500000, .i32⟩
  | .hbm, ⟨58, _⟩ => ⟨S500000, .i1⟩
  | .hbm, ⟨59, _⟩ => ⟨S_, .i32⟩
  | .hbm, ⟨60, _⟩ => ⟨S500000, .i32⟩
  | .hbm, ⟨61, _⟩ => ⟨S500000, .i32⟩
  | .hbm, ⟨62, _⟩ => ⟨S500000, .i32⟩
  | .hbm, ⟨63, _⟩ => ⟨S500000x1, .i32⟩
  | .hbm, ⟨64, _⟩ => ⟨S500000x128, .f32⟩
  | .hbm, ⟨65, _⟩ => ⟨S_, .f32⟩
  | .hbm, ⟨66, _⟩ => ⟨S50000x128, .f32⟩
  | .hbm, ⟨67, _⟩ => ⟨S500000x1, .i32⟩
  | .hbm, ⟨68, _⟩ => ⟨S50000x128, .f32⟩
  | .hbm, ⟨69, _⟩ => ⟨S1x128, .f32⟩
  | .hbm, ⟨70, _⟩ => ⟨S50000x1, .f32⟩
  | .hbm, ⟨71, _⟩ => ⟨S50000x128, .f32⟩
  | .hbm, ⟨72, _⟩ => ⟨S_, .i32⟩
  | .hbm, ⟨73, _⟩ => ⟨S500000, .i32⟩
  | .hbm, ⟨74, _⟩ => ⟨S500000, .i1⟩
  | .hbm, ⟨75, _⟩ => ⟨S_, .i32⟩
  | .hbm, ⟨76, _⟩ => ⟨S500000, .i32⟩
  | .hbm, ⟨77, _⟩ => ⟨S500000, .i32⟩
  | .hbm, ⟨78, _⟩ => ⟨S500000, .i32⟩
  | .hbm, ⟨79, _⟩ => ⟨S500000x1, .i32⟩
  | .hbm, ⟨80, _⟩ => ⟨S500000x128, .f32⟩
  | .hbm, ⟨81, _⟩ => ⟨S_, .f32⟩
  | .hbm, ⟨82, _⟩ => ⟨S100000x128, .f32⟩
  | .hbm, ⟨83, _⟩ => ⟨S500000x1, .i32⟩
  | .hbm, ⟨84, _⟩ => ⟨S100000x128, .f32⟩
  | .hbm, ⟨85, _⟩ => ⟨S1x128, .f32⟩
  | .hbm, ⟨86, _⟩ => ⟨S100000x1, .f32⟩
  | .hbm, ⟨87, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x1, .f32⟩
  | .local _ .vmem, ⟨11, _⟩ => ⟨S2000x1, .f32⟩
  | .local _ .vmem, ⟨12, _⟩ => ⟨S128x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x1, .f32⟩
  | .local _ .vmem, ⟨19, _⟩ => ⟨S2000x1, .f32⟩
  | .local _ .vmem, ⟨20, _⟩ => ⟨S128x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x1, .f32⟩
  | .local _ .vmem, ⟨27, _⟩ => ⟨S2000x1, .f32⟩
  | .local _ .vmem, ⟨28, _⟩ => ⟨S128x128, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c : Ref sig .tc := ⟨.hbm, 24, rfl⟩
abbrev main_v7 : Ref sig .tc := ⟨.hbm, 25, rfl⟩
abbrev main_v8 : Ref sig .tc := ⟨.hbm, 26, rfl⟩
abbrev main_c_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_10 : Ref sig .tc := ⟨.hbm, 72, rfl⟩
abbrev main_v46 : Ref sig .tc := ⟨.hbm, 73, rfl⟩
abbrev main_v47 : Ref sig .tc := ⟨.hbm, 74, rfl⟩
abbrev main_c_11 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_12 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S_S100000 : S_.BroadcastsInDim S100000 (![] : Fin 0 → Fin S100000.rank)
  bcast_S_S50000x128 : S_.BroadcastsInDim S50000x128 (![] : Fin 0 → Fin S50000x128.rank)
  shapeCasts_S128_S1x128 : S128.ShapeCasts S1x128
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S100000x128 : S_.BroadcastsInDim S100000x128 (![] : Fin 0 → Fin S100000x128.rank)
  shapeCasts_S100000_S100000x1 : S100000.ShapeCasts S100000x1
  scatter_S50000_S500000x1_S500000_n_0_0_1_wf : ScatterDims.WF S50000 S500000x1 S500000 [] [0] [0] 1
  scatter_S100000_S500000x1_S500000_n_0_0_1_wf : ScatterDims.WF S100000 S500000x1 S500000 [] [0] [0] 1
  gather_S100000x128_S500000x1_S500000x128_1_0_n_n_0_1_1128_wf : GatherDims.WF S100000x128 S500000x1 S500000x128 [1] [0] [] [0] [] 1 ![1, 128]
  scatter_S50000x128_S500000x1_S500000x128_1_0_0_1_wf : ScatterDims.WF S50000x128 S500000x1 S500000x128 [1] [0] [0] 1
  dot_S2000x128_S128x128_S2000x128_1_0_0_1_n_n_wf : DotDims.WF S2000x128 S128x128 S2000x128 [1] [0] [0] [1] [] []
  gather_S50000x128_S500000x1_S500000x128_1_0_n_n_0_1_1128_wf : GatherDims.WF S50000x128 S500000x1 S500000x128 [1] [0] [] [0] [] 1 ![1, 128]
  scatter_S100000x128_S500000x1_S500000x128_1_0_0_1_wf : ScatterDims.WF S100000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S100000x128.size a
  hwx3_4 : ∀ i : grid3.Coords, EltTy.bits .f32 = 32 ∨ (Rect.block (s := S100000x128) S2000x128.size (cc3_transform_4 i) (hinb3_4 i)).WholeWords (EltTy.packing .f32)

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf

abbrev win0_0 : Pipeline.Window sig grid0 :=
  Pipeline.Window.ofSpec (Memref.whole main_v16) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v29) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v55) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S500000 : Shape := ⟨1, ![500000]⟩
abbrev S128x128 : Shape := ⟨2, ![128, 128]⟩
abbrev S128 : Shape := ⟨1, ![128]⟩
abbrev S_ : Shape := ⟨0, ![]⟩
abbrev S500000x1 : Shape := ⟨2, ![500000, 1]⟩
abbrev S500000x128 : Shape := ⟨2, ![500000, 128]⟩
abbrev S50000 : Shape := ⟨1, ![50000]⟩
abbrev S50000x1 : Shape := ⟨2, ![50000, 1]⟩
abbrev S1x128 : Shape := ⟨2, ![1, 128]⟩
abbrev S100000 : Shape := ⟨1, ![100000]⟩
abbrev S100000x1 : Shape := ⟨2, ![100000, 1]⟩

abbrev nBuf : Space → Nat
  | .hbm => 150
  | .vmem => 0
  | .smem => 0
  | _ => 0

abbrev hbmTy0_0 (i : Nat) : BufTy := match i % 128 with
  | 0 => ⟨S100000x128, .f32⟩
  | 1 => ⟨S50000x128, .f32⟩
  | 2 => ⟨S500000, .i32⟩
  | 3 => ⟨S500000, .i32⟩
  | 4 => ⟨S500000, .i32⟩
  | 5 => ⟨S500000, .i32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S100000x128, .f32⟩
  | 15 => ⟨S_, .i32⟩
  | 16 => ⟨S500000, .i32⟩
  | 17 => ⟨S500000, .i1⟩
  | 18 => ⟨S_, .i32⟩
  | 19 => ⟨S500000, .i32⟩
  | 20 => ⟨S500000, .i32⟩
  | 21 => ⟨S500000, .i32⟩
  | 22 => ⟨S500000x1, .i32⟩
  | 23 => ⟨S500000x128, .f32⟩
  | 24 => ⟨S_, .f32⟩
  | 25 => ⟨S50000x128, .f32⟩
  | 26 => ⟨S500000x1, .i32⟩
  | 27 => ⟨S50000x128, .f32⟩
  | 28 => ⟨S_, .f32⟩
  | 29 => ⟨S500000, .f32⟩
  | 30 => ⟨S_, .f32⟩
  | 31 => ⟨S50000, .f32⟩
  | 32 => ⟨S500000x1, .i32⟩
  | 33 => ⟨S50000, .f32⟩
  | 34 => ⟨S_, .f32⟩
  | 35 => ⟨S_, .f32⟩
  | 36 => ⟨S50000, .f32⟩
  | 37 => ⟨S50000, .f32⟩
  | 38 => ⟨S50000x1, .f32⟩
  | 39 => ⟨S50000x128, .f32⟩
  | 40 => ⟨S50000x128, .f32⟩
  | 41 => ⟨S1x128, .f32⟩
  | 42 => ⟨S50000x128, .f32⟩
  | 43 => ⟨S50000x128, .f32⟩
  | 44 => ⟨S50000x128, .f32⟩
  | 45 => ⟨S_, .i32⟩
  | 46 => ⟨S500000, .i32⟩
  | 47 => ⟨S500000, .i1⟩
  | 48 => ⟨S_, .i32⟩
  | 49 => ⟨S500000, .i32⟩
  | 50 => ⟨S500000, .i32⟩
  | 51 => ⟨S500000, .i32⟩
  | 52 => ⟨S500000x1, .i32⟩
  | 53 => ⟨S500000x128, .f32⟩
  | 54 => ⟨S_, .f32⟩
  | 55 => ⟨S100000x128, .f32⟩
  | 56 => ⟨S500000x1, .i32⟩
  | 57 => ⟨S100000x128, .f32⟩
  | 58 => ⟨S_, .f32⟩
  | 59 => ⟨S500000, .f32⟩
  | 60 => ⟨S_, .f32⟩
  | 61 => ⟨S100000, .f32⟩
  | 62 => ⟨S500000x1, .i32⟩
  | 63 => ⟨S100000, .f32⟩
  | 64 => ⟨S_, .f32⟩
  | 65 => ⟨S_, .f32⟩
  | 66 => ⟨S100000, .f32⟩
  | 67 => ⟨S100000, .f32⟩
  | 68 => ⟨S100000x1, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S_, .f32⟩
  | 76 => ⟨S50000x128, .f32⟩
  | 77 => ⟨S50000x128, .i1⟩
  | 78 => ⟨S_, .f32⟩
  | 79 => ⟨S50000x128, .f32⟩
  | 80 => ⟨S50000x128, .f32⟩
  | 81 => ⟨S50000x128, .f32⟩
  | 82 => ⟨S_, .f32⟩
  | 83 => ⟨S_, .f32⟩
  | 84 => ⟨S100000x128, .f32⟩
  | 85 => ⟨S100000x128, .i1⟩
  | 86 => ⟨S_, .f32⟩
  | 87 => ⟨S100000x128, .f32⟩
  | 88 => ⟨S100000x128, .f32⟩
  | 89 => ⟨S100000x128, .f32⟩
  | 90 => ⟨S100000x128, .f32⟩
  | 91 => ⟨S_, .i32⟩
  | 92 => ⟨S500000, .i32⟩
  | 93 => ⟨S500000, .i1⟩
  | 94 => ⟨S_, .i32⟩
  | 95 => ⟨S500000, .i32⟩
  | 96 => ⟨S500000, .i32⟩
  | 97 => ⟨S500000, .i32⟩
  | 98 => ⟨S500000x1, .i32⟩
  | 99 => ⟨S500000x128, .f32⟩
  | 100 => ⟨S_, .f32⟩
  | 101 => ⟨S50000x128, .f32⟩
  | 102 => ⟨S500000x1, .i32⟩
  | 103 => ⟨S50000x128, .f32⟩
  | 104 => ⟨S_, .f32⟩
  | 105 => ⟨S500000, .f32⟩
  | 106 => ⟨S_, .f32⟩
  | 107 => ⟨S50000, .f32⟩
  | 108 => ⟨S500000x1, .i32⟩
  | 109 => ⟨S50000, .f32⟩
  | 110 => ⟨S_, .f32⟩
  | 111 => ⟨S_, .f32⟩
  | 112 => ⟨S50000, .f32⟩
  | 113 => ⟨S50000, .f32⟩
  | 114 => ⟨S50000x1, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S50000x128, .f32⟩
  | 121 => ⟨S_, .i32⟩
  | 122 => ⟨S500000, .i32⟩
  | 123 => ⟨S500000, .i1⟩
  | 124 => ⟨S_, .i32⟩
  | 125 => ⟨S500000, .i32⟩
  | 126 => ⟨S500000, .i32⟩
  | 127 => ⟨S500000, .i32⟩
  | _ => ⟨S100000x128, .f32⟩

abbrev hbmTy0_1 (i : Nat) : BufTy := match i % 128 with
  | 0 => ⟨S500000x1, .i32⟩
  | 1 => ⟨S500000x128, .f32⟩
  | 2 => ⟨S_, .f32⟩
  | 3 => ⟨S100000x128, .f32⟩
  | 4 => ⟨S500000x1, .i32⟩
  | 5 => ⟨S100000x128, .f32⟩
  | 6 => ⟨S_, .f32⟩
  | 7 => ⟨S500000, .f32⟩
  | 8 => ⟨S_, .f32⟩
  | 9 => ⟨S100000, .f32⟩
  | 10 => ⟨S500000x1, .i32⟩
  | 11 => ⟨S100000, .f32⟩
  | 12 => ⟨S_, .f32⟩
  | 13 => ⟨S_, .f32⟩
  | 14 => ⟨S100000, .f32⟩
  | 15 => ⟨S100000, .f32⟩
  | 16 => ⟨S100000x1, .f32⟩
  | 17 => ⟨S100000x128, .f32⟩
  | 18 => ⟨S100000x128, .f32⟩
  | 19 => ⟨S1x128, .f32⟩
  | 20 => ⟨S100000x128, .f32⟩
  | 21 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_cst_2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_6 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_cst_8 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_9 : Ref sig .tc := ⟨.hbm, 64, rfl⟩
abbrev main_call1_v0 : Ref sig .tc := ⟨.hbm, 65, rfl⟩
abbrev main_call1_v1 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_10 : Ref sig .tc := ⟨.hbm, 74, rfl⟩
abbrev main_call2_cst : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_v44 : Ref sig .tc := ⟨.hbm, 81, rfl⟩
abbrev main_cst_11 : Ref sig .tc := ⟨.hbm, 82, rfl⟩
abbrev main_call3_cst : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_v45 : Ref sig .tc := ⟨.hbm, 89, rfl⟩
abbrev main_v46 : Ref sig .tc := ⟨.hbm, 90, rfl⟩
abbrev main_c_12 : Ref sig .tc := ⟨.hbm, 91, rfl⟩
abbrev main_v47 : Ref sig .tc := ⟨.hbm, 92, rfl⟩
abbrev main_v48 : Ref sig .tc := ⟨.hbm, 93, rfl⟩
abbrev main_c_13 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_cst_14 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_cst_15 : Ref sig .tc := ⟨.hbm, 104, rfl⟩
abbrev main_v57 : Ref sig .tc := ⟨.hbm, 105, rfl⟩
abbrev main_cst_16 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_cst_17 : Ref sig .tc := ⟨.hbm, 110, rfl⟩
abbrev main_call4_v0 : Ref sig .tc := ⟨.hbm, 111, rfl⟩
abbrev main_call4_v1 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_c_18 : Ref sig .tc := ⟨.hbm, 121, rfl⟩
abbrev main_v69 : Ref sig .tc := ⟨.hbm, 122, rfl⟩
abbrev main_v70 : Ref sig .tc := ⟨.hbm, 123, rfl⟩
abbrev main_c_19 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_cst_20 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_cst_21 : Ref sig .tc := ⟨.hbm, 134, rfl⟩
abbrev main_v79 : Ref sig .tc := ⟨.hbm, 135, rfl⟩
abbrev main_cst_22 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_cst_23 : Ref sig .tc := ⟨.hbm, 140, rfl⟩
abbrev main_call5_v0 : Ref sig .tc := ⟨.hbm, 141, rfl⟩
abbrev main_call5_v1 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x128_S500000x1_S500000x128_1_0_n_n_0_1_1128_wf : GatherDims.WF S100000x128 S500000x1 S500000x128 [1] [0] [] [0] [] 1 ![1, 128]
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  dot_S50000x128_S128x128_S50000x128_1_0_0_1_n_n_wf : DotDims.WF S50000x128 S128x128 S50000x128 [1] [0] [0] [1] [] []
  gather_S50000x128_S500000x1_S500000x128_1_0_n_n_0_1_1128_wf : GatherDims.WF S50000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf

class Facts : Prop extends Facts₀ where

variable [Facts]
-- ==== Proof.KernelRun.lean ====
/-
  The idealized kernel's run with its two results named.

  The program is four TensorCore regions among four stretches of host operations.  Its buffer contents at each segment
  boundary are a fold from the launch memory; the last boundary's contents hold, at every unscoped buffer, what the final
  state holds there.  Read at the two result buffers (the fourth region's output, and the third region's output, which
  nothing later writes) this names the results; read at the arguments it gives them back unchanged.
-/
import proofs.«135114_j59107339927815_2_alg».proof.Proof.Gen.KernelIdeal.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's program terminates without a fault, with the two result buffers at the
    last boundary's contents and the argument arrays as launched. -/
theorem run_values : θ_run defs (onTc (τ := τ) (main (F := F))) ⟨m, fun _ => 0, ρ⟩ (fun r => ∀ c : Dev nD,
      r.2.mem ((c.tc : Thread nD τ).loc main_v58) = W8 m ρ c (Proc.devRef .tc main_v58)
      ∧ r.2.mem ((c.tc : Thread nD τ).loc main_v45) = W8 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v58 (by decide)),
       h c _ (mem_uc main_v45 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩)

end Cert.KernelIdeal.KRun

end
-- ==== Proof.LibDenseLayers.lean ====
/-
  Dense layers read at an index, at the ideal values (the extended reals), for arbitrary extents.

  * `matmul_rowcol_zero_apply`: a `tpu.matmul` of an `[m, k]` by a `[k, n]` matrix (contracting the first operand's
    columns with the second's rows) into a zero accumulator is, at `(a, b)`, the sum over `c : Fin k` of
    `A (a, c) * B (c, b)`.
  * `broadcastTo_column_apply`: an `[a, 1]` column broadcast along the second axis to `[a, b]` reads, at `(p, q)`,
    the column's entry `(p, 0)`.
  * `maxOverRows_apply`: a `vector.multi_reduction <maximumf>` over axis 0 of an `[a, b]` matrix reads, at column
    `q`, the fold of `max` from the accumulator's value over the column's entries `(k, q)`, `k : Fin a`.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.DenseLayers

open Idealize.ShloMosaic Idealize.ShloMosaic.ValueIdx

/-- A row-by-column matrix product into a zero accumulator, read at an entry: the sum over the contracted coordinate of
    the products of the operands' entries. -/
theorem matmul_rowcol_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column broadcast along the second axis reads its entry of the same row. -/
theorem broadcastTo_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over the rows, column by column: a fold of `max` over the column's entries. -/
theorem maxOverRows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction (F := Ideal) .maximumf [0] ⟨1, ![b]⟩ src acc h hφ hacc (ix1 q)
      = (Finset.univ : Finset (Fin a)).fold max (Ideal.ofBits φ acc) (fun k => src (ix2 k q)) := by
  rw [Ideal.multiReduction_maximumf_single]
  have e : (src ∘ h.lift (ix1 q)) = fun k : Fin a => src (ix2 k q) := by
    funext k
    show src (h.lift (ix1 q) k) = src (ix2 k q)
    congr 1
    funext ax; apply Fin.ext
    match ax with
    | ⟨0, _⟩ => rfl
    | ⟨1, _⟩ => rfl
  rw [e]
  rfl

end Idealize.ShloMosaic.DenseLayers

end
-- ==== Proof.LibRowGatherScatter.lean ====
/-
  Row gather, element gather and row scatter of StableHLO, read at an index.

  The dimension numbers that `x[idx]` over the rows of a matrix, `x[idx]` over a flat array and a row-wise
  segment sum lower to, each with start indices of shape `[E, 1]` (one scalar index per gathered or scattered row):
  a gathered row is the operand's row at the start index read signed and clamped into `[0, N - 1]`; a scattered
  update row lands on the operand row whose number is the scatter index read signed and not clamped, and is dropped when
  that number is outside `[0, N)`; the column is kept in both.
-/
import Idealize.ShloMosaic.PureOps.Ideal
import Idealize.ShloMosaic.Lib.ValueIdx

noncomputable section

namespace Idealize.ShloMosaic.RowGatherScatter

open Idealize.ShloMosaic Idealize.ShloMosaic.ValueIdx

/-- A signed start index clamped into `[0, N - 1]`, as StableHLO's gather clamps it. -/
def clampRow {w : Nat} (N : Nat) (hN : 0 < N) (v : BitVec w) : Fin N := ⟨min v.toInt.toNat (N - 1), by omega⟩

/-! ## Row gather: operand `[N, D]`, start indices `[E, 1]`, result `[E, D]` -/

/-- The dimension numbers of a gather of whole rows: the result's axis 1 is the offset axis, the operand's axis 0 is
    collapsed and is the one the start index names, the slice is one row `[1, D]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The start-indices index at which result index `(e, j)` of a row gather reads its one start-index component
    is `(e, 0)`. -/
theorem rowGather_siIdx {N E D : Nat}
    (wf : GatherDims.WF ⟨2, ![N, D]⟩ ⟨2, ![E, 1]⟩ ⟨2, ![E, D]⟩ [1] [0] [] [0] [] 1 ![1, D])
    (e : Fin E) (j : Fin D) (c : Fin (rowGatherDims N E D wf).startIndexMap.length) :
    (rowGatherDims N E D wf).siIdx (ix2 e j) c = ix2 e (0 : Fin 1) := by
  funext b
  refine Fin.ext ?_
  match b with
  | ⟨0, _⟩ => rfl
  | ⟨1, _⟩ =>
    have hc : c.val < 1 := c.isLt
    show c.val = 0
    omega

/-- THE ROW GATHER READ AT `(e, j)`: the operand at row "start index `idx[e, 0]` read signed and clamped into
    `[0, N - 1]`", column `j`. -/
theorem gather_rows_apply {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGatherDims N E D wf) x idx (ix2 e j) = x (ix2 (clampRow N hN (idx (ix2 e (0 : Fin 1)))) j) := by
  unfold Host.gather
  congr 1
  funext a
  refine Fin.ext ?_
  match a with
  | ⟨0, _⟩ =>
    show (rowGatherDims N E D wf).start (ix2 e j) idx 0 + (rowGatherDims N E D wf).batchCoord (ix2 e j) 0
      + (rowGatherDims N E D wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    rw [rowGather_siIdx]
    rfl
  | ⟨1, _⟩ =>
    show (rowGatherDims N E D wf).start (ix2 e j) idx 1 + (rowGatherDims N E D wf).batchCoord (ix2 e j) 1
      + (rowGatherDims N E D wf).offCoord (ix2 e j) 1 = j.val
    rw [GatherDims.batchCoord_eq_zero _ _ _ List.not_mem_nil]
    have hs : (rowGatherDims N E D wf).start (ix2 e j) idx 1 = 0 := by
      unfold GatherDims.start
      rw [dif_neg (show (1 : Fin 2) ∉ [(0 : Fin 2)] by decide)]
    rw [hs]
    simp only [Nat.add_zero, Nat.zero_add]
    rfl

/-! ## Element gather: operand `[N]`, start indices `[E, 1]`, result `[E]` -/

/-- The dimension numbers of a gather of single elements of a flat array: no offset axis, the operand's one axis
    collapsed and named by the start index, the slice one element. -/
abbrev elemGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The start-indices index at which result index `e` of an element gather reads its one start-index component
    is `(e, 0)`. -/
theorem elemGather_siIdx {N E : Nat}
    (wf : GatherDims.WF ⟨1, ![N]⟩ ⟨2, ![E, 1]⟩ ⟨1, ![E]⟩ [] [0] [] [0] [] 1 ![1])
    (e : Fin E) (c : Fin (elemGatherDims N E wf).startIndexMap.length) :
    (elemGatherDims N E wf).siIdx (ix1 e) c = ix2 e (0 : Fin 1) := by
  funext b
  refine Fin.ext ?_
  match b with
  | ⟨0, _⟩ => rfl
  | ⟨1, _⟩ =>
    have hc : c.val < 1 := c.isLt
    show c.val = 0
    omega

/-- THE ELEMENT GATHER READ AT `e`: the operand at "start index `idx[e, 0]` read signed and clamped into
    `[0, N - 1]`". -/
theorem gather_elems_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (elemGatherDims N E wf) x idx (ix1 e) = x (ix1 (clampRow N hN (idx (ix2 e (0 : Fin 1))))) := by
  unfold Host.gather
  congr 1
  funext a
  obtain rfl : a = 0 := Subsingleton.elim _ _
  refine Fin.ext ?_
  show (elemGatherDims N E wf).start (ix1 e) idx 0 + (elemGatherDims N E wf).batchCoord (ix1 e) 0
    + (elemGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemGatherDims N E wf).startIndexMap from List.mem_singleton.mpr rfl)]
  rw [elemGather_siIdx]
  rfl

/-! ## Row scatter: operand `[N, D]`, scatter indices `[E, 1]`, updates `[E, D]` -/

/-- The dimension numbers of a scatter of whole rows: the updates' axis 1 is the window axis, the operand's axis 0 is
    inserted and is the one the scatter index names. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The scatter-indices index at which update index `(e, j)` of a row scatter reads its one start-index component
    is `(e, 0)`. -/
theorem rowScatter_siIdx {N E D : Nat}
    (wf : ScatterDims.WF ⟨2, ![N, D]⟩ ⟨2, ![E, 1]⟩ ⟨2, ![E, D]⟩ [1] [0] [0] 1)
    (e : Fin E) (j : Fin D) (c : Fin (rowScatterDims N E D wf).scatterDimsToOperandDims.length) :
    (rowScatterDims N E D wf).siIdx (ix2 e j) c = ix2 e (0 : Fin 1) := by
  funext b
  refine Fin.ext ?_
  match b with
  | ⟨0, _⟩ => rfl
  | ⟨1, _⟩ =>
    have hc : c.val < 1 := c.isLt
    show c.val = 0
    omega

/-- On the row axis the window of update `(e, j)` starts at the scatter index `idx[e, 0]` read signed. -/
theorem rowScatter_start_row {N E D w : Nat}
    (wf : ScatterDims.WF ⟨2, ![N, D]⟩ ⟨2, ![E, 1]⟩ ⟨2, ![E, D]⟩ [1] [0] [0] 1)
    (idx : IVec ⟨2, ![E, 1]⟩ w) (e : Fin E) (j : Fin D) :
    (rowScatterDims N E D wf).start (ix2 e j) idx 0 = (idx (ix2 e (0 : Fin 1))).toInt := by
  unfold ScatterDims.start
  rw [dif_pos (show (0 : Fin 2) ∈ (rowScatterDims N E D wf).scatterDimsToOperandDims from List.mem_singleton.mpr rfl)]
  rw [rowScatter_siIdx]

/-- On the column axis the window starts at `0`: the scatter index does not name that axis. -/
theorem rowScatter_start_col {N E D w : Nat}
    (wf : ScatterDims.WF ⟨2, ![N, D]⟩ ⟨2, ![E, 1]⟩ ⟨2, ![E, D]⟩ [1] [0] [0] 1)
    (idx : IVec ⟨2, ![E, 1]⟩ w) (e : Fin E) (j : Fin D) :
    (rowScatterDims N E D wf).start (ix2 e j) idx 1 = 0 := by
  unfold ScatterDims.start
  rw [dif_neg (show (1 : Fin 2) ∉ [(0 : Fin 2)] by decide)]

/-- The window coordinate of update `(e, j)` on the row axis is `0`: that axis is inserted. -/
theorem rowScatter_window_row {N E D : Nat}
    (wf : ScatterDims.WF ⟨2, ![N, D]⟩ ⟨2, ![E, 1]⟩ ⟨2, ![E, D]⟩ [1] [0] [0] 1) (e : Fin E) (j : Fin D) :
    (rowScatterDims N E D wf).window (ix2 e j) 0 = 0 := rfl

/-- The window coordinate of update `(e, j)` on the column axis is the column `j`. -/
theorem rowScatter_window_col {N E D : Nat}
    (wf : ScatterDims.WF ⟨2, ![N, D]⟩ ⟨2, ![E, 1]⟩ ⟨2, ![E, D]⟩ [1] [0] [0] 1) (e : Fin E) (j : Fin D) :
    (rowScatterDims N E D wf).window (ix2 e j) 1 = j.val := rfl

/-- WHERE A SCATTERED ROW LANDS: update row `e` lands on operand row `n` exactly when its scatter index
    `idx[e, 0]`, read signed and NOT clamped, is `n`; the column is kept. -/
theorem rowScatter_resultIdx?_eq_some {N E D w : Nat}
    (wf : ScatterDims.WF ⟨2, ![N, D]⟩ ⟨2, ![E, 1]⟩ ⟨2, ![E, D]⟩ [1] [0] [0] 1)
    (idx : IVec ⟨2, ![E, 1]⟩ w) (e : Fin E) (j : Fin D) (i : (⟨2, ![N, D]⟩ : Shape).Idx)
    (h : (rowScatterDims N E D wf).resultIdx? (ix2 e j) idx = some i) :
    ∃ n : Fin N, i = ix2 n j ∧ (idx (ix2 e (0 : Fin 1))).toInt = (n.val : Int) := by
  unfold ScatterDims.resultIdx? at h
  split at h
  · rename_i hin
    have h0 := hin 0
    rw [rowScatter_start_row, rowScatter_window_row] at h0
    have hsize : (⟨2, ![N, D]⟩ : Shape).size 0 = N := rfl
    rw [hsize] at h0
    have hi := Option.some.inj h
    refine ⟨⟨(idx (ix2 e (0 : Fin 1))).toInt.toNat, by omega⟩, ?_, by simp only; omega⟩
    rw [← hi]
    funext a
    refine Fin.ext ?_
    match a with
    | ⟨0, _⟩ =>
      show ((rowScatterDims N E D wf).start (ix2 e j) idx 0 + ((rowScatterDims N E D wf).window (ix2 e j) 0 : Nat)).toNat
        = (idx (ix2 e (0 : Fin 1))).toInt.toNat
      rw [rowScatter_start_row, rowScatter_window_row]
      simp
    | ⟨1, _⟩ =>
      show ((rowScatterDims N E D wf).start (ix2 e j) idx 1 + ((rowScatterDims N E D wf).window (ix2 e j) 1 : Nat)).toNat
        = j.val
      rw [rowScatter_start_col, rowScatter_window_col]
      simp
  · exact absurd h (by simp)

/-- The converse: when the scatter index `idx[e, 0]`, read signed, is the row number `n < N`, update
    `(e, j)` lands at `(n, j)`. -/
theorem rowScatter_resultIdx?_of_toInt {N E D w : Nat}
    (wf : ScatterDims.WF ⟨2, ![N, D]⟩ ⟨2, ![E, 1]⟩ ⟨2, ![E, D]⟩ [1] [0] [0] 1)
    (idx : IVec ⟨2, ![E, 1]⟩ w) (e : Fin E) (j : Fin D) (n : Fin N)
    (hn : (idx (ix2 e (0 : Fin 1))).toInt = (n.val : Int)) :
    (rowScatterDims N E D wf).resultIdx? (ix2 e j) idx = some (ix2 n j) := by
  have hin : ∀ a, 0 ≤ (rowScatterDims N E D wf).start (ix2 e j) idx a + (rowScatterDims N E D wf).window (ix2 e j) a ∧
      (rowScatterDims N E D wf).start (ix2 e j) idx a + (rowScatterDims N E D wf).window (ix2 e j) a
        < (⟨2, ![N, D]⟩ : Shape).size a := by
    intro a
    match a with
    | ⟨0, _⟩ =>
      have hsize : (⟨2, ![N, D]⟩ : Shape).size ⟨0, by omega⟩ = N := rfl
      have h0 : (rowScatterDims N E D wf).start (ix2 e j) idx ⟨0, by omega⟩ = (n.val : Int) :=
        (rowScatter_start_row wf idx e j).trans hn
      have h1 : (rowScatterDims N E D wf).window (ix2 e j) ⟨0, by omega⟩ = 0 := rfl
      have := n.isLt
      rw [hsize, h0, h1]
      omega
    | ⟨1, _⟩ =>
      have hsize : (⟨2, ![N, D]⟩ : Shape).size ⟨1, by omega⟩ = D := rfl
      have h0 : (rowScatterDims N E D wf).start (ix2 e j) idx ⟨1, by omega⟩ = 0 := rowScatter_start_col wf idx e j
      have h1 : (rowScatterDims N E D wf).window (ix2 e j) ⟨1, by omega⟩ = j.val := rfl
      have := j.isLt
      rw [hsize, h0, h1]
      omega
  unfold ScatterDims.resultIdx?
  rw [dif_pos hin]
  congr 1
  funext a
  refine Fin.ext ?_
  match a with
  | ⟨0, _⟩ =>
    show ((rowScatterDims N E D wf).start (ix2 e j) idx 0 + ((rowScatterDims N E D wf).window (ix2 e j) 0 : Nat)).toNat
      = n.val
    rw [rowScatter_start_row, rowScatter_window_row, hn]
    simp
  | ⟨1, _⟩ =>
    show ((rowScatterDims N E D wf).start (ix2 e j) idx 1 + ((rowScatterDims N E D wf).window (ix2 e j) 1 : Nat)).toNat
      = j.val
    rw [rowScatter_start_col, rowScatter_window_col]
    simp

/-! ## Element scatter: operand `[N]`, scatter indices `[E, 1]`, updates `[E]` -/

/-- The dimension numbers of a scatter of single elements into a flat array: no window axis, the operand's one axis
    inserted and named by the scatter index. -/
abbrev elemScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The scatter-indices index at which update index `e` of an element scatter reads its one start-index component
    is `(e, 0)`. -/
theorem elemScatter_siIdx {N E : Nat}
    (wf : ScatterDims.WF ⟨1, ![N]⟩ ⟨2, ![E, 1]⟩ ⟨1, ![E]⟩ [] [0] [0] 1)
    (e : Fin E) (c : Fin (elemScatterDims N E wf).scatterDimsToOperandDims.length) :
    (elemScatterDims N E wf).siIdx (ix1 e) c = ix2 e (0 : Fin 1) := by
  funext b
  refine Fin.ext ?_
  match b with
  | ⟨0, _⟩ => rfl
  | ⟨1, _⟩ =>
    have hc : c.val < 1 := c.isLt
    show c.val = 0
    omega

/-- The window of update `e` starts at the scatter index `idx[e, 0]` read signed. -/
theorem elemScatter_start {N E w : Nat}
    (wf : ScatterDims.WF ⟨1, ![N]⟩ ⟨2, ![E, 1]⟩ ⟨1, ![E]⟩ [] [0] [0] 1)
    (idx : IVec ⟨2, ![E, 1]⟩ w) (e : Fin E) :
    (elemScatterDims N E wf).start (ix1 e) idx 0 = (idx (ix2 e (0 : Fin 1))).toInt := by
  unfold ScatterDims.start
  rw [dif_pos (show (0 : Fin 1) ∈ (elemScatterDims N E wf).scatterDimsToOperandDims from List.mem_singleton.mpr rfl)]
  rw [elemScatter_siIdx]

/-- The window coordinate of update `e` on the one axis is `0`: that axis is inserted. -/
theorem elemScatter_window {N E : Nat}
    (wf : ScatterDims.WF ⟨1, ![N]⟩ ⟨2, ![E, 1]⟩ ⟨1, ![E]⟩ [] [0] [0] 1) (e : Fin E) :
    (elemScatterDims N E wf).window (ix1 e) 0 = 0 := rfl

/-- WHERE A SCATTERED ELEMENT LANDS: update `e` lands on operand element `n` exactly when its scatter index
    `idx[e, 0]`, read signed and NOT clamped, is `n`. -/
theorem elemScatter_resultIdx?_eq_some {N E w : Nat}
    (wf : ScatterDims.WF ⟨1, ![N]⟩ ⟨2, ![E, 1]⟩ ⟨1, ![E]⟩ [] [0] [0] 1)
    (idx : IVec ⟨2, ![E, 1]⟩ w) (e : Fin E) (i : (⟨1, ![N]⟩ : Shape).Idx)
    (h : (elemScatterDims N E wf).resultIdx? (ix1 e) idx = some i) :
    ∃ n : Fin N, i = ix1 n ∧ (idx (ix2 e (0 : Fin 1))).toInt = (n.val : Int) := by
  unfold ScatterDims.resultIdx? at h
  split at h
  · rename_i hin
    have h0 := hin 0
    rw [elemScatter_start, elemScatter_window] at h0
    have hsize : (⟨1, ![N]⟩ : Shape).size 0 = N := rfl
    rw [hsize] at h0
    have hi := Option.some.inj h
    refine ⟨⟨(idx (ix2 e (0 : Fin 1))).toInt.toNat, by omega⟩, ?_, by simp only; omega⟩
    rw [← hi]
    funext a
    obtain rfl : a = 0 := Subsingleton.elim _ _
    refine Fin.ext ?_
    show ((elemScatterDims N E wf).start (ix1 e) idx 0 + ((elemScatterDims N E wf).window (ix1 e) 0 : Nat)).toNat
      = (idx (ix2 e (0 : Fin 1))).toInt.toNat
    rw [elemScatter_start, elemScatter_window]
    simp
  · exact absurd h (by simp)

/-- The converse: when the scatter index `idx[e, 0]`, read signed, is the element number `n < N`, update
    `e` lands at `n`. -/
theorem elemScatter_resultIdx?_of_toInt {N E w : Nat}
    (wf : ScatterDims.WF ⟨1, ![N]⟩ ⟨2, ![E, 1]⟩ ⟨1, ![E]⟩ [] [0] [0] 1)
    (idx : IVec ⟨2, ![E, 1]⟩ w) (e : Fin E) (n : Fin N)
    (hn : (idx (ix2 e (0 : Fin 1))).toInt = (n.val : Int)) :
    (elemScatterDims N E wf).resultIdx? (ix1 e) idx = some (ix1 n) := by
  have hin : ∀ a, 0 ≤ (elemScatterDims N E wf).start (ix1 e) idx a + (elemScatterDims N E wf).window (ix1 e) a ∧
      (elemScatterDims N E wf).start (ix1 e) idx a + (elemScatterDims N E wf).window (ix1 e) a
        < (⟨1, ![N]⟩ : Shape).size a := by
    intro a
    obtain rfl : a = 0 := Subsingleton.elim _ _
    have hsize : (⟨1, ![N]⟩ : Shape).size 0 = N := rfl
    have h0 : (elemScatterDims N E wf).start (ix1 e) idx 0 = (n.val : Int) := (elemScatter_start wf idx e).trans hn
    have h1 : (elemScatterDims N E wf).window (ix1 e) 0 = 0 := rfl
    have := n.isLt
    rw [hsize, h0, h1]
    omega
  unfold ScatterDims.resultIdx?
  rw [dif_pos hin]
  congr 1
  funext a
  obtain rfl : a = 0 := Subsingleton.elim _ _
  refine Fin.ext ?_
  show ((elemScatterDims N E wf).start (ix1 e) idx 0 + ((elemScatterDims N E wf).window (ix1 e) 0 : Nat)).toNat = n.val
  rw [elemScatter_start, elemScatter_window, hn]
  simp

/-! ## A start index that is a row number -/

/-- A start index whose signed value is a row number `n < N` is clamped to `n` itself. -/
theorem clampRow_of_toInt {N : Nat} (hN : 0 < N) (v : BitVec 32) (n : Fin N) (h : v.toInt = (n.val : Int)) :
    clampRow N hN v = n := by
  refine Fin.ext ?_
  have hn := n.isLt
  show min v.toInt.toNat (N - 1) = n.val
  rw [h]
  simp only [Int.toNat_natCast]
  omega

/-- The signed comparison "`v < 0`" of a 32-bit word whose signed value is a natural number is the bit `0`. -/
theorem cmpi_slt_zero_of_toInt (v : BitVec 32) (n : Nat) (h : v.toInt = (n : Int)) :
    IntOp.cmpi .slt v 0#32 = 0#1 := by
  have hs : v.slt 0#32 = false := by
    simp only [BitVec.slt, h]
    simp
  show BitVec.ofBool (v.slt 0#32) = 0#1
  rw [hs]
  rfl

/-- Normalising a possibly negative index (`v < 0 → v + N`) leaves alone a word whose signed value is a natural
    number: the select takes its second operand, whatever the first is. -/
theorem select_slt_zero_of_toInt {α : Type} (v : BitVec 32) (n : Nat) (h : v.toInt = (n : Int)) (a b : α) :
    Scalar.select (IntOp.cmpi .slt v 0#32) a b = b := by
  rw [cmpi_slt_zero_of_toInt v n h]
  exact select_zero a b

/-- The normalised index as a program computes it at one element, `select (cmpi slt v 0) (addi v N) v`, is `v`
    when `v`'s signed value is a natural number. -/
theorem normalised_of_toInt (v : BitVec 32) (n : Nat) (h : v.toInt = (n : Int)) (N : BitVec 32) :
    Scalar.select (IntOp.cmpi .slt v 0#32) (IntOp.addi v N) v = v :=
  select_slt_zero_of_toInt v n h _ _

/-- The same with the sum written as the words' sum (`IntOp.addi v N` is `v + N` by definition). -/
theorem normalised_of_toInt' (v : BitVec 32) (n : Nat) (h : v.toInt = (n : Int)) (N : BitVec 32) :
    Scalar.select (IntOp.cmpi .slt v 0#32) (v + N) v = v :=
  select_slt_zero_of_toInt v n h _ _

end Idealize.ShloMosaic.RowGatherScatter

end
-- ==== Proof.ConvSpec.lean ====
/-
  One GraphConv update on the extended reals, in the two arrangements the two programs use.

  For a destination row `d`, the edges landing on it are those whose destination index, read signed, is `d`; edge
  `e` reads the source row named by its source index, normalised as array indexing normalises a negative index and
  clamped into the source table.  The kernel sums the raw source features over those edges, divides the sum by the
  in-degree clamped below by one, multiplies by the weight matrix and adds the bias; the reference multiplies every
  source row by the weight matrix first, sums the projected rows over the edges, divides by the same clamped in-degree
  and adds the bias.  The first layer's result goes through a leaky rectifier, the same pointwise function in both.
-/
import Idealize.ShloMosaic.PureOps.Ideal
import Idealize.ShloMosaic.Lib.ValueIdx
import proofs.«135114_j59107339927815_2_alg».proof.Proof.LibRowGatherScatter

noncomputable section

open scoped BigOperators

namespace Cert.ConvSpec

open Idealize.ShloMosaic Idealize.ShloMosaic.ValueIdx Idealize.ShloMosaic.RowGatherScatter

/-- A source index as array indexing normalises it: a negative index counts from the end of a table of `N` rows. -/
def normWord (N v : BitVec 32) : BitVec 32 := Scalar.select (IntOp.cmpi .slt v 0#32) (IntOp.addi v N) v

/-- The source row edge `e` reads: its normalised index, read signed and clamped into the table of `Ns` rows. -/
def srcRow {E : Nat} (Ns : Nat) (hNs : 0 < Ns) (Nw : BitVec 32) (src : IVec ⟨1, ![E]⟩ 32) (e : Fin E) : Fin Ns :=
  clampRow Ns hNs (normWord Nw (src (ix1 e)))

/-- The edges whose destination index, read signed, is row `d`. -/
def edgesTo {E : Nat} (Nd : Nat) (dst : IVec ⟨1, ![E]⟩ 32) (d : Fin Nd) : Finset (Fin E) :=
  Finset.univ.filter fun e : Fin E => (dst (ix1 e)).toInt = (d.val : Int)

/-- The update as the kernel arranges it: aggregate the raw features over the edges into `d`, divide by the clamped
    in-degree, project through `W`, add the bias. -/
def kconv {E Ns Nd : Nat} (x : Fin Ns → Fin 128 → EReal) (W : Fin 128 → Fin 128 → EReal) (b : Fin 128 → EReal)
    (s : Fin E → Fin Ns) (S : Fin Nd → Finset (Fin E)) (d : Fin Nd) (j : Fin 128) : EReal :=
  (∑ k : Fin 128, Ideal.div ((0 : EReal) + ∑ e ∈ S d, x (s e) k) (max ((0 : EReal) + ∑ _e ∈ S d, (1 : EReal)) 1) * W k j) + b j

/-- The update as the reference arranges it: project every source row through `W`, aggregate the projected rows over
    the edges into `d`, divide by the clamped in-degree, add the bias. -/
def rconv {E Ns Nd : Nat} (x : Fin Ns → Fin 128 → EReal) (W : Fin 128 → Fin 128 → EReal) (b : Fin 128 → EReal)
    (s : Fin E → Fin Ns) (S : Fin Nd → Finset (Fin E)) (d : Fin Nd) (j : Fin 128) : EReal :=
  Ideal.div ((0 : EReal) + ∑ e ∈ S d, ∑ k : Fin 128, x (s e) k * W k j) (max 1 ((0 : EReal) + ∑ _e ∈ S d, (1 : EReal))) + b j

/-- The leaky rectifier with slope the single-precision number nearest 0.01: `v` where `v ≥ 0`, the slope times `v`
    elsewhere. -/
def lrelu (v : EReal) : EReal :=
  Scalar.select (FloatOps.cmpf (F := Ideal) (φ := .f32) .oge v (Ideal.ofBits .f32 0x00000000#32)) v
    (Ideal.ofBits .f32 0x3C23D70A#32 * v)

end Cert.ConvSpec

end
-- ==== Proof.KernelBody.lean ====
/-
  The kernel body's stored value, read at an index.

  One grid point loads a block of 2000 aggregated rows, the 2000 matching in-degrees (a column), the whole 128 × 128
  weight matrix and the bias (a row), and stores, at row `p` and column `q` of the block,

      (Σ_k (agg[p, k] / max(deg[p], 1)) · W[k, q]) + bias[q]

  — the rounding of the two matrix-product operands to half precision being the identity on the extended reals, and the
  product into a zero accumulator a plain sum —, passed through the leaky rectifier in the first layer's two calls.
-/
import proofs.«135114_j59107339927815_2_alg».proof.Proof.Gen.KernelIdeal.Skeleton
import proofs.«135114_j59107339927815_2_alg».proof.Proof.LibDenseLayers
import proofs.«135114_j59107339927815_2_alg».proof.Proof.ConvSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KBody

open Cert.KernelIdeal Cert.KernelIdeal.Gen
open Idealize.ShloMosaic Idealize.ShloMosaic.ValueIdx Idealize.ShloMosaic.DenseLayers Cert.ConvSpec

/-- A row broadcast along the first axis reads its entry of the same column. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The value before the rectifier at row `p`, column `q`, from the four loaded blocks. -/
def pre (x0 : S2000x128.Idx → EReal) (x1 : S2000x1.Idx → EReal) (x2 : S128x128.Idx → EReal) (x3 : S1x128.Idx → EReal)
    (p : Fin 2000) (q : Fin 128) : EReal :=
  (∑ k : Fin 128, Ideal.div (x0 (ix2 p k)) (max (x1 (ix2 p (0 : Fin 1))) (Ideal.ofBits .f32 0x3F800000#32)) * x2 (ix2 k q))
    + x3 (ix2 (0 : Fin 1) q)

/-- The second layer's body stores the value before the rectifier. -/
theorem pay_plain_apply (x0 : Vec Ideal S2000x128 .f32) (x1 : Vec Ideal S2000x1 .f32) (x2 : Vec Ideal S128x128 .f32)
    (x3 : Vec Ideal S1x128 .f32) (p : Fin 2000) (q : Fin 128) :
    k2_pay1 x0 x1 x2 x3 (ix2 p q) = pre x0 x1 x2 x3 p q := by
  unfold k2_pay1 pre
  simp only [shapeCast_self]
  refine congrArg₂ (· + ·) ?_ ?_
  · refine (matmul_rowcol_zero_apply _ none _ _ p q).trans ?_
    refine Finset.sum_congr rfl fun k _ => ?_
    refine congrArg₂ (· * ·) ?_ rfl
    refine congrArg (Ideal.div (x0 (ix2 p k))) ?_
    exact broadcastTo_column_apply _ _ p k
  · exact broadcastTo_row_apply _ _ p q

/-- The first layer's body stores the rectified value. -/
theorem pay_act_apply (x0 : Vec Ideal S2000x128 .f32) (x1 : Vec Ideal S2000x1 .f32) (x2 : Vec Ideal S128x128 .f32)
    (x3 : Vec Ideal S1x128 .f32) (p : Fin 2000) (q : Fin 128) :
    k0_pay1 x0 x1 x2 x3 (ix2 p q) = lrelu (pre x0 x1 x2 x3 p q) := by
  have e : k0_pay1 x0 x1 x2 x3 (ix2 p q) = lrelu (k2_pay1 x0 x1 x2 x3 (ix2 p q)) := rfl
  rw [e, pay_plain_apply]

/-- The two first-layer bodies are one function, and so are the two second-layer bodies. -/
theorem k1_eq_k0 : @k1_pay1 Ideal _ = @k0_pay1 Ideal _ := rfl
theorem k3_eq_k2 : @k3_pay1 Ideal _ = @k2_pay1 Ideal _ := rfl

end Cert.KernelIdeal.KBody

end
-- ==== Proof.KernelBlocks0.lean ====
/-
  Region 0's output array after the region, as one function of the arrays the region finds.

  The region walks 25 grid points; point `t` stages rows `2000·t … 2000·t + 1999` of the aggregated features and of the
  in-degree column, the whole weight matrix and the bias row, and writes back the same rows of the output.  So row `d`,
  column `q` of the output array ends at the body's value at the row's own data: the blocks are restrictions of one
  whole-array function, and together they cover the array (the point covering row `d` is `d / 2000`).
-/
import proofs.«135114_j59107339927815_2_alg».proof.Proof.Gen.KernelIdeal.Frame
import proofs.«135114_j59107339927815_2_alg».proof.Proof.KernelBody

set_option maxRecDepth 16384

noncomputable section

open scoped BigOperators

namespace Cert.KernelIdeal.KBlocks0

open Cert.KernelIdeal Cert.KernelIdeal.Gen
open Idealize.ShloMosaic Idealize.ShloMosaic.TcCoe Idealize.SL.Sem
open Idealize.ShloMosaic.ValueIdx Cert.ConvSpec
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The output at row `d`, column `q`, from the whole arrays. -/
def Gpt (A : S50000x128.Idx → EReal) (D : S50000x1.Idx → EReal) (W : S128x128.Idx → EReal) (B : S1x128.Idx → EReal)
    (d : Fin 50000) (q : Fin 128) : EReal :=
  lrelu ((∑ k : Fin 128, Ideal.div (A (ix2 d k)) (max (D (ix2 d (0 : Fin 1))) (Ideal.ofBits .f32 0x3F800000#32)) * W (ix2 k q))
    + B (ix2 (0 : Fin 1) q))

/-- The output array as one function of the four arrays the region reads. -/
def G (A : S50000x128.Idx → EReal) (D : S50000x1.Idx → EReal) (W : S128x128.Idx → EReal) (B : S1x128.Idx → EReal) :
    S50000x128.Idx → EReal := fun i => Gpt A D W B (i 0) (i 1)

theorem G_apply (A : S50000x128.Idx → EReal) (D : S50000x1.Idx → EReal) (W : S128x128.Idx → EReal) (B : S1x128.Idx → EReal)
    (d : Fin 50000) (q : Fin 128) : G A D W B (ix2 d q) = Gpt A D W B d q := rfl

/-- One stored entry is the whole-array function at the entry's place, given that the loaded blocks are the arrays'
    rows at that place. -/
theorem point_eq (x0 : Vec Ideal S2000x128 .f32) (x1 : Vec Ideal S2000x1 .f32) (x2 : Vec Ideal S128x128 .f32)
    (x3 : Vec Ideal S1x128 .f32) (A : S50000x128.Idx → EReal) (D : S50000x1.Idx → EReal) (W : S128x128.Idx → EReal)
    (B : S1x128.Idx → EReal) (p : Fin 2000) (q : Fin 128) (d : Fin 50000)
    (h0 : ∀ k : Fin 128, x0 (ix2 p k) = A (ix2 d k)) (h1 : x1 (ix2 p (0 : Fin 1)) = D (ix2 d (0 : Fin 1)))
    (h2 : x2 = W) (h3 : x3 = B) :
    k0_pay1 x0 x1 x2 x3 (ix2 p q) = Gpt A D W B d q := by
  subst h2
  subst h3
  rw [KBody.pay_act_apply]
  unfold KBody.pre Gpt
  simp only [h0, h1]

/-- The same at any entry of the block and any place of the array whose coordinates match. -/
theorem point_eq' (x0 : Vec Ideal S2000x128 .f32) (x1 : Vec Ideal S2000x1 .f32) (x2 : Vec Ideal S128x128 .f32)
    (x3 : Vec Ideal S1x128 .f32) (A : S50000x128.Idx → EReal) (D : S50000x1.Idx → EReal) (W : S128x128.Idx → EReal)
    (B : S1x128.Idx → EReal) (y : S2000x128.Idx) (i : S50000x128.Idx)
    (h0 : ∀ k : Fin 128, x0 (ix2 (y 0) k) = A (ix2 (i 0) k)) (h1 : x1 (ix2 (y 0) (0 : Fin 1)) = D (ix2 (i 0) (0 : Fin 1)))
    (h2 : x2 = W) (h3 : x3 = B) (hc : (y 1).val = (i 1).val) :
    k0_pay1 x0 x1 x2 x3 y = G A D W B i := by
  have hy : y = ix2 (y 0) (y 1) := eq_ix2 y
  have hq : (i 1 : Fin 128) = y 1 := Fin.ext hc.symm
  rw [hy]
  show _ = Gpt A D W B (i 0) (i 1)
  rw [hq]
  exact point_eq x0 x1 x2 x3 A D W B (y 0) (y 1) (i 0) h0 h1 h2 h3

/-- The printed index maps, decided over the grid: the two row-blocked inputs move with the output, the weight and the
    bias stay at their one block, and the output's block row is the point's number. -/
theorem idx_facts : ∀ t : Fin cfg0.N, win0_0.index t (0 : Fin 2) = win0_4.index t (0 : Fin 2)
    ∧ win0_0.index t (1 : Fin 2) = 0
    ∧ win0_1.index t (0 : Fin 2) = win0_4.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

set_option maxHeartbeats 4000000 in
/-- WHAT POINT `t` WRITES BACK is block `t` of the whole-array function of the arrays as the region finds them. -/
theorem flushed_eq (c : Dev nD) (t : Fin cfg0.N) :
    (dat0 V c).flushed 4 t = ((cfg0.win 4).blk t).view.read (Elt Ideal)
      (G (V c (Pipeline.arrRef spec0 0)) (V c (Pipeline.arrRef spec0 1)) (V c (Pipeline.arrRef spec0 2)) (V c (Pipeline.arrRef spec0 3))) := by
  show (cfg0.win 4).cut (grid0.coords t) ((dat0 V c).after 4 t) = _
  rw [after0_4]
  unfold out0_4
  rw [View.canon_unit_zero hz]
  simp only [View.ld_unit_zero (S := S2000x128) hz, View.ld_unit_zero (S := S2000x1) hz, View.ld_unit_zero (S := S128x128) hz,
    View.ld_unit_zero (S := S1x128) hz]
  obtain ⟨e00, e01, e10, e11, e20, e21, e30, e31, e40, e41⟩ := idx_facts t
  funext y
  show k0_pay1 (iblk0 V c 0 t) (iblk0 V c 1 t) (iblk0 V c 2 t) (iblk0 V c 3 t) y
    = G (V c (Pipeline.arrRef spec0 0)) (V c (Pipeline.arrRef spec0 1)) (V c (Pipeline.arrRef spec0 2)) (V c (Pipeline.arrRef spec0 3))
        (((cfg0.win 4).blk t).view.emb y)
  refine point_eq' (iblk0 V c 0 t) (iblk0 V c 1 t) (iblk0 V c 2 t) (iblk0 V c 3 t)
    (V c (Pipeline.arrRef spec0 0)) (V c (Pipeline.arrRef spec0 1)) (V c (Pipeline.arrRef spec0 2)) (V c (Pipeline.arrRef spec0 3))
    y (((cfg0.win 4).blk t).view.emb y) ?_ ?_ ?_ ?_ ?_
  · intro k
    show V c (Pipeline.arrRef spec0 0) (((cfg0.win 0).blk t).view.emb (ix2 (y 0) k)) = _
    refine congrArg (V c (Pipeline.arrRef spec0 0)) ?_
    funext a; apply Fin.ext
    match a with
    | ⟨0, _⟩ =>
      show win0_0.index t (0 : Fin 2) * 2000 + 1 * (y 0).val = win0_4.index t (0 : Fin 2) * 2000 + 1 * (y 0).val
      omega
    | ⟨1, _⟩ =>
      show win0_0.index t (1 : Fin 2) * 128 + 1 * k.val = k.val
      omega
  · show V c (Pipeline.arrRef spec0 1) (((cfg0.win 1).blk t).view.emb (ix2 (y 0) (0 : Fin 1))) = _
    refine congrArg (V c (Pipeline.arrRef spec0 1)) ?_
    funext a; apply Fin.ext
    match a with
    | ⟨0, _⟩ =>
      show win0_1.index t (0 : Fin 2) * 2000 + 1 * (y 0).val = win0_4.index t (0 : Fin 2) * 2000 + 1 * (y 0).val
      omega
    | ⟨1, _⟩ =>
      show win0_1.index t (1 : Fin 2) * 1 + 1 * 0 = 0
      omega
  · funext z
    show V c (Pipeline.arrRef spec0 2) (((cfg0.win 2).blk t).view.emb z) = V c (Pipeline.arrRef spec0 2) z
    refine congrArg (V c (Pipeline.arrRef spec0 2)) ?_
    funext a; apply Fin.ext
    match a with
    | ⟨0, _⟩ =>
      show win0_2.index t (0 : Fin 2) * 128 + 1 * (z 0).val = (z 0).val
      omega
    | ⟨1, _⟩ =>
      show win0_2.index t (1 : Fin 2) * 128 + 1 * (z 1).val = (z 1).val
      omega
  · funext z
    show V c (Pipeline.arrRef spec0 3) (((cfg0.win 3).blk t).view.emb z) = V c (Pipeline.arrRef spec0 3) z
    refine congrArg (V c (Pipeline.arrRef spec0 3)) ?_
    funext a; apply Fin.ext
    match a with
    | ⟨0, _⟩ =>
      show win0_3.index t (0 : Fin 2) * 1 + 1 * (z 0).val = (z 0).val
      omega
    | ⟨1, _⟩ =>
      show win0_3.index t (1 : Fin 2) * 128 + 1 * (z 1).val = (z 1).val
      omega
  · show (y 1).val = win0_4.index t (1 : Fin 2) * 128 + 1 * (y 1).val
    omega

/-- An index of the array is in point `t`'s block iff each coordinate is in the block's range on its axis. -/
theorem mem_blk (t : Fin cfg0.N) (i : S50000x128.Idx) :
    i ∈ ((cfg0.win 4).blk t).view.set ↔ ∀ a : Fin 2, win0_4.index t a * S2000x128.size a ≤ (i a).val
      ∧ (i a).val < win0_4.index t a * S2000x128.size a + S2000x128.size a := by
  show i ∈ ((View.whole (Pipeline.arrRef spec0 4)).slice (win0_4.rect t)).set ↔ _
  rw [View.set_slice_whole, Rect.mem_set_unit]
  exact Iff.rfl

/-- Every index of the output array lies in the block of the point numbered by its row divided by 2000. -/
theorem cover (i : S50000x128.Idx) : ∃ t : Fin cfg0.N, (cfg0.win 4).flush t = true ∧ i ∈ ((cfg0.win 4).blk t).view.set := by
  have hN : cfg0.N = 25 := N_0
  have hi0 : (i 0).val < 50000 := (i 0).isLt
  have hi1 : (i 1).val < 128 := (i 1).isLt
  refine ⟨⟨(i 0).val / 2000, by rw [hN]; omega⟩, flush0_4 _, ?_⟩
  rw [mem_blk]
  obtain ⟨-, -, -, -, -, -, -, -, e40, e41⟩ := idx_facts ⟨(i 0).val / 2000, by rw [hN]; omega⟩
  intro a
  match a with
  | ⟨0, _⟩ =>
    show win0_4.index _ (0 : Fin 2) * 2000 ≤ (i 0).val ∧ (i 0).val < win0_4.index _ (0 : Fin 2) * 2000 + 2000
    rw [e40]
    show (i 0).val / 2000 * 2000 ≤ (i 0).val ∧ (i 0).val < (i 0).val / 2000 * 2000 + 2000
    omega
  | ⟨1, _⟩ =>
    show win0_4.index _ (1 : Fin 2) * 128 ≤ (i 1).val ∧ (i 1).val < win0_4.index _ (1 : Fin 2) * 128 + 128
    rw [e41]
    omega

/-- THE OUTPUT ARRAY after the region: the whole-array function of the four arrays the region finds. -/
theorem final (c : Dev nD) : (dat0 V c).arrAt 4 cfg0.N
    = G (V c (Pipeline.arrRef spec0 0)) (V c (Pipeline.arrRef spec0 1)) (V c (Pipeline.arrRef spec0 2)) (V c (Pipeline.arrRef spec0 3)) :=
  (dat0 V c).arrAt_eq_of_cover 4 _ (fun t _ => flushed_eq V c t) (cover)

end Cert.KernelIdeal.KBlocks0

end
-- ==== Proof.KernelBlocks1.lean ====
/-
  Region 1's output array after the region, as one function of the arrays the region finds.

  The region walks 50 grid points; point `t` stages rows `2000·t … 2000·t + 1999` of the aggregated features and of the
  in-degree column, the whole weight matrix and the bias row, and writes back the same rows of the output.  So row `d`,
  column `q` of the output array ends at the body's value at the row's own data: the blocks are restrictions of one
  whole-array function, and together they cover the array (the point covering row `d` is `d / 2000`).
-/
import proofs.«135114_j59107339927815_2_alg».proof.Proof.Gen.KernelIdeal.Frame
import proofs.«135114_j59107339927815_2_alg».proof.Proof.KernelBody

set_option maxRecDepth 16384

noncomputable section

open scoped BigOperators

namespace Cert.KernelIdeal.KBlocks1

open Cert.KernelIdeal Cert.KernelIdeal.Gen
open Idealize.ShloMosaic Idealize.ShloMosaic.TcCoe Idealize.SL.Sem
open Idealize.ShloMosaic.ValueIdx Cert.ConvSpec
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The output at row `d`, column `q`, from the whole arrays. -/
def Gpt (A : S100000x128.Idx → EReal) (D : S100000x1.Idx → EReal) (W : S128x128.Idx → EReal) (B : S1x128.Idx → EReal)
    (d : Fin 100000) (q : Fin 128) : EReal :=
  lrelu ((∑ k : Fin 128, Ideal.div (A (ix2 d k)) (max (D (ix2 d (0 : Fin 1))) (Ideal.ofBits .f32 0x3F800000#32)) * W (ix2 k q))
    + B (ix2 (0 : Fin 1) q))

/-- The output array as one function of the four arrays the region reads. -/
def G (A : S100000x128.Idx → EReal) (D : S100000x1.Idx → EReal) (W : S128x128.Idx → EReal) (B : S1x128.Idx → EReal) :
    S100000x128.Idx → EReal := fun i => Gpt A D W B (i 0) (i 1)

theorem G_apply (A : S100000x128.Idx → EReal) (D : S100000x1.Idx → EReal) (W : S128x128.Idx → EReal) (B : S1x128.Idx → EReal)
    (d : Fin 100000) (q : Fin 128) : G A D W B (ix2 d q) = Gpt A D W B d q := rfl

/-- One stored entry is the whole-array function at the entry's place, given that the loaded blocks are the arrays'
    rows at that place. -/
theorem point_eq (x0 : Vec Ideal S2000x128 .f32) (x1 : Vec Ideal S2000x1 .f32) (x2 : Vec Ideal S128x128 .f32)
    (x3 : Vec Ideal S1x128 .f32) (A : S100000x128.Idx → EReal) (D : S100000x1.Idx → EReal) (W : S128x128.Idx → EReal)
    (B : S1x128.Idx → EReal) (p : Fin 2000) (q : Fin 128) (d : Fin 100000)
    (h0 : ∀ k : Fin 128, x0 (ix2 p k) = A (ix2 d k)) (h1 : x1 (ix2 p (0 : Fin 1)) = D (ix2 d (0 : Fin 1)))
    (h2 : x2 = W) (h3 : x3 = B) :
    k1_pay1 x0 x1 x2 x3 (ix2 p q) = Gpt A D W B d q := by
  subst h2
  subst h3
  rw [show k1_pay1 x0 x1 x2 x3 (ix2 p q) = k0_pay1 x0 x1 x2 x3 (ix2 p q) from rfl, KBody.pay_act_apply]
  unfold KBody.pre Gpt
  simp only [h0, h1]

/-- The same at any entry of the block and any place of the array whose coordinates match. -/
theorem point_eq' (x0 : Vec Ideal S2000x128 .f32) (x1 : Vec Ideal S2000x1 .f32) (x2 : Vec Ideal S128x128 .f32)
    (x3 : Vec Ideal S1x128 .f32) (A : S100000x128.Idx → EReal) (D : S100000x1.Idx → EReal) (W : S128x128.Idx → EReal)
    (B : S1x128.Idx → EReal) (y : S2000x128.Idx) (i : S100000x128.Idx)
    (h0 : ∀ k : Fin 128, x0 (ix2 (y 0) k) = A (ix2 (i 0) k)) (h1 : x1 (ix2 (y 0) (0 : Fin 1)) = D (ix2 (i 0) (0 : Fin 1)))
    (h2 : x2 = W) (h3 : x3 = B) (hc : (y 1).val = (i 1).val) :
    k1_pay1 x0 x1 x2 x3 y = G A D W B i := by
  have hy : y = ix2 (y 0) (y 1) := eq_ix2 y
  have hq : (i 1 : Fin 128) = y 1 := Fin.ext hc.symm
  rw [hy]
  show _ = Gpt A D W B (i 0) (i 1)
  rw [hq]
  exact point_eq x0 x1 x2 x3 A D W B (y 0) (y 1) (i 0) h0 h1 h2 h3

/-- The printed index maps, decided over the grid: the two row-blocked inputs move with the output, the weight and the
    bias stay at their one block, and the output's block row is the point's number. -/
theorem idx_facts : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

set_option maxHeartbeats 4000000 in
/-- WHAT POINT `t` WRITES BACK is block `t` of the whole-array function of the arrays as the region finds them. -/
theorem flushed_eq (c : Dev nD) (t : Fin cfg1.N) :
    (dat1 V c).flushed 4 t = ((cfg1.win 4).blk t).view.read (Elt Ideal)
      (G (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  unfold out1_4
  rw [View.canon_unit_zero hz]
  simp only [View.ld_unit_zero (S := S2000x128) hz, View.ld_unit_zero (S := S2000x1) hz, View.ld_unit_zero (S := S128x128) hz,
    View.ld_unit_zero (S := S1x128) hz]
  obtain ⟨e00, e01, e10, e11, e20, e21, e30, e31, e40, e41⟩ := idx_facts t
  funext y
  show k1_pay1 (iblk1 V c 0 t) (iblk1 V c 1 t) (iblk1 V c 2 t) (iblk1 V c 3 t) y
    = G (V c (Pipeline.arrRef spec1 0)) (V c (Pipeline.arrRef spec1 1)) (V c (Pipeline.arrRef spec1 2)) (V c (Pipeline.arrRef spec1 3))
        (((cfg1.win 4).blk t).view.emb y)
  refine point_eq' (iblk1 V c 0 t) (iblk1 V c 1 t) (iblk1 V c 2 t) (iblk1 V c 3 t)
    (V c (Pipeline.arrRef spec1 0)) (V c (Pipeline.arrRef spec1 1)) (V c (Pipeline.arrRef spec1 2)) (V c (Pipeline.arrRef spec1 3))
    y (((cfg1.win 4).blk t).view.emb y) ?_ ?_ ?_ ?_ ?_
  · intro k
    show V c (Pipeline.arrRef spec1 0) (((cfg1.win 0).blk t).view.emb (ix2 (y 0) k)) = _
    refine congrArg (V c (Pipeline.arrRef spec1 0)) ?_
    funext a; apply Fin.ext
    match a with
    | ⟨0, _⟩ =>
      show win1_0.index t (0 : Fin 2) * 2000 + 1 * (y 0).val = win1_4.index t (0 : Fin 2) * 2000 + 1 * (y 0).val
      omega
    | ⟨1, _⟩ =>
      show win1_0.index t (1 : Fin 2) * 128 + 1 * k.val = k.val
      omega
  · show V c (Pipeline.arrRef spec1 1) (((cfg1.win 1).blk t).view.emb (ix2 (y 0) (0 : Fin 1))) = _
    refine congrArg (V c (Pipeline.arrRef spec1 1)) ?_
    funext a; apply Fin.ext
    match a with
    | ⟨0, _⟩ =>
      show win1_1.index t (0 : Fin 2) * 2000 + 1 * (y 0).val = win1_4.index t (0 : Fin 2) * 2000 + 1 * (y 0).val
      omega
    | ⟨1, _⟩ =>
      show win1_1.index t (1 : Fin 2) * 1 + 1 * 0 = 0
      omega
  · funext z
    show V c (Pipeline.arrRef spec1 2) (((cfg1.win 2).blk t).view.emb z) = V c (Pipeline.arrRef spec1 2) z
    refine congrArg (V c (Pipeline.arrRef spec1 2)) ?_
    funext a; apply Fin.ext
    match a with
    | ⟨0, _⟩ =>
      show win1_2.index t (0 : Fin 2) * 128 + 1 * (z 0).val = (z 0).val
      omega
    | ⟨1, _⟩ =>
      show win1_2.index t (1 : Fin 2) * 128 + 1 * (z 1).val = (z 1).val
      omega
  · funext z
    show V c (Pipeline.arrRef spec1 3) (((cfg1.win 3).blk t).view.emb z) = V c (Pipeline.arrRef spec1 3) z
    refine congrArg (V c (Pipeline.arrRef spec1 3)) ?_
    funext a; apply Fin.ext
    match a with
    | ⟨0, _⟩ =>
      show win1_3.index t (0 : Fin 2) * 1 + 1 * (z 0).val = (z 0).val
      omega
    | ⟨1, _⟩ =>
      show win1_3.index t (1 : Fin 2) * 128 + 1 * (z 1).val = (z 1).val
      omega
  · show (y 1).val = win1_4.index t (1 : Fin 2) * 128 + 1 * (y 1).val
    omega

/-- An index of the array is in point `t`'s block iff each coordinate is in the block's range on its axis. -/
theorem mem_blk (t : Fin cfg1.N) (i : S100000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole (Pipeline.arrRef spec1 4)).slice (win1_4.rect t)).set ↔ _
  rw [View.set_slice_whole, Rect.mem_set_unit]
  exact Iff.rfl

/-- Every index of the output array lies in the block of the point numbered by its row divided by 2000. -/
theorem cover (i : S100000x128.Idx) : ∃ t : Fin cfg1.N, (cfg1.win 4).flush t = true ∧ i ∈ ((cfg1.win 4).blk t).view.set := by
  have hN : cfg1.N = 50 := N_1
  have hi0 : (i 0).val < 100000 := (i 0).isLt
  have hi1 : (i 1).val < 128 := (i 1).isLt
  refine ⟨⟨(i 0).val / 2000, by rw [hN]; omega⟩, flush1_4 _, ?_⟩
  rw [mem_blk]
  obtain ⟨-, -, -, -, -, -, -, -, e40, e41⟩ := idx_facts ⟨(i 0).val / 2000, by rw [hN]; omega⟩
  intro a
  match a with
  | ⟨0, _⟩ =>
    show win1_4.index _ (0 : Fin 2) * 2000 ≤ (i 0).val ∧ (i 0).val < win1_4.index _ (0 : Fin 2) * 2000 + 2000
    rw [e40]
    show (i 0).val / 2000 * 2000 ≤ (i 0).val ∧ (i 0).val < (i 0).val / 2000 * 2000 + 2000
    omega
  | ⟨1, _⟩ =>
    show win1_4.index _ (1 : Fin 2) * 128 ≤ (i 1).val ∧ (i 1).val < win1_4.index _ (1 : Fin 2) * 128 + 128
    rw [e41]
    omega

/-- THE OUTPUT ARRAY after the region: the whole-array function of the four arrays the region finds. -/
theorem final (c : Dev nD) : (dat1 V c).arrAt 4 cfg1.N
    = G (V c (Pipeline.arrRef spec1 0)) (V c (Pipeline.arrRef spec1 1)) (V c (Pipeline.arrRef spec1 2)) (V c (Pipeline.arrRef spec1 3)) :=
  (dat1 V c).arrAt_eq_of_cover 4 _ (fun t _ => flushed_eq V c t) (cover)

end Cert.KernelIdeal.KBlocks1

end
-- ==== Proof.KernelBlocks2.lean ====
/-
  Region 2's output array after the region, as one function of the arrays the region finds.

  The region walks 25 grid points; point `t` stages rows `2000·t … 2000·t + 1999` of the aggregated features and of the
  in-degree column, the whole weight matrix and the bias row, and writes back the same rows of the output.  So row `d`,
  column `q` of the output array ends at the body's value at the row's own data: the blocks are restrictions of one
  whole-array function, and together they cover the array (the point covering row `d` is `d / 2000`).
-/
import proofs.«135114_j59107339927815_2_alg».proof.Proof.Gen.KernelIdeal.Frame
import proofs.«135114_j59107339927815_2_alg».proof.Proof.KernelBody

set_option maxRecDepth 16384

noncomputable section

open scoped BigOperators

namespace Cert.KernelIdeal.KBlocks2

open Cert.KernelIdeal Cert.KernelIdeal.Gen
open Idealize.ShloMosaic Idealize.ShloMosaic.TcCoe Idealize.SL.Sem
open Idealize.ShloMosaic.ValueIdx Cert.ConvSpec
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The output at row `d`, column `q`, from the whole arrays. -/
def Gpt (A : S50000x128.Idx → EReal) (D : S50000x1.Idx → EReal) (W : S128x128.Idx → EReal) (B : S1x128.Idx → EReal)
    (d : Fin 50000) (q : Fin 128) : EReal :=
  ((∑ k : Fin 128, Ideal.div (A (ix2 d k)) (max (D (ix2 d (0 : Fin 1))) (Ideal.ofBits .f32 0x3F800000#32)) * W (ix2 k q))
    + B (ix2 (0 : Fin 1) q))

/-- The output array as one function of the four arrays the region reads. -/
def G (A : S50000x128.Idx → EReal) (D : S50000x1.Idx → EReal) (W : S128x128.Idx → EReal) (B : S1x128.Idx → EReal) :
    S50000x128.Idx → EReal := fun i => Gpt A D W B (i 0) (i 1)

theorem G_apply (A : S50000x128.Idx → EReal) (D : S50000x1.Idx → EReal) (W : S128x128.Idx → EReal) (B : S1x128.Idx → EReal)
    (d : Fin 50000) (q : Fin 128) : G A D W B (ix2 d q) = Gpt A D W B d q := rfl

/-- One stored entry is the whole-array function at the entry's place, given that the loaded blocks are the arrays'
    rows at that place. -/
theorem point_eq (x0 : Vec Ideal S2000x128 .f32) (x1 : Vec Ideal S2000x1 .f32) (x2 : Vec Ideal S128x128 .f32)
    (x3 : Vec Ideal S1x128 .f32) (A : S50000x128.Idx → EReal) (D : S50000x1.Idx → EReal) (W : S128x128.Idx → EReal)
    (B : S1x128.Idx → EReal) (p : Fin 2000) (q : Fin 128) (d : Fin 50000)
    (h0 : ∀ k : Fin 128, x0 (ix2 p k) = A (ix2 d k)) (h1 : x1 (ix2 p (0 : Fin 1)) = D (ix2 d (0 : Fin 1)))
    (h2 : x2 = W) (h3 : x3 = B) :
    k2_pay1 x0 x1 x2 x3 (ix2 p q) = Gpt A D W B d q := by
  subst h2
  subst h3
  rw [KBody.pay_plain_apply]
  unfold KBody.pre Gpt
  simp only [h0, h1]

/-- The same at any entry of the block and any place of the array whose coordinates match. -/
theorem point_eq' (x0 : Vec Ideal S2000x128 .f32) (x1 : Vec Ideal S2000x1 .f32) (x2 : Vec Ideal S128x128 .f32)
    (x3 : Vec Ideal S1x128 .f32) (A : S50000x128.Idx → EReal) (D : S50000x1.Idx → EReal) (W : S128x128.Idx → EReal)
    (B : S1x128.Idx → EReal) (y : S2000x128.Idx) (i : S50000x128.Idx)
    (h0 : ∀ k : Fin 128, x0 (ix2 (y 0) k) = A (ix2 (i 0) k)) (h1 : x1 (ix2 (y 0) (0 : Fin 1)) = D (ix2 (i 0) (0 : Fin 1)))
    (h2 : x2 = W) (h3 : x3 = B) (hc : (y 1).val = (i 1).val) :
    k2_pay1 x0 x1 x2 x3 y = G A D W B i := by
  have hy : y = ix2 (y 0) (y 1) := eq_ix2 y
  have hq : (i 1 : Fin 128) = y 1 := Fin.ext hc.symm
  rw [hy]
  show _ = Gpt A D W B (i 0) (i 1)
  rw [hq]
  exact point_eq x0 x1 x2 x3 A D W B (y 0) (y 1) (i 0) h0 h1 h2 h3

/-- The printed index maps, decided over the grid: the two row-blocked inputs move with the output, the weight and the
    bias stay at their one block, and the output's block row is the point's number. -/
theorem idx_facts : ∀ t : Fin cfg2.N, win2_0.index t (0 : Fin 2) = win2_4.index t (0 : Fin 2)
    ∧ win2_0.index t (1 : Fin 2) = 0
    ∧ win2_1.index t (0 : Fin 2) = win2_4.index t (0 : Fin 2)
    ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

set_option maxHeartbeats 4000000 in
/-- WHAT POINT `t` WRITES BACK is block `t` of the whole-array function of the arrays as the region finds them. -/
theorem flushed_eq (c : Dev nD) (t : Fin cfg2.N) :
    (dat2 V c).flushed 4 t = ((cfg2.win 4).blk t).view.read (Elt Ideal)
      (G (V c (Pipeline.arrRef spec2 0)) (V c (Pipeline.arrRef spec2 1)) (V c (Pipeline.arrRef spec2 2)) (V c (Pipeline.arrRef spec2 3))) := by
  show (cfg2.win 4).cut (grid2.coords t) ((dat2 V c).after 4 t) = _
  rw [after2_4]
  unfold out2_4
  rw [View.canon_unit_zero hz]
  simp only [View.ld_unit_zero (S := S2000x128) hz, View.ld_unit_zero (S := S2000x1) hz, View.ld_unit_zero (S := S128x128) hz,
    View.ld_unit_zero (S := S1x128) hz]
  obtain ⟨e00, e01, e10, e11, e20, e21, e30, e31, e40, e41⟩ := idx_facts t
  funext y
  show k2_pay1 (iblk2 V c 0 t) (iblk2 V c 1 t) (iblk2 V c 2 t) (iblk2 V c 3 t) y
    = G (V c (Pipeline.arrRef spec2 0)) (V c (Pipeline.arrRef spec2 1)) (V c (Pipeline.arrRef spec2 2)) (V c (Pipeline.arrRef spec2 3))
        (((cfg2.win 4).blk t).view.emb y)
  refine point_eq' (iblk2 V c 0 t) (iblk2 V c 1 t) (iblk2 V c 2 t) (iblk2 V c 3 t)
    (V c (Pipeline.arrRef spec2 0)) (V c (Pipeline.arrRef spec2 1)) (V c (Pipeline.arrRef spec2 2)) (V c (Pipeline.arrRef spec2 3))
    y (((cfg2.win 4).blk t).view.emb y) ?_ ?_ ?_ ?_ ?_
  · intro k
    show V c (Pipeline.arrRef spec2 0) (((cfg2.win 0).blk t).view.emb (ix2 (y 0) k)) = _
    refine congrArg (V c (Pipeline.arrRef spec2 0)) ?_
    funext a; apply Fin.ext
    match a with
    | ⟨0, _⟩ =>
      show win2_0.index t (0 : Fin 2) * 2000 + 1 * (y 0).val = win2_4.index t (0 : Fin 2) * 2000 + 1 * (y 0).val
      omega
    | ⟨1, _⟩ =>
      show win2_0.index t (1 : Fin 2) * 128 + 1 * k.val = k.val
      omega
  · show V c (Pipeline.arrRef spec2 1) (((cfg2.win 1).blk t).view.emb (ix2 (y 0) (0 : Fin 1))) = _
    refine congrArg (V c (Pipeline.arrRef spec2 1)) ?_
    funext a; apply Fin.ext
    match a with
    | ⟨0, _⟩ =>
      show win2_1.index t (0 : Fin 2) * 2000 + 1 * (y 0).val = win2_4.index t (0 : Fin 2) * 2000 + 1 * (y 0).val
      omega
    | ⟨1, _⟩ =>
      show win2_1.index t (1 : Fin 2) * 1 + 1 * 0 = 0
      omega
  · funext z
    show V c (Pipeline.arrRef spec2 2) (((cfg2.win 2).blk t).view.emb z) = V c (Pipeline.arrRef spec2 2) z
    refine congrArg (V c (Pipeline.arrRef spec2 2)) ?_
    funext a; apply Fin.ext
    match a with
    | ⟨0, _⟩ =>
      show win2_2.index t (0 : Fin 2) * 128 + 1 * (z 0).val = (z 0).val
      omega
    | ⟨1, _⟩ =>
      show win2_2.index t (1 : Fin 2) * 128 + 1 * (z 1).val = (z 1).val
      omega
  · funext z
    show V c (Pipeline.arrRef spec2 3) (((cfg2.win 3).blk t).view.emb z) = V c (Pipeline.arrRef spec2 3) z
    refine congrArg (V c (Pipeline.arrRef spec2 3)) ?_
    funext a; apply Fin.ext
    match a with
    | ⟨0, _⟩ =>
      show win2_3.index t (0 : Fin 2) * 1 + 1 * (z 0).val = (z 0).val
      omega
    | ⟨1, _⟩ =>
      show win2_3.index t (1 : Fin 2) * 128 + 1 * (z 1).val = (z 1).val
      omega
  · show (y 1).val = win2_4.index t (1 : Fin 2) * 128 + 1 * (y 1).val
    omega

/-- An index of the array is in point `t`'s block iff each coordinate is in the block's range on its axis. -/
theorem mem_blk (t : Fin cfg2.N) (i : S50000x128.Idx) :
    i ∈ ((cfg2.win 4).blk t).view.set ↔ ∀ a : Fin 2, win2_4.index t a * S2000x128.size a ≤ (i a).val
      ∧ (i a).val < win2_4.index t a * S2000x128.size a + S2000x128.size a := by
  show i ∈ ((View.whole (Pipeline.arrRef spec2 4)).slice (win2_4.rect t)).set ↔ _
  rw [View.set_slice_whole, Rect.mem_set_unit]
  exact Iff.rfl

/-- Every index of the output array lies in the block of the point numbered by its row divided by 2000. -/
theorem cover (i : S50000x128.Idx) : ∃ t : Fin cfg2.N, (cfg2.win 4).flush t = true ∧ i ∈ ((cfg2.win 4).blk t).view.set := by
  have hN : cfg2.N = 25 := N_2
  have hi0 : (i 0).val < 50000 := (i 0).isLt
  have hi1 : (i 1).val < 128 := (i 1).isLt
  refine ⟨⟨(i 0).val / 2000, by rw [hN]; omega⟩, flush2_4 _, ?_⟩
  rw [mem_blk]
  obtain ⟨-, -, -, -, -, -, -, -, e40, e41⟩ := idx_facts ⟨(i 0).val / 2000, by rw [hN]; omega⟩
  intro a
  match a with
  | ⟨0, _⟩ =>
    show win2_4.index _ (0 : Fin 2) * 2000 ≤ (i 0).val ∧ (i 0).val < win2_4.index _ (0 : Fin 2) * 2000 + 2000
    rw [e40]
    show (i 0).val / 2000 * 2000 ≤ (i 0).val ∧ (i 0).val < (i 0).val / 2000 * 2000 + 2000
    omega
  | ⟨1, _⟩ =>
    show win2_4.index _ (1 : Fin 2) * 128 ≤ (i 1).val ∧ (i 1).val < win2_4.index _ (1 : Fin 2) * 128 + 128
    rw [e41]
    omega

/-- THE OUTPUT ARRAY after the region: the whole-array function of the four arrays the region finds. -/
theorem final (c : Dev nD) : (dat2 V c).arrAt 4 cfg2.N
    = G (V c (Pipeline.arrRef spec2 0)) (V c (Pipeline.arrRef spec2 1)) (V c (Pipeline.arrRef spec2 2)) (V c (Pipeline.arrRef spec2 3)) :=
  (dat2 V c).arrAt_eq_of_cover 4 _ (fun t _ => flushed_eq V c t) (cover)

end Cert.KernelIdeal.KBlocks2

end
-- ==== Proof.KernelBlocks3.lean ====
/-
  Region 3's output array after the region, as one function of the arrays the region finds.

  The region walks 50 grid points; point `t` stages rows `2000·t … 2000·t + 1999` of the aggregated features and of the
  in-degree column, the whole weight matrix and the bias row, and writes back the same rows of the output.  So row `d`,
  column `q` of the output array ends at the body's value at the row's own data: the blocks are restrictions of one
  whole-array function, and together they cover the array (the point covering row `d` is `d / 2000`).
-/
import proofs.«135114_j59107339927815_2_alg».proof.Proof.Gen.KernelIdeal.Frame
import proofs.«135114_j59107339927815_2_alg».proof.Proof.KernelBody

set_option maxRecDepth 16384

noncomputable section

open scoped BigOperators

namespace Cert.KernelIdeal.KBlocks3

open Cert.KernelIdeal Cert.KernelIdeal.Gen
open Idealize.ShloMosaic Idealize.ShloMosaic.TcCoe Idealize.SL.Sem
open Idealize.ShloMosaic.ValueIdx Cert.ConvSpec
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The output at row `d`, column `q`, from the whole arrays. -/
def Gpt (A : S100000x128.Idx → EReal) (D : S100000x1.Idx → EReal) (W : S128x128.Idx → EReal) (B : S1x128.Idx → EReal)
    (d : Fin 100000) (q : Fin 128) : EReal :=
  ((∑ k : Fin 128, Ideal.div (A (ix2 d k)) (max (D (ix2 d (0 : Fin 1))) (Ideal.ofBits .f32 0x3F800000#32)) * W (ix2 k q))
    + B (ix2 (0 : Fin 1) q))

/-- The output array as one function of the four arrays the region reads. -/
def G (A : S100000x128.Idx → EReal) (D : S100000x1.Idx → EReal) (W : S128x128.Idx → EReal) (B : S1x128.Idx → EReal) :
    S100000x128.Idx → EReal := fun i => Gpt A D W B (i 0) (i 1)

theorem G_apply (A : S100000x128.Idx → EReal) (D : S100000x1.Idx → EReal) (W : S128x128.Idx → EReal) (B : S1x128.Idx → EReal)
    (d : Fin 100000) (q : Fin 128) : G A D W B (ix2 d q) = Gpt A D W B d q := rfl

/-- One stored entry is the whole-array function at the entry's place, given that the loaded blocks are the arrays'
    rows at that place. -/
theorem point_eq (x0 : Vec Ideal S2000x128 .f32) (x1 : Vec Ideal S2000x1 .f32) (x2 : Vec Ideal S128x128 .f32)
    (x3 : Vec Ideal S1x128 .f32) (A : S100000x128.Idx → EReal) (D : S100000x1.Idx → EReal) (W : S128x128.Idx → EReal)
    (B : S1x128.Idx → EReal) (p : Fin 2000) (q : Fin 128) (d : Fin 100000)
    (h0 : ∀ k : Fin 128, x0 (ix2 p k) = A (ix2 d k)) (h1 : x1 (ix2 p (0 : Fin 1)) = D (ix2 d (0 : Fin 1)))
    (h2 : x2 = W) (h3 : x3 = B) :
    k3_pay1 x0 x1 x2 x3 (ix2 p q) = Gpt A D W B d q := by
  subst h2
  subst h3
  rw [show k3_pay1 x0 x1 x2 x3 (ix2 p q) = k2_pay1 x0 x1 x2 x3 (ix2 p q) from rfl, KBody.pay_plain_apply]
  unfold KBody.pre Gpt
  simp only [h0, h1]

/-- The same at any entry of the block and any place of the array whose coordinates match. -/
theorem point_eq' (x0 : Vec Ideal S2000x128 .f32) (x1 : Vec Ideal S2000x1 .f32) (x2 : Vec Ideal S128x128 .f32)
    (x3 : Vec Ideal S1x128 .f32) (A : S100000x128.Idx → EReal) (D : S100000x1.Idx → EReal) (W : S128x128.Idx → EReal)
    (B : S1x128.Idx → EReal) (y : S2000x128.Idx) (i : S100000x128.Idx)
    (h0 : ∀ k : Fin 128, x0 (ix2 (y 0) k) = A (ix2 (i 0) k)) (h1 : x1 (ix2 (y 0) (0 : Fin 1)) = D (ix2 (i 0) (0 : Fin 1)))
    (h2 : x2 = W) (h3 : x3 = B) (hc : (y 1).val = (i 1).val) :
    k3_pay1 x0 x1 x2 x3 y = G A D W B i := by
  have hy : y = ix2 (y 0) (y 1) := eq_ix2 y
  have hq : (i 1 : Fin 128) = y 1 := Fin.ext hc.symm
  rw [hy]
  show _ = Gpt A D W B (i 0) (i 1)
  rw [hq]
  exact point_eq x0 x1 x2 x3 A D W B (y 0) (y 1) (i 0) h0 h1 h2 h3

/-- The printed index maps, decided over the grid: the two row-blocked inputs move with the output, the weight and the
    bias stay at their one block, and the output's block row is the point's number. -/
theorem idx_facts : ∀ t : Fin cfg3.N, win3_0.index t (0 : Fin 2) = win3_4.index t (0 : Fin 2)
    ∧ win3_0.index t (1 : Fin 2) = 0
    ∧ win3_1.index t (0 : Fin 2) = win3_4.index t (0 : Fin 2)
    ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

set_option maxHeartbeats 4000000 in
/-- WHAT POINT `t` WRITES BACK is block `t` of the whole-array function of the arrays as the region finds them. -/
theorem flushed_eq (c : Dev nD) (t : Fin cfg3.N) :
    (dat3 V c).flushed 4 t = ((cfg3.win 4).blk t).view.read (Elt Ideal)
      (G (V c (Pipeline.arrRef spec3 0)) (V c (Pipeline.arrRef spec3 1)) (V c (Pipeline.arrRef spec3 2)) (V c (Pipeline.arrRef spec3 3))) := by
  show (cfg3.win 4).cut (grid3.coords t) ((dat3 V c).after 4 t) = _
  rw [after3_4]
  unfold out3_4
  rw [View.canon_unit_zero hz]
  simp only [View.ld_unit_zero (S := S2000x128) hz, View.ld_unit_zero (S := S2000x1) hz, View.ld_unit_zero (S := S128x128) hz,
    View.ld_unit_zero (S := S1x128) hz]
  obtain ⟨e00, e01, e10, e11, e20, e21, e30, e31, e40, e41⟩ := idx_facts t
  funext y
  show k3_pay1 (iblk3 V c 0 t) (iblk3 V c 1 t) (iblk3 V c 2 t) (iblk3 V c 3 t) y
    = G (V c (Pipeline.arrRef spec3 0)) (V c (Pipeline.arrRef spec3 1)) (V c (Pipeline.arrRef spec3 2)) (V c (Pipeline.arrRef spec3 3))
        (((cfg3.win 4).blk t).view.emb y)
  refine point_eq' (iblk3 V c 0 t) (iblk3 V c 1 t) (iblk3 V c 2 t) (iblk3 V c 3 t)
    (V c (Pipeline.arrRef spec3 0)) (V c (Pipeline.arrRef spec3 1)) (V c (Pipeline.arrRef spec3 2)) (V c (Pipeline.arrRef spec3 3))
    y (((cfg3.win 4).blk t).view.emb y) ?_ ?_ ?_ ?_ ?_
  · intro k
    show V c (Pipeline.arrRef spec3 0) (((cfg3.win 0).blk t).view.emb (ix2 (y 0) k)) = _
    refine congrArg (V c (Pipeline.arrRef spec3 0)) ?_
    funext a; apply Fin.ext
    match a with
    | ⟨0, _⟩ =>
      show win3_0.index t (0 : Fin 2) * 2000 + 1 * (y 0).val = win3_4.index t (0 : Fin 2) * 2000 + 1 * (y 0).val
      omega
    | ⟨1, _⟩ =>
      show win3_0.index t (1 : Fin 2) * 128 + 1 * k.val = k.val
      omega
  · show V c (Pipeline.arrRef spec3 1) (((cfg3.win 1).blk t).view.emb (ix2 (y 0) (0 : Fin 1))) = _
    refine congrArg (V c (Pipeline.arrRef spec3 1)) ?_
    funext a; apply Fin.ext
    match a with
    | ⟨0, _⟩ =>
      show win3_1.index t (0 : Fin 2) * 2000 + 1 * (y 0).val = win3_4.index t (0 : Fin 2) * 2000 + 1 * (y 0).val
      omega
    | ⟨1, _⟩ =>
      show win3_1.index t (1 : Fin 2) * 1 + 1 * 0 = 0
      omega
  · funext z
    show V c (Pipeline.arrRef spec3 2) (((cfg3.win 2).blk t).view.emb z) = V c (Pipeline.arrRef spec3 2) z
    refine congrArg (V c (Pipeline.arrRef spec3 2)) ?_
    funext a; apply Fin.ext
    match a with
    | ⟨0, _⟩ =>
      show win3_2.index t (0 : Fin 2) * 128 + 1 * (z 0).val = (z 0).val
      omega
    | ⟨1, _⟩ =>
      show win3_2.index t (1 : Fin 2) * 128 + 1 * (z 1).val = (z 1).val
      omega
  · funext z
    show V c (Pipeline.arrRef spec3 3) (((cfg3.win 3).blk t).view.emb z) = V c (Pipeline.arrRef spec3 3) z
    refine congrArg (V c (Pipeline.arrRef spec3 3)) ?_
    funext a; apply Fin.ext
    match a with
    | ⟨0, _⟩ =>
      show win3_3.index t (0 : Fin 2) * 1 + 1 * (z 0).val = (z 0).val
      omega
    | ⟨1, _⟩ =>
      show win3_3.index t (1 : Fin 2) * 128 + 1 * (z 1).val = (z 1).val
      omega
  · show (y 1).val = win3_4.index t (1 : Fin 2) * 128 + 1 * (y 1).val
    omega

/-- An index of the array is in point `t`'s block iff each coordinate is in the block's range on its axis. -/
theorem mem_blk (t : Fin cfg3.N) (i : S100000x128.Idx) :
    i ∈ ((cfg3.win 4).blk t).view.set ↔ ∀ a : Fin 2, win3_4.index t a * S2000x128.size a ≤ (i a).val
      ∧ (i a).val < win3_4.index t a * S2000x128.size a + S2000x128.size a := by
  show i ∈ ((View.whole (Pipeline.arrRef spec3 4)).slice (win3_4.rect t)).set ↔ _
  rw [View.set_slice_whole, Rect.mem_set_unit]
  exact Iff.rfl

/-- Every index of the output array lies in the block of the point numbered by its row divided by 2000. -/
theorem cover (i : S100000x128.Idx) : ∃ t : Fin cfg3.N, (cfg3.win 4).flush t = true ∧ i ∈ ((cfg3.win 4).blk t).view.set := by
  have hN : cfg3.N = 50 := N_3
  have hi0 : (i 0).val < 100000 := (i 0).isLt
  have hi1 : (i 1).val < 128 := (i 1).isLt
  refine ⟨⟨(i 0).val / 2000, by rw [hN]; omega⟩, flush3_4 _, ?_⟩
  rw [mem_blk]
  obtain ⟨-, -, -, -, -, -, -, -, e40, e41⟩ := idx_facts ⟨(i 0).val / 2000, by rw [hN]; omega⟩
  intro a
  match a with
  | ⟨0, _⟩ =>
    show win3_4.index _ (0 : Fin 2) * 2000 ≤ (i 0).val ∧ (i 0).val < win3_4.index _ (0 : Fin 2) * 2000 + 2000
    rw [e40]
    show (i 0).val / 2000 * 2000 ≤ (i 0).val ∧ (i 0).val < (i 0).val / 2000 * 2000 + 2000
    omega
  | ⟨1, _⟩ =>
    show win3_4.index _ (1 : Fin 2) * 128 ≤ (i 1).val ∧ (i 1).val < win3_4.index _ (1 : Fin 2) * 128 + 128
    rw [e41]
    omega

/-- THE OUTPUT ARRAY after the region: the whole-array function of the four arrays the region finds. -/
theorem final (c : Dev nD) : (dat3 V c).arrAt 4 cfg3.N
    = G (V c (Pipeline.arrRef spec3 0)) (V c (Pipeline.arrRef spec3 1)) (V c (Pipeline.arrRef spec3 2)) (V c (Pipeline.arrRef spec3 3)) :=
  (dat3 V c).arrAt_eq_of_cover 4 _ (fun t _ => flushed_eq V c t) (cover)

end Cert.KernelIdeal.KBlocks3

end
-- ==== Proof.KernelHostDefs.lean ====
/-
  The results of the idealized kernel's host stretches, and its four regions' outputs, as functions of the argument
  arrays: the aggregated features (a gather of source rows, then an accumulating scatter into the destination rows from
  zero), the in-degrees (an accumulating scatter of ones, reshaped to a column), the biases reshaped to rows, and each
  region's output as the whole-array function of its four input arrays.
-/
import proofs.«135114_j59107339927815_2_alg».proof.Proof.KernelBlocks0
import proofs.«135114_j59107339927815_2_alg».proof.Proof.KernelBlocks1
import proofs.«135114_j59107339927815_2_alg».proof.Proof.KernelBlocks2
import proofs.«135114_j59107339927815_2_alg».proof.Proof.KernelBlocks3

noncomputable section

namespace Cert.KernelIdeal.KHost

open Cert.KernelIdeal Cert.KernelIdeal.Facts₀ Cert.KernelIdeal.Facts
open Idealize.ShloMosaic

/-! ## The host stretches' results, as functions -/

/-- The source indices, a negative one counted from the end of a table of `Nw` rows, as a column. -/
def srcCol (Nw : BitVec 32) (src : IVec S500000 32) : IVec S500000x1 32 :=
  broadcastInDim S500000x1 ![0] bcast_S500000_S500000x1_0
    (select (cmpi .slt src (broadcastInDim S500000 ![] bcast_S_S500000 (constantI S_ 32 0#32)))
      (addi src (broadcastInDim S500000 ![] bcast_S_S500000 (constantI S_ 32 Nw))) src)

/-- The destination indices as a column. -/
def dstCol (dst : IVec S500000 32) : IVec S500000x1 32 := broadcastInDim S500000x1 ![0] bcast_S500000_S500000x1_0 dst

/-- User rows gathered along the edges and summed into the item rows. -/
def aggItem (x : FVec Ideal S100000x128 .f32) (src dst : IVec S500000 32) : FVec Ideal S50000x128 .f32 :=
  Host.scatterAdd scatter_S50000x128_S500000x1_S500000x128_1_0_0_1
    (broadcastInDim S50000x128 ![] bcast_S_S50000x128 (constant S_ .f32 0x00000000#32)) (dstCol dst)
    (Host.gather gather_S100000x128_S500000x1_S500000x128_1_0_n_n_0_1_1128 x (srcCol 100000#32 src))

/-- Item rows gathered along the edges and summed into the user rows. -/
def aggUser (x : FVec Ideal S50000x128 .f32) (src dst : IVec S500000 32) : FVec Ideal S100000x128 .f32 :=
  Host.scatterAdd scatter_S100000x128_S500000x1_S500000x128_1_0_0_1
    (broadcastInDim S100000x128 ![] bcast_S_S100000x128 (constant S_ .f32 0x00000000#32)) (dstCol dst)
    (Host.gather gather_S50000x128_S500000x1_S500000x128_1_0_n_n_0_1_1128 x (srcCol 50000#32 src))

/-- The in-degree of every item row: ones summed along the edges. -/
def degItemFlat (dst : IVec S500000 32) : FVec Ideal S50000 .f32 :=
  Host.scatterAdd scatter_S50000_S500000x1_S500000_n_0_0_1
    (broadcastInDim S50000 ![] bcast_S_S50000 (constant S_ .f32 0x00000000#32)) (dstCol dst)
    (broadcastInDim S500000 ![] bcast_S_S500000 (constant S_ .f32 0x3F800000#32))

/-- The in-degree of every user row. -/
def degUserFlat (dst : IVec S500000 32) : FVec Ideal S100000 .f32 :=
  Host.scatterAdd scatter_S100000_S500000x1_S500000_n_0_0_1
    (broadcastInDim S100000 ![] bcast_S_S100000 (constant S_ .f32 0x00000000#32)) (dstCol dst)
    (broadcastInDim S500000 ![] bcast_S_S500000 (constant S_ .f32 0x3F800000#32))

/-- The in-degrees as columns. -/
def degItem (dst : IVec S500000 32) : FVec Ideal S50000x1 .f32 := shapeCast S50000x1 (degItemFlat dst) shapeCasts_S50000_S50000x1
def degUser (dst : IVec S500000 32) : FVec Ideal S100000x1 .f32 := shapeCast S100000x1 (degUserFlat dst) shapeCasts_S100000_S100000x1

/-- A bias as a row. -/
def biasRow (b : FVec Ideal S128 .f32) : FVec Ideal S1x128 .f32 := shapeCast S1x128 b shapeCasts_S128_S1x128

/-- The first layer's item rows and user rows, then the second layer's. -/
def hItem (a0 : FVec Ideal S100000x128 .f32) (a2 a3 : IVec S500000 32) (a6 : FVec Ideal S128x128 .f32) (a7 : FVec Ideal S128 .f32) :
    FVec Ideal S50000x128 .f32 := KBlocks0.G (aggItem a0 a2 a3) (degItem a3) a6 (biasRow a7)
def hUser (a1 : FVec Ideal S50000x128 .f32) (a4 a5 : IVec S500000 32) (a8 : FVec Ideal S128x128 .f32) (a9 : FVec Ideal S128 .f32) :
    FVec Ideal S100000x128 .f32 := KBlocks1.G (aggUser a1 a4 a5) (degUser a5) a8 (biasRow a9)
def oItem (a1 : FVec Ideal S50000x128 .f32) (a2 a3 a4 a5 : IVec S500000 32) (a8 : FVec Ideal S128x128 .f32) (a9 : FVec Ideal S128 .f32)
    (a10 : FVec Ideal S128x128 .f32) (a11 : FVec Ideal S128 .f32) : FVec Ideal S50000x128 .f32 :=
  KBlocks2.G (aggItem (hUser a1 a4 a5 a8 a9) a2 a3) (degItem a3) a10 (biasRow a11)
def oUser (a0 : FVec Ideal S100000x128 .f32) (a2 a3 a4 a5 : IVec S500000 32) (a6 : FVec Ideal S128x128 .f32) (a7 : FVec Ideal S128 .f32)
    (a12 : FVec Ideal S128x128 .f32) (a13 : FVec Ideal S128 .f32) : FVec Ideal S100000x128 .f32 :=
  KBlocks3.G (aggUser (hItem a0 a2 a3 a6 a7) a4 a5) (degUser a5) a12 (biasRow a13)

end Cert.KernelIdeal.KHost

end
-- ==== Proof.KernelHostA.lean ====
/-
  The fold of the idealized kernel's boundary contents, read buffer by buffer: boundaries 1 and 2.

  A stretch of host operations leaves, at each buffer it writes, the operation's value of its operands' contents, and every
  other buffer as it was; a region leaves its output array at the whole-array function of its four input arrays and every
  other buffer as it was.  Each lemma names one buffer's contents at one boundary as a function of the argument arrays.
-/
import proofs.«135114_j59107339927815_2_alg».proof.Proof.Gen.KernelIdeal.Frame
import proofs.«135114_j59107339927815_2_alg».proof.Proof.KernelHostDefs
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.SL.Sem
open Idealize.ShloMosaic.StableHlo

variable (m : (ℓ : Loc nD τ sig) → Buf (Elt Ideal) ℓ) (ρ : Dev nD → PrngReg)

/-! ### Boundary 1 -/

/-- The buffers stretch 0 of host operations writes. -/
def written0 : List (Ref sig .tc) := [main_cst, main_v0, main_cst_0, main_v1, main_v2, main_v3, main_cst_1, main_v4, main_v5, main_v6, main_c, main_v7, main_v8, main_c_2, main_v9, main_v10, main_v11, main_v12, main_v13, main_cst_3, main_v14, main_v15, main_v16, main_v17, main_v18]

theorem hW0 : (hostOps0 : List (HloOp τ sig (Elt Ideal))).Forall fun op => op.writes ⊆ (written0.map (Proc.devRef (τ := τ) .tc)).toFinset := by
  simp only [hostOps0, List.Forall, StableHlo.nullary_writes, StableHlo.unary_writes, StableHlo.binary_writes, StableHlo.ternary_writes, StableHlo.reshape_writes]
  repeat' apply And.intro
  all_goals (refine Finset.singleton_subset_iff.mpr (List.mem_toFinset.mpr (List.mem_map.mpr ⟨_, ?_, rfl⟩)); decide)

/-- A buffer the stretch does not write keeps its contents. -/
theorem pass0 (V : Valuation τ sig (Elt Ideal)) (r : Ref sig .tc) (hr : r ∉ written0) :
    StableHlo.after hostOps0 V (Proc.devRef .tc r) = V (Proc.devRef .tc r) := after_of_writes_sub hostOps0 V hW0 hr

set_option maxHeartbeats 4000000 in
theorem W1_v16 (c : Dev nD) : W1 m ρ c (Proc.devRef .tc main_v16) = (aggItem (m ((c : Thread nD τ).loc main_arg0)) (m ((c : Thread nD τ).loc main_arg2)) (m ((c : Thread nD τ).loc main_arg3))) := by
  dsimp only [W1, hostOps0]
  after_results_simp
  rfl
set_option maxHeartbeats 4000000 in
theorem W1_v18 (c : Dev nD) : W1 m ρ c (Proc.devRef .tc main_v18) = (degItem (m ((c : Thread nD τ).loc main_arg3))) := by
  dsimp only [W1, hostOps0]
  after_results_simp
  rfl
set_option maxHeartbeats 4000000 in
theorem W1_v17 (c : Dev nD) : W1 m ρ c (Proc.devRef .tc main_v17) = (biasRow (m ((c : Thread nD τ).loc main_arg7))) := by
  dsimp only [W1, hostOps0]
  after_results_simp
  rfl
theorem W1_arg6 (c : Dev nD) : W1 m ρ c (Proc.devRef .tc main_arg6) = (m ((c : Thread nD τ).loc main_arg6)) :=
  pass0 (W0 m ρ c) main_arg6 (by decide)
set_option maxHeartbeats 4000000 in
theorem W1_v3 (c : Dev nD) : W1 m ρ c (Proc.devRef .tc main_v3) = (degItemFlat (m ((c : Thread nD τ).loc main_arg3))) := by
  dsimp only [W1, hostOps0]
  after_results_simp
  rfl
set_option maxHeartbeats 4000000 in
theorem W1_v6 (c : Dev nD) : W1 m ρ c (Proc.devRef .tc main_v6) = (degUserFlat (m ((c : Thread nD τ).loc main_arg5))) := by
  dsimp only [W1, hostOps0]
  after_results_simp
  rfl
theorem W1_arg1 (c : Dev nD) : W1 m ρ c (Proc.devRef .tc main_arg1) = (m ((c : Thread nD τ).loc main_arg1)) :=
  pass0 (W0 m ρ c) main_arg1 (by decide)
theorem W1_arg2 (c : Dev nD) : W1 m ρ c (Proc.devRef .tc main_arg2) = (m ((c : Thread nD τ).loc main_arg2)) :=
  pass0 (W0 m ρ c) main_arg2 (by decide)
theorem W1_arg3 (c : Dev nD) : W1 m ρ c (Proc.devRef .tc main_arg3) = (m ((c : Thread nD τ).loc main_arg3)) :=
  pass0 (W0 m ρ c) main_arg3 (by decide)
theorem W1_arg4 (c : Dev nD) : W1 m ρ c (Proc.devRef .tc main_arg4) = (m ((c : Thread nD τ).loc main_arg4)) :=
  pass0 (W0 m ρ c) main_arg4 (by decide)
theorem W1_arg5 (c : Dev nD) : W1 m ρ c (Proc.devRef .tc main_arg5) = (m ((c : Thread nD τ).loc main_arg5)) :=
  pass0 (W0 m ρ c) main_arg5 (by decide)
theorem W1_arg8 (c : Dev nD) : W1 m ρ c (Proc.devRef .tc main_arg8) = (m ((c : Thread nD τ).loc main_arg8)) :=
  pass0 (W0 m ρ c) main_arg8 (by decide)
theorem W1_arg9 (c : Dev nD) : W1 m ρ c (Proc.devRef .tc main_arg9) = (m ((c : Thread nD τ).loc main_arg9)) :=
  pass0 (W0 m ρ c) main_arg9 (by decide)
theorem W1_arg10 (c : Dev nD) : W1 m ρ c (Proc.devRef .tc main_arg10) = (m ((c : Thread nD τ).loc main_arg10)) :=
  pass0 (W0 m ρ c) main_arg10 (by decide)
theorem W1_arg11 (c : Dev nD) : W1 m ρ c (Proc.devRef .tc main_arg11) = (m ((c : Thread nD τ).loc main_arg11)) :=
  pass0 (W0 m ρ c) main_arg11 (by decide)
theorem W1_arg12 (c : Dev nD) : W1 m ρ c (Proc.devRef .tc main_arg12) = (m ((c : Thread nD τ).loc main_arg12)) :=
  pass0 (W0 m ρ c) main_arg12 (by decide)
theorem W1_arg13 (c : Dev nD) : W1 m ρ c (Proc.devRef .tc main_arg13) = (m ((c : Thread nD τ).loc main_arg13)) :=
  pass0 (W0 m ρ c) main_arg13 (by decide)

/-! ### Boundary 2 -/

theorem W2_v19 (c : Dev nD) : W2 m ρ c (Proc.devRef .tc main_v19) = (hItem (m ((c : Thread nD τ).loc main_arg0)) (m ((c : Thread nD τ).loc main_arg2)) (m ((c : Thread nD τ).loc main_arg3)) (m ((c : Thread nD τ).loc main_arg6)) (m ((c : Thread nD τ).loc main_arg7))) := by
  refine (W2_arr m ρ c 4).trans ?_
  rw [KBlocks0.final]
  show KBlocks0.G (W1 m ρ c (Proc.devRef .tc main_v16)) (W1 m ρ c (Proc.devRef .tc main_v18))
    (W1 m ρ c (Proc.devRef .tc main_arg6)) (W1 m ρ c (Proc.devRef .tc main_v17)) = _
  rw [W1_v16, W1_v18, W1_arg6, W1_v17]
  rfl
theorem W2_v3 (c : Dev nD) : W2 m ρ c (Proc.devRef .tc main_v3) = (degItemFlat (m ((c : Thread nD τ).loc main_arg3))) :=
  (W2_of_ne m ρ c main_v3 (by decide)).trans (W1_v3 m ρ c)
theorem W2_v6 (c : Dev nD) : W2 m ρ c (Proc.devRef .tc main_v6) = (degUserFlat (m ((c : Thread nD τ).loc main_arg5))) :=
  (W2_of_ne m ρ c main_v6 (by decide)).trans (W1_v6 m ρ c)
theorem W2_arg1 (c : Dev nD) : W2 m ρ c (Proc.devRef .tc main_arg1) = (m ((c : Thread nD τ).loc main_arg1)) :=
  (W2_of_ne m ρ c main_arg1 (by decide)).trans (W1_arg1 m ρ c)
theorem W2_arg2 (c : Dev nD) : W2 m ρ c (Proc.devRef .tc main_arg2) = (m ((c : Thread nD τ).loc main_arg2)) :=
  (W2_of_ne m ρ c main_arg2 (by decide)).trans (W1_arg2 m ρ c)
theorem W2_arg3 (c : Dev nD) : W2 m ρ c (Proc.devRef .tc main_arg3) = (m ((c : Thread nD τ).loc main_arg3)) :=
  (W2_of_ne m ρ c main_arg3 (by decide)).trans (W1_arg3 m ρ c)
theorem W2_arg4 (c : Dev nD) : W2 m ρ c (Proc.devRef .tc main_arg4) = (m ((c : Thread nD τ).loc main_arg4)) :=
  (W2_of_ne m ρ c main_arg4 (by decide)).trans (W1_arg4 m ρ c)
theorem W2_arg5 (c : Dev nD) : W2 m ρ c (Proc.devRef .tc main_arg5) = (m ((c : Thread nD τ).loc main_arg5)) :=
  (W2_of_ne m ρ c main_arg5 (by decide)).trans (W1_arg5 m ρ c)
theorem W2_arg8 (c : Dev nD) : W2 m ρ c (Proc.devRef .tc main_arg8) = (m ((c : Thread nD τ).loc main_arg8)) :=
  (W2_of_ne m ρ c main_arg8 (by decide)).trans (W1_arg8 m ρ c)
theorem W2_arg9 (c : Dev nD) : W2 m ρ c (Proc.devRef .tc main_arg9) = (m ((c : Thread nD τ).loc main_arg9)) :=
  (W2_of_ne m ρ c main_arg9 (by decide)).trans (W1_arg9 m ρ c)
theorem W2_arg10 (c : Dev nD) : W2 m ρ c (Proc.devRef .tc main_arg10) = (m ((c : Thread nD τ).loc main_arg10)) :=
  (W2_of_ne m ρ c main_arg10 (by decide)).trans (W1_arg10 m ρ c)
theorem W2_arg11 (c : Dev nD) : W2 m ρ c (Proc.devRef .tc main_arg11) = (m ((c : Thread nD τ).loc main_arg11)) :=
  (W2_of_ne m ρ c main_arg11 (by decide)).trans (W1_arg11 m ρ c)
theorem W2_arg12 (c : Dev nD) : W2 m ρ c (Proc.devRef .tc main_arg12) = (m ((c : Thread nD τ).loc main_arg12)) :=
  (W2_of_ne m ρ c main_arg12 (by decide)).trans (W1_arg12 m ρ c)
theorem W2_arg13 (c : Dev nD) : W2 m ρ c (Proc.devRef .tc main_arg13) = (m ((c : Thread nD τ).loc main_arg13)) :=
  (W2_of_ne m ρ c main_arg13 (by decide)).trans (W1_arg13 m ρ c)

end Cert.KernelIdeal.KHost

end
-- ==== Proof.KernelHostB.lean ====
/-
  The fold of the idealized kernel's boundary contents, read buffer by buffer: boundaries 3 and 4.

  A stretch of host operations leaves, at each buffer it writes, the operation's value of its operands' contents, and every
  other buffer as it was; a region leaves its output array at the whole-array function of its four input arrays and every
  other buffer as it was.  Each lemma names one buffer's contents at one boundary as a function of the argument arrays.
-/
import proofs.«135114_j59107339927815_2_alg».proof.Proof.Gen.KernelIdeal.Frame
import proofs.«135114_j59107339927815_2_alg».proof.Proof.KernelHostDefs
import proofs.«135114_j59107339927815_2_alg».proof.Proof.KernelHostA
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.SL.Sem
open Idealize.ShloMosaic.StableHlo

variable (m : (ℓ : Loc nD τ sig) → Buf (Elt Ideal) ℓ) (ρ : Dev nD → PrngReg)

/-! ### Boundary 3 -/

/-- The buffers stretch 1 of host operations writes. -/
def written1 : List (Ref sig .tc) := [main_c_4, main_v20, main_v21, main_c_5, main_v22, main_v23, main_v24, main_v25, main_v26, main_cst_6, main_v27, main_v28, main_v29, main_v30, main_v31]

theorem hW1 : (hostOps1 : List (HloOp τ sig (Elt Ideal))).Forall fun op => op.writes ⊆ (written1.map (Proc.devRef (τ := τ) .tc)).toFinset := by
  simp only [hostOps1, List.Forall, StableHlo.nullary_writes, StableHlo.unary_writes, StableHlo.binary_writes, StableHlo.ternary_writes, StableHlo.reshape_writes]
  repeat' apply And.intro
  all_goals (refine Finset.singleton_subset_iff.mpr (List.mem_toFinset.mpr (List.mem_map.mpr ⟨_, ?_, rfl⟩)); decide)

/-- A buffer the stretch does not write keeps its contents. -/
theorem pass1 (V : Valuation τ sig (Elt Ideal)) (r : Ref sig .tc) (hr : r ∉ written1) :
    StableHlo.after hostOps1 V (Proc.devRef .tc r) = V (Proc.devRef .tc r) := after_of_writes_sub hostOps1 V hW1 hr

set_option maxHeartbeats 4000000 in
theorem W3_v29 (c : Dev nD) : W3 m ρ c (Proc.devRef .tc main_v29) = (aggUser (m ((c : Thread nD τ).loc main_arg1)) (m ((c : Thread nD τ).loc main_arg4)) (m ((c : Thread nD τ).loc main_arg5))) := by
  dsimp only [W3, hostOps1]
  after_results_simp
  rw [W2_arg1, W2_arg4, W2_arg5]
  rfl
set_option maxHeartbeats 4000000 in
theorem W3_v31 (c : Dev nD) : W3 m ρ c (Proc.devRef .tc main_v31) = (degUser (m ((c : Thread nD τ).loc main_arg5))) := by
  dsimp only [W3, hostOps1]
  after_results_simp
  rw [W2_v6]
  rfl
set_option maxHeartbeats 4000000 in
theorem W3_v30 (c : Dev nD) : W3 m ρ c (Proc.devRef .tc main_v30) = (biasRow (m ((c : Thread nD τ).loc main_arg9))) := by
  dsimp only [W3, hostOps1]
  after_results_simp
  rw [W2_arg9]
  rfl
theorem W3_arg8 (c : Dev nD) : W3 m ρ c (Proc.devRef .tc main_arg8) = (m ((c : Thread nD τ).loc main_arg8)) :=
  (pass1 (W2 m ρ c) main_arg8 (by decide)).trans (W2_arg8 m ρ c)
theorem W3_v19 (c : Dev nD) : W3 m ρ c (Proc.devRef .tc main_v19) = (hItem (m ((c : Thread nD τ).loc main_arg0)) (m ((c : Thread nD τ).loc main_arg2)) (m ((c : Thread nD τ).loc main_arg3)) (m ((c : Thread nD τ).loc main_arg6)) (m ((c : Thread nD τ).loc main_arg7))) :=
  (pass1 (W2 m ρ c) main_v19 (by decide)).trans (W2_v19 m ρ c)
theorem W3_v3 (c : Dev nD) : W3 m ρ c (Proc.devRef .tc main_v3) = (degItemFlat (m ((c : Thread nD τ).loc main_arg3))) :=
  (pass1 (W2 m ρ c) main_v3 (by decide)).trans (W2_v3 m ρ c)
theorem W3_v6 (c : Dev nD) : W3 m ρ c (Proc.devRef .tc main_v6) = (degUserFlat (m ((c : Thread nD τ).loc main_arg5))) :=
  (pass1 (W2 m ρ c) main_v6 (by decide)).trans (W2_v6 m ρ c)
theorem W3_arg2 (c : Dev nD) : W3 m ρ c (Proc.devRef .tc main_arg2) = (m ((c : Thread nD τ).loc main_arg2)) :=
  (pass1 (W2 m ρ c) main_arg2 (by decide)).trans (W2_arg2 m ρ c)
theorem W3_arg3 (c : Dev nD) : W3 m ρ c (Proc.devRef .tc main_arg3) = (m ((c : Thread nD τ).loc main_arg3)) :=
  (pass1 (W2 m ρ c) main_arg3 (by decide)).trans (W2_arg3 m ρ c)
theorem W3_arg4 (c : Dev nD) : W3 m ρ c (Proc.devRef .tc main_arg4) = (m ((c : Thread nD τ).loc main_arg4)) :=
  (pass1 (W2 m ρ c) main_arg4 (by decide)).trans (W2_arg4 m ρ c)
theorem W3_arg5 (c : Dev nD) : W3 m ρ c (Proc.devRef .tc main_arg5) = (m ((c : Thread nD τ).loc main_arg5)) :=
  (pass1 (W2 m ρ c) main_arg5 (by decide)).trans (W2_arg5 m ρ c)
theorem W3_arg10 (c : Dev nD) : W3 m ρ c (Proc.devRef .tc main_arg10) = (m ((c : Thread nD τ).loc main_arg10)) :=
  (pass1 (W2 m ρ c) main_arg10 (by decide)).trans (W2_arg10 m ρ c)
theorem W3_arg11 (c : Dev nD) : W3 m ρ c (Proc.devRef .tc main_arg11) = (m ((c : Thread nD τ).loc main_arg11)) :=
  (pass1 (W2 m ρ c) main_arg11 (by decide)).trans (W2_arg11 m ρ c)
theorem W3_arg12 (c : Dev nD) : W3 m ρ c (Proc.devRef .tc main_arg12) = (m ((c : Thread nD τ).loc main_arg12)) :=
  (pass1 (W2 m ρ c) main_arg12 (by decide)).trans (W2_arg12 m ρ c)
theorem W3_arg13 (c : Dev nD) : W3 m ρ c (Proc.devRef .tc main_arg13) = (m ((c : Thread nD τ).loc main_arg13)) :=
  (pass1 (W2 m ρ c) main_arg13 (by decide)).trans (W2_arg13 m ρ c)

/-! ### Boundary 4 -/

theorem W4_v32 (c : Dev nD) : W4 m ρ c (Proc.devRef .tc main_v32) = (hUser (m ((c : Thread nD τ).loc main_arg1)) (m ((c : Thread nD τ).loc main_arg4)) (m ((c : Thread nD τ).loc main_arg5)) (m ((c : Thread nD τ).loc main_arg8)) (m ((c : Thread nD τ).loc main_arg9))) := by
  refine (W4_arr m ρ c 4).trans ?_
  rw [KBlocks1.final]
  show KBlocks1.G (W3 m ρ c (Proc.devRef .tc main_v29)) (W3 m ρ c (Proc.devRef .tc main_v31))
    (W3 m ρ c (Proc.devRef .tc main_arg8)) (W3 m ρ c (Proc.devRef .tc main_v30)) = _
  rw [W3_v29, W3_v31, W3_arg8, W3_v30]
  rfl
theorem W4_v19 (c : Dev nD) : W4 m ρ c (Proc.devRef .tc main_v19) = (hItem (m ((c : Thread nD τ).loc main_arg0)) (m ((c : Thread nD τ).loc main_arg2)) (m ((c : Thread nD τ).loc main_arg3)) (m ((c : Thread nD τ).loc main_arg6)) (m ((c : Thread nD τ).loc main_arg7))) :=
  (W4_of_ne m ρ c main_v19 (by decide)).trans (W3_v19 m ρ c)
theorem W4_v3 (c : Dev nD) : W4 m ρ c (Proc.devRef .tc main_v3) = (degItemFlat (m ((c : Thread nD τ).loc main_arg3))) :=
  (W4_of_ne m ρ c main_v3 (by decide)).trans (W3_v3 m ρ c)
theorem W4_v6 (c : Dev nD) : W4 m ρ c (Proc.devRef .tc main_v6) = (degUserFlat (m ((c : Thread nD τ).loc main_arg5))) :=
  (W4_of_ne m ρ c main_v6 (by decide)).trans (W3_v6 m ρ c)
theorem W4_arg2 (c : Dev nD) : W4 m ρ c (Proc.devRef .tc main_arg2) = (m ((c : Thread nD τ).loc main_arg2)) :=
  (W4_of_ne m ρ c main_arg2 (by decide)).trans (W3_arg2 m ρ c)
theorem W4_arg3 (c : Dev nD) : W4 m ρ c (Proc.devRef .tc main_arg3) = (m ((c : Thread nD τ).loc main_arg3)) :=
  (W4_of_ne m ρ c main_arg3 (by decide)).trans (W3_arg3 m ρ c)
theorem W4_arg4 (c : Dev nD) : W4 m ρ c (Proc.devRef .tc main_arg4) = (m ((c : Thread nD τ).loc main_arg4)) :=
  (W4_of_ne m ρ c main_arg4 (by decide)).trans (W3_arg4 m ρ c)
theorem W4_arg5 (c : Dev nD) : W4 m ρ c (Proc.devRef .tc main_arg5) = (m ((c : Thread nD τ).loc main_arg5)) :=
  (W4_of_ne m ρ c main_arg5 (by decide)).trans (W3_arg5 m ρ c)
theorem W4_arg10 (c : Dev nD) : W4 m ρ c (Proc.devRef .tc main_arg10) = (m ((c : Thread nD τ).loc main_arg10)) :=
  (W4_of_ne m ρ c main_arg10 (by decide)).trans (W3_arg10 m ρ c)
theorem W4_arg11 (c : Dev nD) : W4 m ρ c (Proc.devRef .tc main_arg11) = (m ((c : Thread nD τ).loc main_arg11)) :=
  (W4_of_ne m ρ c main_arg11 (by decide)).trans (W3_arg11 m ρ c)
theorem W4_arg12 (c : Dev nD) : W4 m ρ c (Proc.devRef .tc main_arg12) = (m ((c : Thread nD τ).loc main_arg12)) :=
  (W4_of_ne m ρ c main_arg12 (by decide)).trans (W3_arg12 m ρ c)
theorem W4_arg13 (c : Dev nD) : W4 m ρ c (Proc.devRef .tc main_arg13) = (m ((c : Thread nD τ).loc main_arg13)) :=
  (W4_of_ne m ρ c main_arg13 (by decide)).trans (W3_arg13 m ρ c)

end Cert.KernelIdeal.KHost

end
-- ==== Proof.KernelHostC.lean ====
/-
  The fold of the idealized kernel's boundary contents, read buffer by buffer: boundaries 5 and 6.

  A stretch of host operations leaves, at each buffer it writes, the operation's value of its operands' contents, and every
  other buffer as it was; a region leaves its output array at the whole-array function of its four input arrays and every
  other buffer as it was.  Each lemma names one buffer's contents at one boundary as a function of the argument arrays.
-/
import proofs.«135114_j59107339927815_2_alg».proof.Proof.Gen.KernelIdeal.Frame
import proofs.«135114_j59107339927815_2_alg».proof.Proof.KernelHostDefs
import proofs.«135114_j59107339927815_2_alg».proof.Proof.KernelHostB
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.SL.Sem
open Idealize.ShloMosaic.StableHlo

variable (m : (ℓ : Loc nD τ sig) → Buf (Elt Ideal) ℓ) (ρ : Dev nD → PrngReg)

/-! ### Boundary 5 -/

/-- The buffers stretch 2 of host operations writes. -/
def written2 : List (Ref sig .tc) := [main_c_7, main_v33, main_v34, main_c_8, main_v35, main_v36, main_v37, main_v38, main_v39, main_cst_9, main_v40, main_v41, main_v42, main_v43, main_v44]

theorem hW2 : (hostOps2 : List (HloOp τ sig (Elt Ideal))).Forall fun op => op.writes ⊆ (written2.map (Proc.devRef (τ := τ) .tc)).toFinset := by
  simp only [hostOps2, List.Forall, StableHlo.nullary_writes, StableHlo.unary_writes, StableHlo.binary_writes, StableHlo.ternary_writes, StableHlo.reshape_writes]
  repeat' apply And.intro
  all_goals (refine Finset.singleton_subset_iff.mpr (List.mem_toFinset.mpr (List.mem_map.mpr ⟨_, ?_, rfl⟩)); decide)

/-- A buffer the stretch does not write keeps its contents. -/
theorem pass2 (V : Valuation τ sig (Elt Ideal)) (r : Ref sig .tc) (hr : r ∉ written2) :
    StableHlo.after hostOps2 V (Proc.devRef .tc r) = V (Proc.devRef .tc r) := after_of_writes_sub hostOps2 V hW2 hr

set_option maxHeartbeats 4000000 in
theorem W5_v42 (c : Dev nD) : W5 m ρ c (Proc.devRef .tc main_v42) = (aggItem (hUser (m ((c : Thread nD τ).loc main_arg1)) (m ((c : Thread nD τ).loc main_arg4)) (m ((c : Thread nD τ).loc main_arg5)) (m ((c : Thread nD τ).loc main_arg8)) (m ((c : Thread nD τ).loc main_arg9))) (m ((c : Thread nD τ).loc main_arg2)) (m ((c : Thread nD τ).loc main_arg3))) := by
  dsimp only [W5, hostOps2]
  after_results_simp
  rw [W4_v32, W4_arg2, W4_arg3]
  rfl
set_option maxHeartbeats 4000000 in
theorem W5_v44 (c : Dev nD) : W5 m ρ c (Proc.devRef .tc main_v44) = (degItem (m ((c : Thread nD τ).loc main_arg3))) := by
  dsimp only [W5, hostOps2]
  after_results_simp
  rw [W4_v3]
  rfl
set_option maxHeartbeats 4000000 in
theorem W5_v43 (c : Dev nD) : W5 m ρ c (Proc.devRef .tc main_v43) = (biasRow (m ((c : Thread nD τ).loc main_arg11))) := by
  dsimp only [W5, hostOps2]
  after_results_simp
  rw [W4_arg11]
  rfl
theorem W5_arg10 (c : Dev nD) : W5 m ρ c (Proc.devRef .tc main_arg10) = (m ((c : Thread nD τ).loc main_arg10)) :=
  (pass2 (W4 m ρ c) main_arg10 (by decide)).trans (W4_arg10 m ρ c)
theorem W5_v19 (c : Dev nD) : W5 m ρ c (Proc.devRef .tc main_v19) = (hItem (m ((c : Thread nD τ).loc main_arg0)) (m ((c : Thread nD τ).loc main_arg2)) (m ((c : Thread nD τ).loc main_arg3)) (m ((c : Thread nD τ).loc main_arg6)) (m ((c : Thread nD τ).loc main_arg7))) :=
  (pass2 (W4 m ρ c) main_v19 (by decide)).trans (W4_v19 m ρ c)
theorem W5_v6 (c : Dev nD) : W5 m ρ c (Proc.devRef .tc main_v6) = (degUserFlat (m ((c : Thread nD τ).loc main_arg5))) :=
  (pass2 (W4 m ρ c) main_v6 (by decide)).trans (W4_v6 m ρ c)
theorem W5_arg4 (c : Dev nD) : W5 m ρ c (Proc.devRef .tc main_arg4) = (m ((c : Thread nD τ).loc main_arg4)) :=
  (pass2 (W4 m ρ c) main_arg4 (by decide)).trans (W4_arg4 m ρ c)
theorem W5_arg5 (c : Dev nD) : W5 m ρ c (Proc.devRef .tc main_arg5) = (m ((c : Thread nD τ).loc main_arg5)) :=
  (pass2 (W4 m ρ c) main_arg5 (by decide)).trans (W4_arg5 m ρ c)
theorem W5_arg12 (c : Dev nD) : W5 m ρ c (Proc.devRef .tc main_arg12) = (m ((c : Thread nD τ).loc main_arg12)) :=
  (pass2 (W4 m ρ c) main_arg12 (by decide)).trans (W4_arg12 m ρ c)
theorem W5_arg13 (c : Dev nD) : W5 m ρ c (Proc.devRef .tc main_arg13) = (m ((c : Thread nD τ).loc main_arg13)) :=
  (pass2 (W4 m ρ c) main_arg13 (by decide)).trans (W4_arg13 m ρ c)

/-! ### Boundary 6 -/

theorem W6_v45 (c : Dev nD) : W6 m ρ c (Proc.devRef .tc main_v45) = (oItem (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11))) := by
  refine (W6_arr m ρ c 4).trans ?_
  rw [KBlocks2.final]
  show KBlocks2.G (W5 m ρ c (Proc.devRef .tc main_v42)) (W5 m ρ c (Proc.devRef .tc main_v44))
    (W5 m ρ c (Proc.devRef .tc main_arg10)) (W5 m ρ c (Proc.devRef .tc main_v43)) = _
  rw [W5_v42, W5_v44, W5_arg10, W5_v43]
  rfl
theorem W6_v19 (c : Dev nD) : W6 m ρ c (Proc.devRef .tc main_v19) = (hItem (m ((c : Thread nD τ).loc main_arg0)) (m ((c : Thread nD τ).loc main_arg2)) (m ((c : Thread nD τ).loc main_arg3)) (m ((c : Thread nD τ).loc main_arg6)) (m ((c : Thread nD τ).loc main_arg7))) :=
  (W6_of_ne m ρ c main_v19 (by decide)).trans (W5_v19 m ρ c)
theorem W6_v6 (c : Dev nD) : W6 m ρ c (Proc.devRef .tc main_v6) = (degUserFlat (m ((c : Thread nD τ).loc main_arg5))) :=
  (W6_of_ne m ρ c main_v6 (by decide)).trans (W5_v6 m ρ c)
theorem W6_arg4 (c : Dev nD) : W6 m ρ c (Proc.devRef .tc main_arg4) = (m ((c : Thread nD τ).loc main_arg4)) :=
  (W6_of_ne m ρ c main_arg4 (by decide)).trans (W5_arg4 m ρ c)
theorem W6_arg5 (c : Dev nD) : W6 m ρ c (Proc.devRef .tc main_arg5) = (m ((c : Thread nD τ).loc main_arg5)) :=
  (W6_of_ne m ρ c main_arg5 (by decide)).trans (W5_arg5 m ρ c)
theorem W6_arg12 (c : Dev nD) : W6 m ρ c (Proc.devRef .tc main_arg12) = (m ((c : Thread nD τ).loc main_arg12)) :=
  (W6_of_ne m ρ c main_arg12 (by decide)).trans (W5_arg12 m ρ c)
theorem W6_arg13 (c : Dev nD) : W6 m ρ c (Proc.devRef .tc main_arg13) = (m ((c : Thread nD τ).loc main_arg13)) :=
  (W6_of_ne m ρ c main_arg13 (by decide)).trans (W5_arg13 m ρ c)

end Cert.KernelIdeal.KHost

end
-- ==== Proof.KernelHostD.lean ====
/-
  The fold of the idealized kernel's boundary contents, read buffer by buffer: boundaries 7 and 8.

  A stretch of host operations leaves, at each buffer it writes, the operation's value of its operands' contents, and every
  other buffer as it was; a region leaves its output array at the whole-array function of its four input arrays and every
  other buffer as it was.  Each lemma names one buffer's contents at one boundary as a function of the argument arrays.
-/
import proofs.«135114_j59107339927815_2_alg».proof.Proof.Gen.KernelIdeal.Frame
import proofs.«135114_j59107339927815_2_alg».proof.Proof.KernelHostDefs
import proofs.«135114_j59107339927815_2_alg».proof.Proof.KernelHostC
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.SL.Sem
open Idealize.ShloMosaic.StableHlo

variable (m : (ℓ : Loc nD τ sig) → Buf (Elt Ideal) ℓ) (ρ : Dev nD → PrngReg)

/-! ### Boundary 7 -/

/-- The buffers stretch 3 of host operations writes. -/
def written3 : List (Ref sig .tc) := [main_c_10, main_v46, main_v47, main_c_11, main_v48, main_v49, main_v50, main_v51, main_v52, main_cst_12, main_v53, main_v54, main_v55, main_v56, main_v57]

theorem hW3 : (hostOps3 : List (HloOp τ sig (Elt Ideal))).Forall fun op => op.writes ⊆ (written3.map (Proc.devRef (τ := τ) .tc)).toFinset := by
  simp only [hostOps3, List.Forall, StableHlo.nullary_writes, StableHlo.unary_writes, StableHlo.binary_writes, StableHlo.ternary_writes, StableHlo.reshape_writes]
  repeat' apply And.intro
  all_goals (refine Finset.singleton_subset_iff.mpr (List.mem_toFinset.mpr (List.mem_map.mpr ⟨_, ?_, rfl⟩)); decide)

/-- A buffer the stretch does not write keeps its contents. -/
theorem pass3 (V : Valuation τ sig (Elt Ideal)) (r : Ref sig .tc) (hr : r ∉ written3) :
    StableHlo.after hostOps3 V (Proc.devRef .tc r) = V (Proc.devRef .tc r) := after_of_writes_sub hostOps3 V hW3 hr

set_option maxHeartbeats 4000000 in
theorem W7_v55 (c : Dev nD) : W7 m ρ c (Proc.devRef .tc main_v55) = (aggUser (hItem (m ((c : Thread nD τ).loc main_arg0)) (m ((c : Thread nD τ).loc main_arg2)) (m ((c : Thread nD τ).loc main_arg3)) (m ((c : Thread nD τ).loc main_arg6)) (m ((c : Thread nD τ).loc main_arg7))) (m ((c : Thread nD τ).loc main_arg4)) (m ((c : Thread nD τ).loc main_arg5))) := by
  dsimp only [W7, hostOps3]
  after_results_simp
  rw [W6_v19, W6_arg4, W6_arg5]
  rfl
set_option maxHeartbeats 4000000 in
theorem W7_v57 (c : Dev nD) : W7 m ρ c (Proc.devRef .tc main_v57) = (degUser (m ((c : Thread nD τ).loc main_arg5))) := by
  dsimp only [W7, hostOps3]
  after_results_simp
  rw [W6_v6]
  rfl
set_option maxHeartbeats 4000000 in
theorem W7_v56 (c : Dev nD) : W7 m ρ c (Proc.devRef .tc main_v56) = (biasRow (m ((c : Thread nD τ).loc main_arg13))) := by
  dsimp only [W7, hostOps3]
  after_results_simp
  rw [W6_arg13]
  rfl
theorem W7_arg12 (c : Dev nD) : W7 m ρ c (Proc.devRef .tc main_arg12) = (m ((c : Thread nD τ).loc main_arg12)) :=
  (pass3 (W6 m ρ c) main_arg12 (by decide)).trans (W6_arg12 m ρ c)
theorem W7_v45 (c : Dev nD) : W7 m ρ c (Proc.devRef .tc main_v45) = (oItem (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11))) :=
  (pass3 (W6 m ρ c) main_v45 (by decide)).trans (W6_v45 m ρ c)

/-! ### Boundary 8 -/

theorem W8_v58 (c : Dev nD) : W8 m ρ c (Proc.devRef .tc main_v58) = (oUser (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13))) := by
  refine (W8_arr m ρ c 4).trans ?_
  rw [KBlocks3.final]
  show KBlocks3.G (W7 m ρ c (Proc.devRef .tc main_v55)) (W7 m ρ c (Proc.devRef .tc main_v57))
    (W7 m ρ c (Proc.devRef .tc main_arg12)) (W7 m ρ c (Proc.devRef .tc main_v56)) = _
  rw [W7_v55, W7_v57, W7_arg12, W7_v56]
  rfl
theorem W8_v45 (c : Dev nD) : W8 m ρ c (Proc.devRef .tc main_v45) = (oItem (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11))) :=
  (W8_of_ne m ρ c main_v45 (by decide)).trans (W7_v45 m ρ c)

end Cert.KernelIdeal.KHost

end
-- ==== Proof.KernelValue.lean ====
/-
  The idealized kernel's run, read: every weakly fair execution terminates without a fault, the two result arrays end at
  the two-layer functions of the argument arrays (the second layer's user rows and item rows), and the arguments end
  unchanged.
-/
import proofs.«135114_j59107339927815_2_alg».proof.Proof.KernelRun
import proofs.«135114_j59107339927815_2_alg».proof.Proof.KernelHostD

noncomputable section

namespace Cert.KernelIdeal.KValue

open Cert.KernelIdeal Cert.KernelIdeal.Gen Cert.KernelIdeal.KHost
open Idealize.ShloMosaic Idealize.ShloMosaic.TcCoe Idealize.SL.Sem

variable (m : (ℓ : Loc nD τ sig) → Buf (Elt Ideal) ℓ) (ρ : Dev nD → PrngReg)

theorem run : θ_run (defs (F := Ideal)) (onTc (τ := τ) (main (F := Ideal))) ⟨m, fun _ => 0, ρ⟩ (fun r => ∀ c : Dev nD,
      r.2.mem ((c.tc : Thread nD τ).loc main_v58) = oUser (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg12)) (m ((c.tc : Thread nD τ).loc main_arg13))
      ∧ r.2.mem ((c.tc : Thread nD τ).loc main_v45) = oItem (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run (defs (F := Ideal)) _ _).mono
    (fun r h c => ⟨(h c).1.trans (W8_v58 m ρ c), (h c).2.1.trans (W8_v45 m ρ c), (h c).2.2⟩)
    (Cert.KernelIdeal.KRun.run_values (F := Ideal) m ρ)

end Cert.KernelIdeal.KValue

end
-- ==== Proof.RefRun.lean ====
/-
  The reference program's run. Its @main is one straight line of 136 host operations once each outlined
  function is read at its call site over that call's buffers: four graph-convolution updates (project the source
  rows, gather them along the edges, add them into the destination rows, divide by the in-degree clamped below by
  one, add the bias) with a leaky rectifier between the two layers. The line is listed, shown equal to @main, and
  its two results are read back as named pure functions of the fourteen argument arrays.
-/
import proofs.«135114_j59107339927815_2_alg».proof.Proof.Gen.ReferenceIdeal
import Idealize.ShloMosaic.Lib.StableHlo.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 136 operations, in program order; a call's operations stand at the call, over that call's buffers. -/
abbrev ops : List (HloOp τ sig (Elt F)) :=
  [ StableHlo.binary main_arg0 main_arg6 main_v0 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c (constantI S_ 32 0#32),
    StableHlo.unary main_c main_v1 (broadcastInDim S500000 ![] bcast_S_S500000 : (⟨S_, .i32⟩ : BufTy).Contents (Elt F) → (⟨S500000, .i32⟩ : BufTy).Contents (Elt F)),
    StableHlo.binary main_arg2 main_v1 main_v2 (cmpi .slt : (⟨S500000, .i32⟩ : BufTy).Contents (Elt F) → (⟨S500000, .i32⟩ : BufTy).Contents (Elt F) → (⟨S500000, .i1⟩ : BufTy).Contents (Elt F)),
    StableHlo.nullary main_c_0 (constantI S_ 32 100000#32),
    StableHlo.unary main_c_0 main_v3 (broadcastInDim S500000 ![] bcast_S_S500000 : (⟨S_, .i32⟩ : BufTy).Contents (Elt F) → (⟨S500000, .i32⟩ : BufTy).Contents (Elt F)),
    StableHlo.binary main_arg2 main_v3 main_v4 (addi : (⟨S500000, .i32⟩ : BufTy).Contents (Elt F) → (⟨S500000, .i32⟩ : BufTy).Contents (Elt F) → (⟨S500000, .i32⟩ : BufTy).Contents (Elt F)),
    StableHlo.ternary main_v2 main_v4 main_arg2 main_v5 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v5 main_v6 (broadcastInDim S500000x1 ![0] bcast_S500000_S500000x1_0 : (⟨S500000, .i32⟩ : BufTy).Contents (Elt F) → (⟨S500000x1, .i32⟩ : BufTy).Contents (Elt F)),
    StableHlo.binary main_v0 main_v6 main_v7 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    StableHlo.nullary main_cst (constant S_ .f32 0x00000000#32),
    StableHlo.unary main_cst main_v8 (broadcastInDim S50000x128 ![] bcast_S_S50000x128 : (⟨S_, .f32⟩ : BufTy).Contents (Elt F) → (⟨S50000x128, .f32⟩ : BufTy).Contents (Elt F)),
    StableHlo.unary main_arg3 main_v9 (broadcastInDim S500000x1 ![0] bcast_S500000_S500000x1_0 : (⟨S500000, .i32⟩ : BufTy).Contents (Elt F) → (⟨S500000x1, .i32⟩ : BufTy).Contents (Elt F)),
    StableHlo.ternary main_v8 main_v9 main_v7 main_v10 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    StableHlo.nullary main_cst_1 (constant S_ .f32 0x3F800000#32),
    StableHlo.unary main_cst_1 main_v11 (broadcastInDim S500000 ![] bcast_S_S500000 : (⟨S_, .f32⟩ : BufTy).Contents (Elt F) → (⟨S500000, .f32⟩ : BufTy).Contents (Elt F)),
    StableHlo.nullary main_cst_2 (constant S_ .f32 0x00000000#32),
    StableHlo.unary main_cst_2 main_v12 (broadcastInDim S50000 ![] bcast_S_S50000 : (⟨S_, .f32⟩ : BufTy).Contents (Elt F) → (⟨S50000, .f32⟩ : BufTy).Contents (Elt F)),
    StableHlo.unary main_arg3 main_v13 (broadcastInDim S500000x1 ![0] bcast_S500000_S500000x1_0 : (⟨S500000, .i32⟩ : BufTy).Contents (Elt F) → (⟨S500000x1, .i32⟩ : BufTy).Contents (Elt F)),
    StableHlo.ternary main_v12 main_v13 main_v11 main_v14 ((fun x i u => Host.scatterAdd scatter_S50000_S500000x1_S500000_n_0_0_1 x i u) : (⟨S50000, .f32⟩ : BufTy).Contents (Elt F) → (⟨S500000x1, .i32⟩ : BufTy).Contents (Elt F) → (⟨S500000, .f32⟩ : BufTy).Contents (Elt F) → (⟨S50000, .f32⟩ : BufTy).Contents (Elt F)),
    StableHlo.nullary main_cst_3 (constant S_ .f32 0x3F800000#32),
    TRef.unary (.of main_cst_3 : TRef sig ⟨S_, .f32⟩) main_call0.v0 id,
    TRef.unary main_call0.v0 main_call0.v1 (broadcastInDim S50000 ![] bcast_S_S50000),
    TRef.binary main_call0.v1 (.of main_v14 : TRef sig ⟨S50000, .f32⟩) main_call0.v2 maximumf,
    StableHlo.unary main_v15 main_v16 (broadcastInDim S50000x1 ![0] bcast_S50000_S50000x1_0 : (⟨S50000, .f32⟩ : BufTy).Contents (Elt F) → (⟨S50000x1, .f32⟩ : BufTy).Contents (Elt F)),
    StableHlo.unary main_v16 main_v17 (broadcastInDim S50000x128 ![0, 1] bcast_S50000x1_S50000x128_0_1 : (⟨S50000x1, .f32⟩ : BufTy).Contents (Elt F) → (⟨S50000x128, .f32⟩ : BufTy).Contents (Elt F)),
    StableHlo.binary main_v10 main_v17 main_v18 (Host.divf : (⟨S50000x128, .f32⟩ : BufTy).Contents (Elt F) → (⟨S50000x128, .f32⟩ : BufTy).Contents (Elt F) → (⟨S50000x128, .f32⟩ : BufTy).Contents (Elt F)),
    StableHlo.unary main_arg7 main_v19 (broadcastInDim S1x128 ![1] bcast_S128_S1x128_1 : (⟨S128, .f32⟩ : BufTy).Contents (Elt F) → (⟨S1x128, .f32⟩ : BufTy).Contents (Elt F)),
    StableHlo.unary main_v19 main_v20 (broadcastInDim S50000x128 ![0, 1] bcast_S1x128_S50000x128_0_1 : (⟨S1x128, .f32⟩ : BufTy).Contents (Elt F) → (⟨S50000x128, .f32⟩ : BufTy).Contents (Elt F)),
    StableHlo.binary main_v18 main_v20 main_v21 (addf : (⟨S50000x128, .f32⟩ : BufTy).Contents (Elt F) → (⟨S50000x128, .f32⟩ : BufTy).Contents (Elt F) → (⟨S50000x128, .f32⟩ : BufTy).Contents (Elt F)),
    StableHlo.binary main_arg1 main_arg8 main_v22 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_4 (constantI S_ 32 0#32),
    StableHlo.unary main_c_4 main_v23 (broadcastInDim S500000 ![] bcast_S_S500000 : (⟨S_, .i32⟩ : BufTy).Contents (Elt F) → (⟨S500000, .i32⟩ : BufTy).Contents (Elt F)),
    StableHlo.binary main_arg4 main_v23 main_v24 (cmpi .slt : (⟨S500000, .i32⟩ : BufTy).Contents (Elt F) → (⟨S500000, .i32⟩ : BufTy).Contents (Elt F) → (⟨S500000, .i1⟩ : BufTy).Contents (Elt F)),
    StableHlo.nullary main_c_5 (constantI S_ 32 50000#32),
    StableHlo.unary main_c_5 main_v25 (broadcastInDim S500000 ![] bcast_S_S500000 : (⟨S_, .i32⟩ : BufTy).Contents (Elt F) → (⟨S500000, .i32⟩ : BufTy).Contents (Elt F)),
    StableHlo.binary main_arg4 main_v25 main_v26 (addi : (⟨S500000, .i32⟩ : BufTy).Contents (Elt F) → (⟨S500000, .i32⟩ : BufTy).Contents (Elt F) → (⟨S500000, .i32⟩ : BufTy).Contents (Elt F)),
    StableHlo.ternary main_v24 main_v26 main_arg4 main_v27 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v27 main_v28 (broadcastInDim S500000x1 ![0] bcast_S500000_S500000x1_0 : (⟨S500000, .i32⟩ : BufTy).Contents (Elt F) → (⟨S500000x1, .i32⟩ : BufTy).Contents (Elt F)),
    StableHlo.binary main_v22 main_v28 main_v29 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    StableHlo.nullary main_cst_6 (constant S_ .f32 0x00000000#32),
    StableHlo.unary main_cst_6 main_v30 (broadcastInDim S100000x128 ![] bcast_S_S100000x128 : (⟨S_, .f32⟩ : BufTy).Contents (Elt F) → (⟨S100000x128, .f32⟩ : BufTy).Contents (Elt F)),
    StableHlo.unary main_arg5 main_v31 (broadcastInDim S500000x1 ![0] bcast_S500000_S500000x1_0 : (⟨S500000, .i32⟩ : BufTy).Contents (Elt F) → (⟨S500000x1, .i32⟩ : BufTy).Contents (Elt F)),
    StableHlo.ternary main_v30 main_v31 main_v29 main_v32 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    StableHlo.nullary main_cst_7 (constant S_ .f32 0x3F800000#32),
    StableHlo.unary main_cst_7 main_v33 (broadcastInDim S500000 ![] bcast_S_S500000 : (⟨S_, .f32⟩ : BufTy).Contents (Elt F) → (⟨S500000, .f32⟩ : BufTy).Contents (Elt F)),
    StableHlo.nullary main_cst_8 (constant S_ .f32 0x00000000#32),
    StableHlo.unary main_cst_8 main_v34 (broadcastInDim S100000 ![] bcast_S_S100000 : (⟨S_, .f32⟩ : BufTy).Contents (Elt F) → (⟨S100000, .f32⟩ : BufTy).Contents (Elt F)),
    StableHlo.unary main_arg5 main_v35 (broadcastInDim S500000x1 ![0] bcast_S500000_S500000x1_0 : (⟨S500000, .i32⟩ : BufTy).Contents (Elt F) → (⟨S500000x1, .i32⟩ : BufTy).Contents (Elt F)),
    StableHlo.ternary main_v34 main_v35 main_v33 main_v36 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    StableHlo.nullary main_cst_9 (constant S_ .f32 0x3F800000#32),
    TRef.unary (.of main_cst_9 : TRef sig ⟨S_, .f32⟩) main_call1.v0 id,
    TRef.unary main_call1.v0 main_call1.v1 (broadcastInDim S100000 ![] bcast_S_S100000),
    TRef.binary main_call1.v1 (.of main_v36 : TRef sig ⟨S100000, .f32⟩) main_call1.v2 maximumf,
    StableHlo.unary main_v37 main_v38 (broadcastInDim S100000x1 ![0] bcast_S100000_S100000x1_0 : (⟨S100000, .f32⟩ : BufTy).Contents (Elt F) → (⟨S100000x1, .f32⟩ : BufTy).Contents (Elt F)),
    StableHlo.unary main_v38 main_v39 (broadcastInDim S100000x128 ![0, 1] bcast_S100000x1_S100000x128_0_1 : (⟨S100000x1, .f32⟩ : BufTy).Contents (Elt F) → (⟨S100000x128, .f32⟩ : BufTy).Contents (Elt F)),
    StableHlo.binary main_v32 main_v39 main_v40 (Host.divf : (⟨S100000x128, .f32⟩ : BufTy).Contents (Elt F) → (⟨S100000x128, .f32⟩ : BufTy).Contents (Elt F) → (⟨S100000x128, .f32⟩ : BufTy).Contents (Elt F)),
    StableHlo.unary main_arg9 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v42 main_v43 (addf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x3C23D70A#32),
    TRef.nullary main_call2.cst (constant S_ .f32 0x00000000#32),
    TRef.unary main_call2.cst main_call2.v0 (broadcastInDim S50000x128 ![] bcast_S_S50000x128),
    TRef.binary (.of main_v21 : TRef sig ⟨S50000x128, .f32⟩) main_call2.v0 main_call2.v1 (cmpf .oge),
    TRef.unary (.of main_cst_10 : TRef sig ⟨S_, .f32⟩) main_call2.v2 id,
    TRef.unary main_call2.v2 main_call2.v3 (broadcastInDim S50000x128 ![] bcast_S_S50000x128),
    TRef.binary main_call2.v3 (.of main_v21 : TRef sig ⟨S50000x128, .f32⟩) main_call2.v4 mulf,
    TRef.ternary main_call2.v1 (.of main_v21 : TRef sig ⟨S50000x128, .f32⟩) main_call2.v4 main_call2.call0.v0 select,
    StableHlo.nullary main_cst_11 (constant S_ .f32 0x3C23D70A#32),
    TRef.nullary main_call3.cst (constant S_ .f32 0x00000000#32),
    TRef.unary main_call3.cst main_call3.v0 (broadcastInDim S100000x128 ![] bcast_S_S100000x128),
    TRef.binary (.of main_v43 : TRef sig ⟨S100000x128, .f32⟩) main_call3.v0 main_call3.v1 (cmpf .oge),
    TRef.unary (.of main_cst_11 : TRef sig ⟨S_, .f32⟩) main_call3.v2 id,
    TRef.unary main_call3.v2 main_call3.v3 (broadcastInDim S100000x128 ![] bcast_S_S100000x128),
    TRef.binary main_call3.v3 (.of main_v43 : TRef sig ⟨S100000x128, .f32⟩) main_call3.v4 mulf,
    TRef.ternary main_call3.v1 (.of main_v43 : TRef sig ⟨S100000x128, .f32⟩) main_call3.v4 main_call3.call0.v0 select,
    StableHlo.binary main_v45 main_arg10 main_v46 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_12 (constantI S_ 32 0#32),
    StableHlo.unary main_c_12 main_v47 (broadcastInDim S500000 ![] bcast_S_S500000 : (⟨S_, .i32⟩ : BufTy).Contents (Elt F) → (⟨S500000, .i32⟩ : BufTy).Contents (Elt F)),
    StableHlo.binary main_arg2 main_v47 main_v48 (cmpi .slt : (⟨S500000, .i32⟩ : BufTy).Contents (Elt F) → (⟨S500000, .i32⟩ : BufTy).Contents (Elt F) → (⟨S500000, .i1⟩ : BufTy).Contents (Elt F)),
    StableHlo.nullary main_c_13 (constantI S_ 32 100000#32),
    StableHlo.unary main_c_13 main_v49 (broadcastInDim S500000 ![] bcast_S_S500000 : (⟨S_, .i32⟩ : BufTy).Contents (Elt F) → (⟨S500000, .i32⟩ : BufTy).Contents (Elt F)),
    StableHlo.binary main_arg2 main_v49 main_v50 (addi : (⟨S500000, .i32⟩ : BufTy).Contents (Elt F) → (⟨S500000, .i32⟩ : BufTy).Contents (Elt F) → (⟨S500000, .i32⟩ : BufTy).Contents (Elt F)),
    StableHlo.ternary main_v48 main_v50 main_arg2 main_v51 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v51 main_v52 (broadcastInDim S500000x1 ![0] bcast_S500000_S500000x1_0 : (⟨S500000, .i32⟩ : BufTy).Contents (Elt F) → (⟨S500000x1, .i32⟩ : BufTy).Contents (Elt F)),
    StableHlo.binary main_v46 main_v52 main_v53 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    StableHlo.nullary main_cst_14 (constant S_ .f32 0x00000000#32),
    StableHlo.unary main_cst_14 main_v54 (broadcastInDim S50000x128 ![] bcast_S_S50000x128 : (⟨S_, .f32⟩ : BufTy).Contents (Elt F) → (⟨S50000x128, .f32⟩ : BufTy).Contents (Elt F)),
    StableHlo.unary main_arg3 main_v55 (broadcastInDim S500000x1 ![0] bcast_S500000_S500000x1_0 : (⟨S500000, .i32⟩ : BufTy).Contents (Elt F) → (⟨S500000x1, .i32⟩ : BufTy).Contents (Elt F)),
    StableHlo.ternary main_v54 main_v55 main_v53 main_v56 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    StableHlo.nullary main_cst_15 (constant S_ .f32 0x3F800000#32),
    StableHlo.unary main_cst_15 main_v57 (broadcastInDim S500000 ![] bcast_S_S500000 : (⟨S_, .f32⟩ : BufTy).Contents (Elt F) → (⟨S500000, .f32⟩ : BufTy).Contents (Elt F)),
    StableHlo.nullary main_cst_16 (constant S_ .f32 0x00000000#32),
    StableHlo.unary main_cst_16 main_v58 (broadcastInDim S50000 ![] bcast_S_S50000 : (⟨S_, .f32⟩ : BufTy).Contents (Elt F) → (⟨S50000, .f32⟩ : BufTy).Contents (Elt F)),
    StableHlo.unary main_arg3 main_v59 (broadcastInDim S500000x1 ![0] bcast_S500000_S500000x1_0 : (⟨S500000, .i32⟩ : BufTy).Contents (Elt F) → (⟨S500000x1, .i32⟩ : BufTy).Contents (Elt F)),
    StableHlo.ternary main_v58 main_v59 main_v57 main_v60 ((fun x i u => Host.scatterAdd scatter_S50000_S500000x1_S500000_n_0_0_1 x i u) : (⟨S50000, .f32⟩ : BufTy).Contents (Elt F) → (⟨S500000x1, .i32⟩ : BufTy).Contents (Elt F) → (⟨S500000, .f32⟩ : BufTy).Contents (Elt F) → (⟨S50000, .f32⟩ : BufTy).Contents (Elt F)),
    StableHlo.nullary main_cst_17 (constant S_ .f32 0x3F800000#32),
    TRef.unary (.of main_cst_17 : TRef sig ⟨S_, .f32⟩) main_call4.v0 id,
    TRef.unary main_call4.v0 main_call4.v1 (broadcastInDim S50000 ![] bcast_S_S50000),
    TRef.binary main_call4.v1 (.of main_v60 : TRef sig ⟨S50000, .f32⟩) main_call4.v2 maximumf,
    StableHlo.unary main_v61 main_v62 (broadcastInDim S50000x1 ![0] bcast_S50000_S50000x1_0 : (⟨S50000, .f32⟩ : BufTy).Contents (Elt F) → (⟨S50000x1, .f32⟩ : BufTy).Contents (Elt F)),
    StableHlo.unary main_v62 main_v63 (broadcastInDim S50000x128 ![0, 1] bcast_S50000x1_S50000x128_0_1 : (⟨S50000x1, .f32⟩ : BufTy).Contents (Elt F) → (⟨S50000x128, .f32⟩ : BufTy).Contents (Elt F)),
    StableHlo.binary main_v56 main_v63 main_v64 (Host.divf : (⟨S50000x128, .f32⟩ : BufTy).Contents (Elt F) → (⟨S50000x128, .f32⟩ : BufTy).Contents (Elt F) → (⟨S50000x128, .f32⟩ : BufTy).Contents (Elt F)),
    StableHlo.unary main_arg11 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S50000x128 ![0, 1] bcast_S1x128_S50000x128_0_1 : (⟨S1x128, .f32⟩ : BufTy).Contents (Elt F) → (⟨S50000x128, .f32⟩ : BufTy).Contents (Elt F)),
    StableHlo.binary main_v64 main_v66 main_v67 (addf : (⟨S50000x128, .f32⟩ : BufTy).Contents (Elt F) → (⟨S50000x128, .f32⟩ : BufTy).Contents (Elt F) → (⟨S50000x128, .f32⟩ : BufTy).Contents (Elt F)),
    StableHlo.binary main_v44 main_arg12 main_v68 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_18 (constantI S_ 32 0#32),
    StableHlo.unary main_c_18 main_v69 (broadcastInDim S500000 ![] bcast_S_S500000 : (⟨S_, .i32⟩ : BufTy).Contents (Elt F) → (⟨S500000, .i32⟩ : BufTy).Contents (Elt F)),
    StableHlo.binary main_arg4 main_v69 main_v70 (cmpi .slt : (⟨S500000, .i32⟩ : BufTy).Contents (Elt F) → (⟨S500000, .i32⟩ : BufTy).Contents (Elt F) → (⟨S500000, .i1⟩ : BufTy).Contents (Elt F)),
    StableHlo.nullary main_c_19 (constantI S_ 32 50000#32),
    StableHlo.unary main_c_19 main_v71 (broadcastInDim S500000 ![] bcast_S_S500000 : (⟨S_, .i32⟩ : BufTy).Contents (Elt F) → (⟨S500000, .i32⟩ : BufTy).Contents (Elt F)),
    StableHlo.binary main_arg4 main_v71 main_v72 (addi : (⟨S500000, .i32⟩ : BufTy).Contents (Elt F) → (⟨S500000, .i32⟩ : BufTy).Contents (Elt F) → (⟨S500000, .i32⟩ : BufTy).Contents (Elt F)),
    StableHlo.ternary main_v70 main_v72 main_arg4 main_v73 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v73 main_v74 (broadcastInDim S500000x1 ![0] bcast_S500000_S500000x1_0 : (⟨S500000, .i32⟩ : BufTy).Contents (Elt F) → (⟨S500000x1, .i32⟩ : BufTy).Contents (Elt F)),
    StableHlo.binary main_v68 main_v74 main_v75 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    StableHlo.nullary main_cst_20 (constant S_ .f32 0x00000000#32),
    StableHlo.unary main_cst_20 main_v76 (broadcastInDim S100000x128 ![] bcast_S_S100000x128 : (⟨S_, .f32⟩ : BufTy).Contents (Elt F) → (⟨S100000x128, .f32⟩ : BufTy).Contents (Elt F)),
    StableHlo.unary main_arg5 main_v77 (broadcastInDim S500000x1 ![0] bcast_S500000_S500000x1_0 : (⟨S500000, .i32⟩ : BufTy).Contents (Elt F) → (⟨S500000x1, .i32⟩ : BufTy).Contents (Elt F)),
    StableHlo.ternary main_v76 main_v77 main_v75 main_v78 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    StableHlo.nullary main_cst_21 (constant S_ .f32 0x3F800000#32),
    StableHlo.unary main_cst_21 main_v79 (broadcastInDim S500000 ![] bcast_S_S500000 : (⟨S_, .f32⟩ : BufTy).Contents (Elt F) → (⟨S500000, .f32⟩ : BufTy).Contents (Elt F)),
    StableHlo.nullary main_cst_22 (constant S_ .f32 0x00000000#32),
    StableHlo.unary main_cst_22 main_v80 (broadcastInDim S100000 ![] bcast_S_S100000 : (⟨S_, .f32⟩ : BufTy).Contents (Elt F) → (⟨S100000, .f32⟩ : BufTy).Contents (Elt F)),
    StableHlo.unary main_arg5 main_v81 (broadcastInDim S500000x1 ![0] bcast_S500000_S500000x1_0 : (⟨S500000, .i32⟩ : BufTy).Contents (Elt F) → (⟨S500000x1, .i32⟩ : BufTy).Contents (Elt F)),
    StableHlo.ternary main_v80 main_v81 main_v79 main_v82 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    StableHlo.nullary main_cst_23 (constant S_ .f32 0x3F800000#32),
    TRef.unary (.of main_cst_23 : TRef sig ⟨S_, .f32⟩) main_call5.v0 id,
    TRef.unary main_call5.v0 main_call5.v1 (broadcastInDim S100000 ![] bcast_S_S100000),
    TRef.binary main_call5.v1 (.of main_v82 : TRef sig ⟨S100000, .f32⟩) main_call5.v2 maximumf,
    StableHlo.unary main_v83 main_v84 (broadcastInDim S100000x1 ![0] bcast_S100000_S100000x1_0 : (⟨S100000, .f32⟩ : BufTy).Contents (Elt F) → (⟨S100000x1, .f32⟩ : BufTy).Contents (Elt F)),
    StableHlo.unary main_v84 main_v85 (broadcastInDim S100000x128 ![0, 1] bcast_S100000x1_S100000x128_0_1 : (⟨S100000x1, .f32⟩ : BufTy).Contents (Elt F) → (⟨S100000x128, .f32⟩ : BufTy).Contents (Elt F)),
    StableHlo.binary main_v78 main_v85 main_v86 (Host.divf : (⟨S100000x128, .f32⟩ : BufTy).Contents (Elt F) → (⟨S100000x128, .f32⟩ : BufTy).Contents (Elt F) → (⟨S100000x128, .f32⟩ : BufTy).Contents (Elt F)),
    StableHlo.unary main_arg13 main_v87 (broadcastInDim S1x128 ![1] bcast_S128_S1x128_1 : (⟨S128, .f32⟩ : BufTy).Contents (Elt F) → (⟨S1x128, .f32⟩ : BufTy).Contents (Elt F)),
    StableHlo.unary main_v87 main_v88 (broadcastInDim S100000x128 ![0, 1] bcast_S1x128_S100000x128_0_1 : (⟨S1x128, .f32⟩ : BufTy).Contents (Elt F) → (⟨S100000x128, .f32⟩ : BufTy).Contents (Elt F)),
    StableHlo.binary main_v86 main_v88 main_v89 (addf : (⟨S100000x128, .f32⟩ : BufTy).Contents (Elt F) → (⟨S100000x128, .f32⟩ : BufTy).Contents (Elt F) → (⟨S100000x128, .f32⟩ : BufTy).Contents (Elt F)) ]

set_option maxRecDepth 65536 in
set_option maxHeartbeats 4000000 in
/-- @main is that line: its two windows and the outlined functions unfolded, sequencing reassociated. -/
theorem main_eq (c : Dev nD) : main (F := F) c = seq ops := by
  simp only [main, main_part0, main_part1, fn_clip.body, fn_clip_0.body, fn_leaky_relu.body, fn_leaky_relu_1.body,
    fn_where.body, fn_where_2.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., nullary_bufs_sub .., unary_bufs_sub .., binary_bufs_sub .., unary_bufs_sub .., unary_bufs_sub .., binary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., unary_bufs_sub .., unary_bufs_sub .., binary_bufs_sub ..⟩

/-! ## The results as pure functions of the arguments -/

/-- One graph-convolution update into the 50000 item rows from the 100000 user rows: the operations' composed term. -/
def convItem (x : FVec F S100000x128 .f32) (W : FVec F S128x128 .f32) (b : FVec F S128 .f32) (src dst : IVec S500000 32) :
    FVec F S50000x128 .f32 :=
  addf (Host.divf (Host.scatterAdd scatter_S50000x128_S500000x1_S500000x128_1_0_0_1 (broadcastInDim (s := S_) S50000x128 ![] bcast_S_S50000x128 (constant S_ .f32 0x00000000#32 : FVec F S_ .f32)) (broadcastInDim (s := S500000) S500000x1 ![0] bcast_S500000_S500000x1_0 dst) (Host.gather gather_S100000x128_S500000x1_S500000x128_1_0_n_n_0_1_1128 (Host.dotGeneral dot_S100000x128_S128x128_S100000x128_1_0_0_1_n_n none x W) (broadcastInDim (s := S500000) S500000x1 ![0] bcast_S500000_S500000x1_0 (select (cmpi .slt src (broadcastInDim (s := S_) S500000 ![] bcast_S_S500000 (constantI S_ 32 0#32 : IVec S_ 32))) (addi src (broadcastInDim (s := S_) S500000 ![] bcast_S_S500000 (constantI S_ 32 100000#32 : IVec S_ 32))) src)))) (broadcastInDim (s := S50000x1) S50000x128 ![0, 1] bcast_S50000x1_S50000x128_0_1 (broadcastInDim (s := S50000) S50000x1 ![0] bcast_S50000_S50000x1_0 (maximumf (broadcastInDim (s := S_) S50000 ![] bcast_S_S50000 (id (constant S_ .f32 0x3F800000#32 : FVec F S_ .f32))) (Host.scatterAdd scatter_S50000_S500000x1_S500000_n_0_0_1 (broadcastInDim (s := S_) S50000 ![] bcast_S_S50000 (constant S_ .f32 0x00000000#32 : FVec F S_ .f32)) (broadcastInDim (s := S500000) S500000x1 ![0] bcast_S500000_S500000x1_0 dst) (broadcastInDim (s := S_) S500000 ![] bcast_S_S500000 (constant S_ .f32 0x3F800000#32 : FVec F S_ .f32))))))) (broadcastInDim (s := S1x128) S50000x128 ![0, 1] bcast_S1x128_S50000x128_0_1 (broadcastInDim (s := S128) S1x128 ![1] bcast_S128_S1x128_1 b))

/-- One graph-convolution update into the 100000 user rows from the 50000 item rows: the operations' composed term. -/
def convUser (x : FVec F S50000x128 .f32) (W : FVec F S128x128 .f32) (b : FVec F S128 .f32) (src dst : IVec S500000 32) :
    FVec F S100000x128 .f32 :=
  addf (Host.divf (Host.scatterAdd scatter_S100000x128_S500000x1_S500000x128_1_0_0_1 (broadcastInDim (s := S_) S100000x128 ![] bcast_S_S100000x128 (constant S_ .f32 0x00000000#32 : FVec F S_ .f32)) (broadcastInDim (s := S500000) S500000x1 ![0] bcast_S500000_S500000x1_0 dst) (Host.gather gather_S50000x128_S500000x1_S500000x128_1_0_n_n_0_1_1128 (Host.dotGeneral dot_S50000x128_S128x128_S50000x128_1_0_0_1_n_n none x W) (broadcastInDim (s := S500000) S500000x1 ![0] bcast_S500000_S500000x1_0 (select (cmpi .slt src (broadcastInDim (s := S_) S500000 ![] bcast_S_S500000 (constantI S_ 32 0#32 : IVec S_ 32))) (addi src (broadcastInDim (s := S_) S500000 ![] bcast_S_S500000 (constantI S_ 32 50000#32 : IVec S_ 32))) src)))) (broadcastInDim (s := S100000x1) S100000x128 ![0, 1] bcast_S100000x1_S100000x128_0_1 (broadcastInDim (s := S100000) S100000x1 ![0] bcast_S100000_S100000x1_0 (maximumf (broadcastInDim (s := S_) S100000 ![] bcast_S_S100000 (id (constant S_ .f32 0x3F800000#32 : FVec F S_ .f32))) (Host.scatterAdd scatter_S100000_S500000x1_S500000_n_0_0_1 (broadcastInDim (s := S_) S100000 ![] bcast_S_S100000 (constant S_ .f32 0x00000000#32 : FVec F S_ .f32)) (broadcastInDim (s := S500000) S500000x1 ![0] bcast_S500000_S500000x1_0 dst) (broadcastInDim (s := S_) S500000 ![] bcast_S_S500000 (constant S_ .f32 0x3F800000#32 : FVec F S_ .f32))))))) (broadcastInDim (s := S1x128) S100000x128 ![0, 1] bcast_S1x128_S100000x128_0_1 (broadcastInDim (s := S128) S1x128 ![1] bcast_S128_S1x128_1 b))

/-- The leaky rectifier on the item rows: the operations' composed term. -/
def lreluItem (v : FVec F S50000x128 .f32) : FVec F S50000x128 .f32 :=
  select (cmpf .oge v (broadcastInDim (s := S_) S50000x128 ![] bcast_S_S50000x128 (constant S_ .f32 0x00000000#32 : FVec F S_ .f32))) v (mulf (broadcastInDim (s := S_) S50000x128 ![] bcast_S_S50000x128 (id (constant S_ .f32 0x3C23D70A#32 : FVec F S_ .f32))) v)

/-- The leaky rectifier on the user rows: the operations' composed term. -/
def lreluUser (v : FVec F S100000x128 .f32) : FVec F S100000x128 .f32 :=
  select (cmpf .oge v (broadcastInDim (s := S_) S100000x128 ![] bcast_S_S100000x128 (constant S_ .f32 0x00000000#32 : FVec F S_ .f32))) v (mulf (broadcastInDim (s := S_) S100000x128 ![] bcast_S_S100000x128 (id (constant S_ .f32 0x3C23D70A#32 : FVec F S_ .f32))) v)

/-- The first result: the second layer's user rows. -/
def out89 (a0 : FVec F S100000x128 .f32) (a1 : FVec F S50000x128 .f32) (a2 : IVec S500000 32) (a3 : IVec S500000 32) (a4 : IVec S500000 32) (a5 : IVec S500000 32) (a6 : FVec F S128x128 .f32) (a7 : FVec F S128 .f32) (a8 : FVec F S128x128 .f32) (a9 : FVec F S128 .f32) (a10 : FVec F S128x128 .f32) (a11 : FVec F S128 .f32) (a12 : FVec F S128x128 .f32) (a13 : FVec F S128 .f32) : FVec F S100000x128 .f32 :=
  convUser (lreluItem (convItem a0 a6 a7 a2 a3)) a12 a13 a4 a5

/-- The second result: the second layer's item rows. -/
def out67 (a0 : FVec F S100000x128 .f32) (a1 : FVec F S50000x128 .f32) (a2 : IVec S500000 32) (a3 : IVec S500000 32) (a4 : IVec S500000 32) (a5 : IVec S500000 32) (a6 : FVec F S128x128 .f32) (a7 : FVec F S128 .f32) (a8 : FVec F S128x128 .f32) (a9 : FVec F S128 .f32) (a10 : FVec F S128x128 .f32) (a11 : FVec F S128 .f32) (a12 : FVec F S128x128 .f32) (a13 : FVec F S128 .f32) : FVec F S50000x128 .f32 :=
  convItem (lreluUser (convUser a1 a8 a9 a4 a5)) a10 a11 a2 a3

/-! ## The line's fold at the results and the arguments -/

attribute [local irreducible] Host.gather Host.scatterAdd Host.divf broadcastInDim in
set_option maxRecDepth 65536 in
set_option maxHeartbeats 4000000 in
theorem v89_eq (V : Valuation τ sig (Elt F)) :
    after ops V (main_v89 : DevRef τ sig) = out89 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) := by
  after_results_simp
  rfl

attribute [local irreducible] Host.gather Host.scatterAdd Host.divf broadcastInDim in
set_option maxRecDepth 65536 in
set_option maxHeartbeats 4000000 in
theorem v67_eq (V : Valuation τ sig (Elt F)) :
    after ops V (main_v67 : DevRef τ sig) = out67 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) := by
  after_results_simp
  rfl

set_option maxRecDepth 65536 in
set_option maxHeartbeats 4000000 in
theorem arg0_eq (V : Valuation τ sig (Elt F)) : after ops V (main_arg0 : DevRef τ sig) = V (main_arg0 : DevRef τ sig) := by
  after_results_simp
set_option maxRecDepth 65536 in
set_option maxHeartbeats 4000000 in
theorem arg1_eq (V : Valuation τ sig (Elt F)) : after ops V (main_arg1 : DevRef τ sig) = V (main_arg1 : DevRef τ sig) := by
  after_results_simp
set_option maxRecDepth 65536 in
set_option maxHeartbeats 4000000 in
theorem arg2_eq (V : Valuation τ sig (Elt F)) : after ops V (main_arg2 : DevRef τ sig) = V (main_arg2 : DevRef τ sig) := by
  after_results_simp
set_option maxRecDepth 65536 in
set_option maxHeartbeats 4000000 in
theorem arg3_eq (V : Valuation τ sig (Elt F)) : after ops V (main_arg3 : DevRef τ sig) = V (main_arg3 : DevRef τ sig) := by
  after_results_simp
set_option maxRecDepth 65536 in
set_option maxHeartbeats 4000000 in
theorem arg4_eq (V : Valuation τ sig (Elt F)) : after ops V (main_arg4 : DevRef τ sig) = V (main_arg4 : DevRef τ sig) := by
  after_results_simp
set_option maxRecDepth 65536 in
set_option maxHeartbeats 4000000 in
theorem arg5_eq (V : Valuation τ sig (Elt F)) : after ops V (main_arg5 : DevRef τ sig) = V (main_arg5 : DevRef τ sig) := by
  after_results_simp
set_option maxRecDepth 65536 in
set_option maxHeartbeats 4000000 in
theorem arg6_eq (V : Valuation τ sig (Elt F)) : after ops V (main_arg6 : DevRef τ sig) = V (main_arg6 : DevRef τ sig) := by
  after_results_simp
set_option maxRecDepth 65536 in
set_option maxHeartbeats 4000000 in
theorem arg7_eq (V : Valuation τ sig (Elt F)) : after ops V (main_arg7 : DevRef τ sig) = V (main_arg7 : DevRef τ sig) := by
  after_results_simp
set_option maxRecDepth 65536 in
set_option maxHeartbeats 4000000 in
theorem arg8_eq (V : Valuation τ sig (Elt F)) : after ops V (main_arg8 : DevRef τ sig) = V (main_arg8 : DevRef τ sig) := by
  after_results_simp
set_option maxRecDepth 65536 in
set_option maxHeartbeats 4000000 in
theorem arg9_eq (V : Valuation τ sig (Elt F)) : after ops V (main_arg9 : DevRef τ sig) = V (main_arg9 : DevRef τ sig) := by
  after_results_simp
set_option maxRecDepth 65536 in
set_option maxHeartbeats 4000000 in
theorem arg10_eq (V : Valuation τ sig (Elt F)) : after ops V (main_arg10 : DevRef τ sig) = V (main_arg10 : DevRef τ sig) := by
  after_results_simp
set_option maxRecDepth 65536 in
set_option maxHeartbeats 4000000 in
theorem arg11_eq (V : Valuation τ sig (Elt F)) : after ops V (main_arg11 : DevRef τ sig) = V (main_arg11 : DevRef τ sig) := by
  after_results_simp
set_option maxRecDepth 65536 in
set_option maxHeartbeats 4000000 in
theorem arg12_eq (V : Valuation τ sig (Elt F)) : after ops V (main_arg12 : DevRef τ sig) = V (main_arg12 : DevRef τ sig) := by
  after_results_simp
set_option maxRecDepth 65536 in
set_option maxHeartbeats 4000000 in
theorem arg13_eq (V : Valuation τ sig (Elt F)) : after ops V (main_arg13 : DevRef τ sig) = V (main_arg13 : DevRef τ sig) := by
  after_results_simp

/-! ## The run -/

set_option maxRecDepth 65536 in
set_option maxHeartbeats 4000000 in
/-- On every device, for any float values, from any memory with zero counters: every weakly fair execution of @main
    terminates with the two results at the composed terms of the arguments' launch contents and the arguments unchanged. -/
theorem run_gen (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v89) = out89 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v67) = out67 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v89).trans (v89_eq _), (h c main_v67).trans (v67_eq _),
      (h c main_arg0).trans (arg0_eq _), (h c main_arg1).trans (arg1_eq _), (h c main_arg2).trans (arg2_eq _), (h c main_arg3).trans (arg3_eq _), (h c main_arg4).trans (arg4_eq _), (h c main_arg5).trans (arg5_eq _), (h c main_arg6).trans (arg6_eq _), (h c main_arg7).trans (arg7_eq _), (h c main_arg8).trans (arg8_eq _), (h c main_arg9).trans (arg9_eq _), (h c main_arg10).trans (arg10_eq _), (h c main_arg11).trans (arg11_eq _), (h c main_arg12).trans (arg12_eq _), (h c main_arg13).trans (arg13_eq _)⟩)
    (run_seq scopedRefs_eq scopedSems_eq defs main (fun _ => ops) main_eq (fun _ => ops_sub) m ρ)

/-- The run at the extended reals. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v89) = out89 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v67) = out67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  run_gen m ρ

end Cert.ReferenceIdeal.RefRun

end
-- ==== Proof.LibScatterAddSum.lean ====
/-
  The accumulating float scatter on the extended reals, read at an index.

  At the exact instance a scatter-add delivers each operand element plus the sum of the update elements that land on
  it.  For a scatter of whole rows (and of single elements of a flat array) with one scalar index per update row, the
  updates landing on row `n` are those of the update rows whose index, read signed, is `n`: the sum over update
  indices becomes a sum over those update rows.
-/
import Idealize.ShloMosaic.PureOps.Ideal
import Idealize.ShloMosaic.Lib.ValueIdx
import proofs.«135114_j59107339927815_2_alg».proof.Proof.LibRowGatherScatter

noncomputable section

open scoped BigOperators

namespace Idealize.ShloMosaic.RowGatherScatter

open Idealize.ShloMosaic Idealize.ShloMosaic.ValueIdx

/-- Two rank-2 indices built from coordinates are equal only when the coordinates are. -/
theorem ix2_inj {n0 n1 : Nat} {a a' : Fin n0} {b b' : Fin n1} (h : ix2 a b = ix2 a' b') : a = a' ∧ b = b' :=
  ⟨congrFun h 0, congrFun h 1⟩

/-- Two rank-1 indices built from a coordinate are equal only when the coordinates are. -/
theorem ix1_inj {n0 : Nat} {a a' : Fin n0} (h : ix1 a = ix1 a') : a = a' := congrFun h 0

/-- THE ROW SCATTER-ADD READ AT `(n, j)`: the operand's element plus the sum, over the update rows `e` whose scatter
    index `idx[e, 0]` read signed is `n`, of the update's element `(e, j)`. -/
theorem rowScatterAdd_apply {N E D w : Nat}
    (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w)
    (upd : (⟨2, ![E, D]⟩ : Shape).Idx → EReal) (n : Fin N) (j : Fin D) :
    Ideal.hostScatterAdd (rowScatterDims N E D wf) x idx upd (ix2 n j)
      = x (ix2 n j) + ∑ e ∈ Finset.univ.filter (fun e : Fin E => (idx (ix2 e (0 : Fin 1))).toInt = (n.val : Int)),
          upd (ix2 e j) := by
  unfold Ideal.hostScatterAdd
  congr 1
  symm
  refine Finset.sum_bij (fun e _ => ix2 e j) ?_ ?_ ?_ ?_
  · intro e he
    rw [Finset.mem_filter] at he ⊢
    exact ⟨Finset.mem_univ _, rowScatter_resultIdx?_of_toInt wf idx e j n he.2⟩
  · intro a _ b _ h
    exact (ix2_inj h).1
  · intro u hu
    rw [Finset.mem_filter] at hu
    obtain ⟨p, q, rfl⟩ : ∃ (p : Fin E) (q : Fin D), u = ix2 p q := ⟨u 0, u 1, eq_ix2 u⟩
    obtain ⟨n', hn', hidx⟩ := rowScatter_resultIdx?_eq_some wf idx p q _ hu.2
    obtain ⟨hn, hj⟩ := ix2_inj hn'
    subst hn
    subst hj
    exact ⟨p, Finset.mem_filter.mpr ⟨Finset.mem_univ _, hidx⟩, rfl⟩
  · intro e _
    rfl

/-- THE ELEMENT SCATTER-ADD READ AT `n`: the operand's element plus the sum, over the updates `e` whose scatter index
    `idx[e, 0]` read signed is `n`, of the update's element `e`. -/
theorem elemScatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (elemScatterDims N E wf) x idx upd (ix1 n)
      = x (ix1 n) + ∑ e ∈ Finset.univ.filter (fun e : Fin E => (idx (ix2 e (0 : Fin 1))).toInt = (n.val : Int)),
          upd (ix1 e) := by
  unfold Ideal.hostScatterAdd
  congr 1
  symm
  refine Finset.sum_bij (fun e _ => ix1 e) ?_ ?_ ?_ ?_
  · intro e he
    rw [Finset.mem_filter] at he ⊢
    exact ⟨Finset.mem_univ _, elemScatter_resultIdx?_of_toInt wf idx e n he.2⟩
  · intro a _ b _ h
    exact ix1_inj h
  · intro u hu
    rw [Finset.mem_filter] at hu
    obtain ⟨p, rfl⟩ : ∃ (p : Fin E), u = ix1 p := ⟨u 0, eq_ix1 u⟩
    obtain ⟨n', hn', hidx⟩ := elemScatter_resultIdx?_eq_some wf idx p _ hu.2
    have hn := ix1_inj hn'
    subst hn
    exact ⟨p, Finset.mem_filter.mpr ⟨Finset.mem_univ _, hidx⟩, rfl⟩
  · intro e _
    rfl

end Idealize.ShloMosaic.RowGatherScatter

end
-- ==== Proof.ConvLaw.lean ====
/-
  The two arrangements of one graph-convolution update agree on real data.

  With the features, the weights and the bias real, every sum, product and quotient in either arrangement is the
  image of the same expression over the reals: a finite sum of images of reals is the image of the real sum, and the
  in-degree clamped below by one is a real not less than one, so dividing by it is multiplying by its real
  reciprocal.  Over the reals the two arrangements differ by exchanging the sum over the edges with the sum over the
  contracted feature index and by moving the common factor, the reciprocal of the clamped in-degree, across the
  product with the weight.  The leaky rectifier returns either its argument or a real multiple of it, so it maps
  reals to reals.
-/
import Idealize.ShloMosaic.PureOps.Ideal
import proofs.«135114_j59107339927815_2_alg».proof.Proof.ConvSpec

noncomputable section

open scoped BigOperators

namespace Cert.ConvLaw

open Idealize.ShloMosaic Cert.ConvSpec

variable {E Ns Nd : Nat}

/-- A finite sum of images of reals is the image of the real sum. -/
theorem coe_sum {ι : Type} (S : Finset ι) (f : ι → ℝ) :
    (∑ e ∈ S, ((f e : ℝ) : EReal)) = ((∑ e ∈ S, f e : ℝ) : EReal) := by
  classical
  induction S using Finset.induction_on with
  | empty => simp
  | insert a s ha ih => rw [Finset.sum_insert ha, Finset.sum_insert ha, ih, EReal.coe_add]

/-- The image of the larger of two reals is the larger of the images. -/
theorem coe_max (a b : ℝ) : ((max a b : ℝ) : EReal) = max (a : EReal) (b : EReal) :=
  EReal.coe_strictMono.monotone.map_max

/-- The in-degree of a set of edges clamped below by one, as a real. -/
def cdeg {ι : Type} (T : Finset ι) : ℝ := max (∑ _e ∈ T, (1 : ℝ)) 1

theorem cdeg_ne_zero {ι : Type} (T : Finset ι) : cdeg T ≠ 0 :=
  ne_of_gt (lt_of_lt_of_le one_pos (le_max_right _ _))

/-- The count of the edges, summed in the extended reals, is the image of the real count. -/
theorem count_coe {ι : Type} (T : Finset ι) : (∑ _e ∈ T, (1 : EReal)) = ((∑ _e ∈ T, (1 : ℝ) : ℝ) : EReal) := by
  have h := coe_sum T (fun _ => (1 : ℝ))
  simp only [EReal.coe_one] at h
  exact h

/-- The clamped in-degree as the kernel writes it. -/
theorem kden_coe {ι : Type} (T : Finset ι) : max ((0 : EReal) + ∑ _e ∈ T, (1 : EReal)) 1 = ((cdeg T : ℝ) : EReal) := by
  rw [zero_add, count_coe, cdeg, coe_max, EReal.coe_one]

/-- The clamped in-degree as the reference writes it. -/
theorem rden_coe {ι : Type} (T : Finset ι) : max 1 ((0 : EReal) + ∑ _e ∈ T, (1 : EReal)) = ((cdeg T : ℝ) : EReal) := by
  rw [max_comm, kden_coe]

/-- The kernel's arrangement on real data is the image of a real. -/
theorem kconv_coe (xr : Fin Ns → Fin 128 → ℝ) (Wr : Fin 128 → Fin 128 → ℝ) (br : Fin 128 → ℝ) (s : Fin E → Fin Ns)
    (S : Fin Nd → Finset (Fin E)) (d : Fin Nd) (j : Fin 128) :
    kconv (fun n k => ((xr n k : ℝ) : EReal)) (fun k j => ((Wr k j : ℝ) : EReal)) (fun j => ((br j : ℝ) : EReal)) s S d j
      = (((∑ k : Fin 128, (∑ e ∈ S d, xr (s e) k) * (1 / cdeg (S d)) * Wr k j) + br j : ℝ) : EReal) := by
  unfold kconv
  simp only [kden_coe]
  simp only [Ideal.div_coe (cdeg_ne_zero (S d)), zero_add, coe_sum, ← EReal.coe_mul, ← EReal.coe_add]

/-- The reference's arrangement on real data is the image of a real. -/
theorem rconv_coe (xr : Fin Ns → Fin 128 → ℝ) (Wr : Fin 128 → Fin 128 → ℝ) (br : Fin 128 → ℝ) (s : Fin E → Fin Ns)
    (S : Fin Nd → Finset (Fin E)) (d : Fin Nd) (j : Fin 128) :
    rconv (fun n k => ((xr n k : ℝ) : EReal)) (fun k j => ((Wr k j : ℝ) : EReal)) (fun j => ((br j : ℝ) : EReal)) s S d j
      = (((∑ e ∈ S d, ∑ k : Fin 128, xr (s e) k * Wr k j) * (1 / cdeg (S d)) + br j : ℝ) : EReal) := by
  unfold rconv
  simp only [rden_coe]
  simp only [Ideal.div_coe (cdeg_ne_zero (S d)), zero_add, coe_sum, ← EReal.coe_mul, ← EReal.coe_add]

/-- on real data the two arrangements agree -/
theorem kconv_eq_rconv (xr : Fin Ns → Fin 128 → ℝ) (Wr : Fin 128 → Fin 128 → ℝ) (br : Fin 128 → ℝ) (s : Fin E → Fin Ns)
    (S : Fin Nd → Finset (Fin E)) (d : Fin Nd) (j : Fin 128) :
    kconv (fun n k => ((xr n k : ℝ) : EReal)) (fun k j => ((Wr k j : ℝ) : EReal)) (fun j => ((br j : ℝ) : EReal)) s S d j
      = rconv (fun n k => ((xr n k : ℝ) : EReal)) (fun k j => ((Wr k j : ℝ) : EReal)) (fun j => ((br j : ℝ) : EReal)) s S d j := by
  rw [kconv_coe, rconv_coe]
  congr 2
  rw [Finset.sum_comm, Finset.sum_mul]
  refine Finset.sum_congr rfl fun k _ => ?_
  rw [← Finset.sum_mul]
  ring

/-- and the value is a real -/
theorem rconv_real (xr : Fin Ns → Fin 128 → ℝ) (Wr : Fin 128 → Fin 128 → ℝ) (br : Fin 128 → ℝ) (s : Fin E → Fin Ns)
    (S : Fin Nd → Finset (Fin E)) (d : Fin Nd) (j : Fin 128) :
    ∃ r : ℝ, rconv (fun n k => ((xr n k : ℝ) : EReal)) (fun k j => ((Wr k j : ℝ) : EReal)) (fun j => ((br j : ℝ) : EReal)) s S d j
      = ((r : ℝ) : EReal) :=
  ⟨_, rconv_coe xr Wr br s S d j⟩

/-- The rectifier's slope, the single-precision pattern nearest 0.01, denotes a real. -/
theorem ofBits_slope_real : ∃ c : ℝ, Ideal.ofBits .f32 0x3C23D70A#32 = ((c : ℝ) : EReal) := by
  simp [Ideal.ofBits, Ideal.ieee, -EReal.coe_mul]

/-- the leaky rectifier maps reals to reals -/
theorem lrelu_real (r : ℝ) : ∃ r' : ℝ, lrelu ((r : ℝ) : EReal) = ((r' : ℝ) : EReal) := by
  obtain ⟨c, hc⟩ := ofBits_slope_real
  unfold lrelu Scalar.select
  split_ifs
  · exact ⟨r, rfl⟩
  · exact ⟨c * r, by rw [hc, EReal.coe_mul]⟩

/-- the two literals -/
theorem ofBits_one : Ideal.ofBits .f32 0x3F800000#32 = (1 : EReal) := by
  simp [Ideal.ofBits, Ideal.ieee, -EReal.coe_mul]; norm_num

end Cert.ConvLaw

end
-- ==== Proof.LibHostMatmul.lean ====
/-
  A host `dot_general` of an `[m, k]` by a `[k, n]` matrix (contracting the first operand's columns with the second's
  rows), read at an entry at the ideal values: the sum over `c : Fin k` of `A (a, c) * B (c, b)`, for arbitrary extents.
  A constant broadcast from a scalar reads that constant's value everywhere.
-/
import Idealize.ShloMosaic.Lib.Pipeline.Value
import Idealize.ShloMosaic.Lib.ValueIdx
import Idealize.ShloMosaic.PureOps.Ideal.Laws

noncomputable section

namespace Idealize.ShloMosaic.DenseLayers

open Idealize.ShloMosaic Idealize.ShloMosaic.ValueIdx

/-- A row-by-column host matrix product read at an entry. -/
theorem dotGeneral_rowcol_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A scalar constant broadcast to any shape reads the constant's value at every index. -/
theorem broadcastInDim_scalar_constant_apply {t : Shape} {φ : FTy} (w : BitVec φ.bits)
    (h : (⟨0, ![]⟩ : Shape).BroadcastsInDim t ![]) (j : t.Idx) :
    broadcastInDim t ![] h (constant (F := Ideal) ⟨0, ![]⟩ φ w) j = Ideal.ofBits φ w := rfl

end Idealize.ShloMosaic.DenseLayers

end
-- ==== Proof.KernelRead.lean ====
/-
  The kernel's host results and its four regions' outputs, read at an index.

  An accumulating scatter of rows from zero, read at row `d`, is zero plus the sum over the edges whose destination,
  read signed, is `d`; the row scattered for edge `e` is the gathered row, the source table's row at the edge's
  normalised source index read signed and clamped.  The in-degree is the same scatter of ones.  A reshape of a flat
  array to a column or a row keeps the one varying coordinate.  With these, each region's whole-array function at
  `(d, j)` is the graph-convolution update in the kernel's arrangement.
-/
import proofs.«135114_j59107339927815_2_alg».proof.Proof.KernelHostDefs
import proofs.«135114_j59107339927815_2_alg».proof.Proof.LibScatterAddSum
import proofs.«135114_j59107339927815_2_alg».proof.Proof.ConvSpec
import proofs.«135114_j59107339927815_2_alg».proof.Proof.ConvLaw
import proofs.«135114_j59107339927815_2_alg».proof.Proof.LibHostMatmul
import Idealize.ShloMosaic.Lib.Pipeline.Value
import Idealize.ShloMosaic.Lib.ValueIdx
import Idealize.ShloMosaic.PureOps.Ideal.Laws

noncomputable section

open scoped BigOperators

namespace Cert.KernelIdeal.KRead

open Cert.KernelIdeal Cert.KernelIdeal.KHost Cert.ConvSpec
open Idealize.ShloMosaic Idealize.ShloMosaic.ValueIdx Idealize.ShloMosaic.RowGatherScatter

/-! ## The pieces -/

/-- An index vector broadcast to a column, read at `(e, 0)`, is the vector at `e`. -/
theorem col_apply {w : Nat} (v : IVec S500000 w) (e : Fin 500000) :
    broadcastInDim S500000x1 ![0] Facts₀.bcast_S500000_S500000x1_0 v (ix2 e (0 : Fin 1)) = v (ix1 e) :=
  broadcastInDim_apply _ _ v _ (ix1 e) (fun a => by
    match a with
    | ⟨0, _⟩ =>
      show e.val = if (500000 : Nat) = 1 then 0 else e.val
      rw [if_neg (by omega)])

/-- The destination column at `(e, 0)` is the destination index of edge `e`. -/
theorem dstCol_apply (dst : IVec S500000 32) (e : Fin 500000) : dstCol dst (ix2 e (0 : Fin 1)) = dst (ix1 e) :=
  col_apply dst e

/-- The source column at `(e, 0)` is the normalised source index of edge `e`. -/
theorem srcCol_apply (Nw : BitVec 32) (src : IVec S500000 32) (e : Fin 500000) :
    srcCol Nw src (ix2 e (0 : Fin 1)) = normWord Nw (src (ix1 e)) :=
  (col_apply _ e).trans rfl

/-- The edges a scatter delivers to row `d` are the edges into `d`. -/
theorem filter_dstCol (N : Nat) (dst : IVec S500000 32) (d : Fin N) :
    (Finset.univ.filter fun e : Fin 500000 => (dstCol dst (ix2 e (0 : Fin 1))).toInt = (d.val : Int)) = edgesTo N dst d := by
  unfold edgesTo
  refine Finset.ext fun e => ?_
  simp only [Finset.mem_filter, Finset.mem_univ, true_and, dstCol_apply]

/-! ## The dimension records are the row/element gather and scatter numbers -/

theorem gatherU_dims : gather_S100000x128_S500000x1_S500000x128_1_0_n_n_0_1_1128
    = rowGatherDims 100000 500000 128 Facts₀.gather_S100000x128_S500000x1_S500000x128_1_0_n_n_0_1_1128_wf := rfl
theorem gatherI_dims : gather_S50000x128_S500000x1_S500000x128_1_0_n_n_0_1_1128
    = rowGatherDims 50000 500000 128 Facts₀.gather_S50000x128_S500000x1_S500000x128_1_0_n_n_0_1_1128_wf := rfl
theorem scatI_dims : scatter_S50000x128_S500000x1_S500000x128_1_0_0_1
    = rowScatterDims 50000 500000 128 Facts₀.scatter_S50000x128_S500000x1_S500000x128_1_0_0_1_wf := rfl
theorem scatU_dims : scatter_S100000x128_S500000x1_S500000x128_1_0_0_1
    = rowScatterDims 100000 500000 128 Facts₀.scatter_S100000x128_S500000x1_S500000x128_1_0_0_1_wf := rfl
theorem escatI_dims : scatter_S50000_S500000x1_S500000_n_0_0_1
    = elemScatterDims 50000 500000 Facts₀.scatter_S50000_S500000x1_S500000_n_0_0_1_wf := rfl
theorem escatU_dims : scatter_S100000_S500000x1_S500000_n_0_0_1
    = elemScatterDims 100000 500000 Facts₀.scatter_S100000_S500000x1_S500000_n_0_0_1_wf := rfl

/-- On the extended reals the host's accumulating scatter is the exact one. -/
theorem hostScatterAdd_eq {s si u : Shape} {w : Nat} (dm : ScatterDims s si u) (x : FVec Ideal s .f32) (idx : IVec si w)
    (upd : FVec Ideal u .f32) : Host.scatterAdd dm x idx upd = Ideal.hostScatterAdd dm x idx upd := rfl

/-- A gathered row of the user table: the table's row at the edge's source row. -/
theorem gatherU_apply (x : FVec Ideal S100000x128 .f32) (src : IVec S500000 32) (e : Fin 500000) (k : Fin 128) :
    Host.gather gather_S100000x128_S500000x1_S500000x128_1_0_n_n_0_1_1128 x (srcCol 100000#32 src) (ix2 e k)
      = x (ix2 (srcRow 100000 (by omega) 100000#32 src e) k) := by
  rw [gatherU_dims, gather_rows_apply (by omega : 0 < 100000), srcCol_apply, srcRow]

/-- A gathered row of the item table. -/
theorem gatherI_apply (x : FVec Ideal S50000x128 .f32) (src : IVec S500000 32) (e : Fin 500000) (k : Fin 128) :
    Host.gather gather_S50000x128_S500000x1_S500000x128_1_0_n_n_0_1_1128 x (srcCol 50000#32 src) (ix2 e k)
      = x (ix2 (srcRow 50000 (by omega) 50000#32 src e) k) := by
  rw [gatherI_dims, gather_rows_apply (by omega : 0 < 50000), srcCol_apply, srcRow]

/-! ## The aggregated features -/

theorem aggItem_apply (x : FVec Ideal S100000x128 .f32) (src dst : IVec S500000 32) (d : Fin 50000) (k : Fin 128) :
    aggItem x src dst (ix2 d k)
      = (0 : EReal) + ∑ e ∈ edgesTo 50000 dst d, x (ix2 (srcRow 100000 (by omega) 100000#32 src e) k) := by
  unfold aggItem
  rw [hostScatterAdd_eq, scatI_dims, rowScatterAdd_apply, filter_dstCol,
    DenseLayers.broadcastInDim_scalar_constant_apply, Ideal.ofBits_zero_f32]
  exact congrArg _ (Finset.sum_congr rfl fun e _ => gatherU_apply x src e k)

theorem aggUser_apply (x : FVec Ideal S50000x128 .f32) (src dst : IVec S500000 32) (d : Fin 100000) (k : Fin 128) :
    aggUser x src dst (ix2 d k)
      = (0 : EReal) + ∑ e ∈ edgesTo 100000 dst d, x (ix2 (srcRow 50000 (by omega) 50000#32 src e) k) := by
  unfold aggUser
  rw [hostScatterAdd_eq, scatU_dims, rowScatterAdd_apply, filter_dstCol,
    DenseLayers.broadcastInDim_scalar_constant_apply, Ideal.ofBits_zero_f32]
  exact congrArg _ (Finset.sum_congr rfl fun e _ => gatherI_apply x src e k)

/-! ## The in-degrees -/

theorem degItemFlat_apply (dst : IVec S500000 32) (d : Fin 50000) :
    degItemFlat dst (ix1 d) = (0 : EReal) + ∑ _e ∈ edgesTo 50000 dst d, (1 : EReal) := by
  unfold degItemFlat
  rw [hostScatterAdd_eq, escatI_dims, elemScatterAdd_apply, filter_dstCol,
    DenseLayers.broadcastInDim_scalar_constant_apply, Ideal.ofBits_zero_f32]
  exact congrArg _ (Finset.sum_congr rfl fun e _ =>
    (DenseLayers.broadcastInDim_scalar_constant_apply _ _ _).trans Cert.ConvLaw.ofBits_one)

theorem degUserFlat_apply (dst : IVec S500000 32) (d : Fin 100000) :
    degUserFlat dst (ix1 d) = (0 : EReal) + ∑ _e ∈ edgesTo 100000 dst d, (1 : EReal) := by
  unfold degUserFlat
  rw [hostScatterAdd_eq, escatU_dims, elemScatterAdd_apply, filter_dstCol,
    DenseLayers.broadcastInDim_scalar_constant_apply, Ideal.ofBits_zero_f32]
  exact congrArg _ (Finset.sum_congr rfl fun e _ =>
    (DenseLayers.broadcastInDim_scalar_constant_apply _ _ _).trans Cert.ConvLaw.ofBits_one)

/-- A flat array reshaped to a column, read at `(d, 0)`, is the array at `d`. -/
theorem column_apply {α : Type} {N : Nat} (x : (⟨1, ![N]⟩ : Shape).Idx → α)
    (h : (⟨1, ![N]⟩ : Shape).ShapeCasts ⟨2, ![N, 1]⟩) (d : Fin N) :
    shapeCast ⟨2, ![N, 1]⟩ x h (ix2 d (0 : Fin 1)) = x (ix1 d) :=
  shapeCast_apply x h _ _ (by
    rw [Shape.rowMajor_val_two, Shape.rowMajor_val_one]
    show d.val = d.val * 1 + 0
    omega)

/-- A flat array reshaped to a row, read at `(0, q)`, is the array at `q`. -/
theorem row_apply {α : Type} {N : Nat} (x : (⟨1, ![N]⟩ : Shape).Idx → α)
    (h : (⟨1, ![N]⟩ : Shape).ShapeCasts ⟨2, ![1, N]⟩) (q : Fin N) :
    shapeCast ⟨2, ![1, N]⟩ x h (ix2 (0 : Fin 1) q) = x (ix1 q) :=
  shapeCast_apply x h _ _ (by
    rw [Shape.rowMajor_val_two, Shape.rowMajor_val_one]
    show q.val = 0 * N + q.val
    omega)

theorem degItem_apply (dst : IVec S500000 32) (d : Fin 50000) :
    degItem dst (ix2 d (0 : Fin 1)) = (0 : EReal) + ∑ _e ∈ edgesTo 50000 dst d, (1 : EReal) := by
  unfold degItem
  rw [column_apply, degItemFlat_apply]

theorem degUser_apply (dst : IVec S500000 32) (d : Fin 100000) :
    degUser dst (ix2 d (0 : Fin 1)) = (0 : EReal) + ∑ _e ∈ edgesTo 100000 dst d, (1 : EReal) := by
  unfold degUser
  rw [column_apply, degUserFlat_apply]

/-! ## The bias rows -/

theorem biasRow_apply (b : FVec Ideal S128 .f32) (q : Fin 128) : biasRow b (ix2 (0 : Fin 1) q) = b (ix1 q) := by
  unfold biasRow
  rw [row_apply]

/-! ## The regions' outputs -/

theorem hItem_apply (a0 : FVec Ideal S100000x128 .f32) (a2 a3 : IVec S500000 32) (a6 : FVec Ideal S128x128 .f32)
    (a7 : FVec Ideal S128 .f32) (d : Fin 50000) (j : Fin 128) :
    hItem a0 a2 a3 a6 a7 (ix2 d j)
      = lrelu (kconv (fun n k => a0 (ix2 n k)) (fun k j => a6 (ix2 k j)) (fun j => a7 (ix1 j))
          (srcRow 100000 (by omega) 100000#32 a2) (edgesTo 50000 a3) d j) := by
  unfold hItem
  rw [KBlocks0.G_apply]
  unfold KBlocks0.Gpt kconv
  simp only [aggItem_apply, degItem_apply, biasRow_apply, Cert.ConvLaw.ofBits_one]

theorem hUser_apply (a1 : FVec Ideal S50000x128 .f32) (a4 a5 : IVec S500000 32) (a8 : FVec Ideal S128x128 .f32)
    (a9 : FVec Ideal S128 .f32) (d : Fin 100000) (j : Fin 128) :
    hUser a1 a4 a5 a8 a9 (ix2 d j)
      = lrelu (kconv (fun n k => a1 (ix2 n k)) (fun k j => a8 (ix2 k j)) (fun j => a9 (ix1 j))
          (srcRow 50000 (by omega) 50000#32 a4) (edgesTo 100000 a5) d j) := by
  unfold hUser
  rw [KBlocks1.G_apply]
  unfold KBlocks1.Gpt kconv
  simp only [aggUser_apply, degUser_apply, biasRow_apply, Cert.ConvLaw.ofBits_one]

theorem oItem_apply (a1 : FVec Ideal S50000x128 .f32) (a2 a3 a4 a5 : IVec S500000 32) (a8 : FVec Ideal S128x128 .f32)
    (a9 : FVec Ideal S128 .f32) (a10 : FVec Ideal S128x128 .f32) (a11 : FVec Ideal S128 .f32) (d : Fin 50000) (j : Fin 128) :
    oItem a1 a2 a3 a4 a5 a8 a9 a10 a11 (ix2 d j)
      = kconv (fun n k => lrelu (kconv (fun n k => a1 (ix2 n k)) (fun k j => a8 (ix2 k j)) (fun j => a9 (ix1 j))
            (srcRow 50000 (by omega) 50000#32 a4) (edgesTo 100000 a5) n k))
          (fun k j => a10 (ix2 k j)) (fun j => a11 (ix1 j)) (srcRow 100000 (by omega) 100000#32 a2) (edgesTo 50000 a3) d j := by
  unfold oItem
  rw [KBlocks2.G_apply]
  unfold KBlocks2.Gpt
  simp only [aggItem_apply, degItem_apply, biasRow_apply, Cert.ConvLaw.ofBits_one, hUser_apply]
  rfl

theorem oUser_apply (a0 : FVec Ideal S100000x128 .f32) (a2 a3 a4 a5 : IVec S500000 32) (a6 : FVec Ideal S128x128 .f32)
    (a7 : FVec Ideal S128 .f32) (a12 : FVec Ideal S128x128 .f32) (a13 : FVec Ideal S128 .f32) (d : Fin 100000) (j : Fin 128) :
    oUser a0 a2 a3 a4 a5 a6 a7 a12 a13 (ix2 d j)
      = kconv (fun n k => lrelu (kconv (fun n k => a0 (ix2 n k)) (fun k j => a6 (ix2 k j)) (fun j => a7 (ix1 j))
            (srcRow 100000 (by omega) 100000#32 a2) (edgesTo 50000 a3) n k))
          (fun k j => a12 (ix2 k j)) (fun j => a13 (ix1 j)) (srcRow 50000 (by omega) 50000#32 a4) (edgesTo 100000 a5) d j := by
  unfold oUser
  rw [KBlocks3.G_apply]
  unfold KBlocks3.Gpt
  simp only [aggUser_apply, degUser_apply, biasRow_apply, Cert.ConvLaw.ofBits_one, hItem_apply]
  rfl

end Cert.KernelIdeal.KRead

end
-- ==== Proof.RefRead.lean ====
/-
  The reference's four result functions read at an entry. Each graph-convolution update, read at row `d` and column
  `j`, is the reference's arrangement of the shared vocabulary: every source row projected through the weights, the
  projected rows summed over the edges into `d`, the sum divided by the in-degree clamped below by one, the bias
  added. The leaky rectifier is the shared pointwise function at each entry. The gather reads the row the edge's
  normalised and clamped source index names; the accumulating scatters read, at a row, the initial zero plus the sum
  over the edges whose destination index is that row; the broadcasts read the entry of the axis they keep.
-/
import proofs.«135114_j59107339927815_2_alg».proof.Proof.RefRun
import proofs.«135114_j59107339927815_2_alg».proof.Proof.ConvSpec
import proofs.«135114_j59107339927815_2_alg».proof.Proof.LibScatterAddSum
import proofs.«135114_j59107339927815_2_alg».proof.Proof.LibHostMatmul
import Idealize.ShloMosaic.Lib.IdealHost
import Idealize.ShloMosaic.Lib.Pipeline.Value

noncomputable section

open scoped BigOperators

namespace Cert.ReferenceIdeal.RefRead

open Cert.ReferenceIdeal Cert.ReferenceIdeal.Gen Cert.ReferenceIdeal.RefRun Idealize.ShloMosaic Idealize.ShloMosaic.ValueIdx
  Idealize.ShloMosaic.RowGatherScatter

/-! ## Broadcasts read at an index -/

/-- A vector broadcast to a column reads its entry of the same row. -/
theorem bcast_vec_col {α : Type} {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply ![0] h v (ix2 p z) (ix1 p) fun ax => ?_
  match ax with
  | ⟨0, _⟩ =>
    show p.val = if a = 1 then 0 else p.val
    split
    · have := p.isLt; omega
    · rfl

/-- A column broadcast along the second axis reads its entry of the same row. -/
theorem bcast_col_mat {α : Type} {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A vector broadcast to a row reads its entry of the same column. -/
theorem bcast_vec_row {α : Type} {b : ℕ} (v : (⟨1, ![b]⟩ : Shape).Idx → α)
    (h : (⟨1, ![b]⟩ : Shape).BroadcastsInDim ⟨2, ![1, b]⟩ ![1]) (z : Fin 1) (q : Fin b) :
    broadcastInDim ⟨2, ![1, b]⟩ ![1] h v (ix2 z q) = v (ix1 q) := by
  refine broadcastInDim_apply ![1] h v (ix2 z q) (ix1 q) fun ax => ?_
  match ax with
  | ⟨0, _⟩ =>
    show q.val = if b = 1 then 0 else q.val
    split
    · have := q.isLt; omega
    · rfl

/-- A row broadcast along the first axis reads its entry of the same column. -/
theorem bcast_row_mat {α : Type} {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

/-! ## Pieces shared by the four updates -/

/-- A vector over the edges broadcast to a column, read at `(e, 0)`, is the vector at `e`. -/
theorem edgeCol_apply {α : Type} (v : S500000.Idx → α) (e : Fin 500000) :
    broadcastInDim (s := S500000) S500000x1 ![0] bcast_S500000_S500000x1_0 v (ix2 e (0 : Fin 1)) = v (ix1 e) :=
  bcast_vec_col v _ e 0

/-- The edges a scatter along the destination column delivers to row `d` are the edges into `d`. -/
theorem filter_edgeCol (N : Nat) (dst : IVec S500000 32) (d : Fin N) :
    (Finset.univ.filter fun e : Fin 500000 =>
        (broadcastInDim (s := S500000) S500000x1 ![0] bcast_S500000_S500000x1_0 dst (ix2 e (0 : Fin 1))).toInt = (d.val : Int))
      = Cert.ConvSpec.edgesTo N dst d := by
  unfold Cert.ConvSpec.edgesTo
  refine Finset.ext fun e => ?_
  rw [Finset.mem_filter, Finset.mem_filter, edgeCol_apply]

/-- The bias broadcast to a row, read at `(0, q)`, is the bias at `q`. -/
theorem biasRow_apply {α : Type} (v : S128.Idx → α) (q : Fin 128) :
    broadcastInDim (s := S128) S1x128 ![1] bcast_S128_S1x128_1 v (ix2 (0 : Fin 1) q) = v (ix1 q) :=
  bcast_vec_row v _ 0 q

/-- On the extended reals the host's accumulating scatter is the exact one. -/
theorem hostScatterAdd_eq {s si u : Shape} {w : Nat} (dm : ScatterDims s si u) (x : FVec Ideal s .f32) (idx : IVec si w)
    (upd : FVec Ideal u .f32) : Host.scatterAdd dm x idx upd = Ideal.hostScatterAdd dm x idx upd := rfl

/-! ## The update into the 50000 item rows -/

theorem gatherItem_dims : gather_S100000x128_S500000x1_S500000x128_1_0_n_n_0_1_1128 = rowGatherDims 100000 500000 128 gather_S100000x128_S500000x1_S500000x128_1_0_n_n_0_1_1128_wf := rfl
theorem scatRowsItem_dims : scatter_S50000x128_S500000x1_S500000x128_1_0_0_1 = rowScatterDims 50000 500000 128 scatter_S50000x128_S500000x1_S500000x128_1_0_0_1_wf := rfl
theorem scatElemsItem_dims : scatter_S50000_S500000x1_S500000_n_0_0_1 = elemScatterDims 50000 500000 scatter_S50000_S500000x1_S500000_n_0_0_1_wf := rfl

/-- The start-index column at `(e, 0)` is the normalised source index of edge `e`. -/
theorem srcColItem_apply (src : IVec S500000 32) (e : Fin 500000) :
    (broadcastInDim (s := S500000) S500000x1 ![0] bcast_S500000_S500000x1_0 (select (cmpi .slt src (broadcastInDim (s := S_) S500000 ![] bcast_S_S500000 (constantI S_ 32 0#32 : IVec S_ 32))) (addi src (broadcastInDim (s := S_) S500000 ![] bcast_S_S500000 (constantI S_ 32 100000#32 : IVec S_ 32))) src)) (ix2 e (0 : Fin 1)) = Cert.ConvSpec.normWord 100000#32 (src (ix1 e)) :=
  (edgeCol_apply _ e).trans rfl

/-- A gathered row: the table's row at the edge's source row. -/
theorem gatherItem_apply (h : FVec Ideal S100000x128 .f32) (src : IVec S500000 32) (e : Fin 500000) (j : Fin 128) :
    (Host.gather gather_S100000x128_S500000x1_S500000x128_1_0_n_n_0_1_1128 h (broadcastInDim (s := S500000) S500000x1 ![0] bcast_S500000_S500000x1_0 (select (cmpi .slt src (broadcastInDim (s := S_) S500000 ![] bcast_S_S500000 (constantI S_ 32 0#32 : IVec S_ 32))) (addi src (broadcastInDim (s := S_) S500000 ![] bcast_S_S500000 (constantI S_ 32 100000#32 : IVec S_ 32))) src))) (ix2 e j) = h (ix2 (Cert.ConvSpec.srcRow 100000 (by decide) 100000#32 src e) j) := by
  rw [gatherItem_dims, gather_rows_apply (by decide : 0 < 100000), srcColItem_apply, Cert.ConvSpec.srcRow]

/-- The projection of the 100000 source rows read at an entry. -/
theorem dotItem_apply (x : FVec Ideal S100000x128 .f32) (W : FVec Ideal S128x128 .f32) (n : Fin 100000) (j : Fin 128) :
    (Host.dotGeneral dot_S100000x128_S128x128_S100000x128_1_0_0_1_n_n none x W) (ix2 n j) = ∑ k : Fin 128, x (ix2 n k) * W (ix2 k j) :=
  DenseLayers.dotGeneral_rowcol_apply _ none x W n j

/-- The projected rows added into destination row `d`. -/
theorem aggItem_apply (x : FVec Ideal S100000x128 .f32) (W : FVec Ideal S128x128 .f32) (src dst : IVec S500000 32)
    (d : Fin 50000) (j : Fin 128) :
    (Host.scatterAdd scatter_S50000x128_S500000x1_S500000x128_1_0_0_1 (broadcastInDim (s := S_) S50000x128 ![] bcast_S_S50000x128 (constant S_ .f32 0x00000000#32 : FVec Ideal S_ .f32)) (broadcastInDim (s := S500000) S500000x1 ![0] bcast_S500000_S500000x1_0 dst) (Host.gather gather_S100000x128_S500000x1_S500000x128_1_0_n_n_0_1_1128 (Host.dotGeneral dot_S100000x128_S128x128_S100000x128_1_0_0_1_n_n none x W) (broadcastInDim (s := S500000) S500000x1 ![0] bcast_S500000_S500000x1_0 (select (cmpi .slt src (broadcastInDim (s := S_) S500000 ![] bcast_S_S500000 (constantI S_ 32 0#32 : IVec S_ 32))) (addi src (broadcastInDim (s := S_) S500000 ![] bcast_S_S500000 (constantI S_ 32 100000#32 : IVec S_ 32))) src)))) (ix2 d j)
      = (0 : EReal) + ∑ e ∈ Cert.ConvSpec.edgesTo 50000 dst d,
          ∑ k : Fin 128, x (ix2 (Cert.ConvSpec.srcRow 100000 (by decide) 100000#32 src e) k) * W (ix2 k j) := by
  rw [hostScatterAdd_eq, scatRowsItem_dims, rowScatterAdd_apply, filter_edgeCol,
    DenseLayers.broadcastInDim_scalar_constant_apply, Ideal.ofBits_zero_f32]
  exact congrArg _ (Finset.sum_congr rfl fun e _ => (gatherItem_apply _ src e j).trans (dotItem_apply x W _ j))

/-- The in-degree of destination row `d`. -/
theorem degItem_apply (dst : IVec S500000 32) (d : Fin 50000) :
    (Host.scatterAdd scatter_S50000_S500000x1_S500000_n_0_0_1 (broadcastInDim (s := S_) S50000 ![] bcast_S_S50000 (constant S_ .f32 0x00000000#32 : FVec Ideal S_ .f32)) (broadcastInDim (s := S500000) S500000x1 ![0] bcast_S500000_S500000x1_0 dst) (broadcastInDim (s := S_) S500000 ![] bcast_S_S500000 (constant S_ .f32 0x3F800000#32 : FVec Ideal S_ .f32))) (ix1 d) = (0 : EReal) + ∑ _e ∈ Cert.ConvSpec.edgesTo 50000 dst d, (1 : EReal) := by
  rw [hostScatterAdd_eq, scatElemsItem_dims, elemScatterAdd_apply, filter_edgeCol,
    DenseLayers.broadcastInDim_scalar_constant_apply, Ideal.ofBits_zero_f32]
  exact congrArg _ (Finset.sum_congr rfl fun e _ =>
    (DenseLayers.broadcastInDim_scalar_constant_apply _ _ _).trans Ideal.ofBits_one_f32)

/-- The lower clamp, the literal one broadcast over the counters. -/
theorem oneItem_apply (d : Fin 50000) : (broadcastInDim (s := S_) S50000 ![] bcast_S_S50000 (id (constant S_ .f32 0x3F800000#32 : FVec Ideal S_ .f32))) (ix1 d) = (1 : EReal) :=
  (show (broadcastInDim (s := S_) S50000 ![] bcast_S_S50000 (id (constant S_ .f32 0x3F800000#32 : FVec Ideal S_ .f32))) (ix1 d) = Ideal.ofBits .f32 0x3F800000#32 from rfl).trans Ideal.ofBits_one_f32

/-- The clamped in-degree broadcast over the row. -/
theorem denItem_apply (dst : IVec S500000 32) (d : Fin 50000) (j : Fin 128) :
    (broadcastInDim (s := S50000x1) S50000x128 ![0, 1] bcast_S50000x1_S50000x128_0_1 (broadcastInDim (s := S50000) S50000x1 ![0] bcast_S50000_S50000x1_0 (maximumf (broadcastInDim (s := S_) S50000 ![] bcast_S_S50000 (id (constant S_ .f32 0x3F800000#32 : FVec Ideal S_ .f32))) (Host.scatterAdd scatter_S50000_S500000x1_S500000_n_0_0_1 (broadcastInDim (s := S_) S50000 ![] bcast_S_S50000 (constant S_ .f32 0x00000000#32 : FVec Ideal S_ .f32)) (broadcastInDim (s := S500000) S500000x1 ![0] bcast_S500000_S500000x1_0 dst) (broadcastInDim (s := S_) S500000 ![] bcast_S_S500000 (constant S_ .f32 0x3F800000#32 : FVec Ideal S_ .f32)))))) (ix2 d j) = max (1 : EReal) ((0 : EReal) + ∑ _e ∈ Cert.ConvSpec.edgesTo 50000 dst d, (1 : EReal)) := by
  rw [bcast_col_mat, bcast_vec_col, maximumf_apply, degItem_apply, oneItem_apply]

/-- The bias broadcast over the rows. -/
theorem biasItem_apply (b : FVec Ideal S128 .f32) (d : Fin 50000) (j : Fin 128) :
    (broadcastInDim (s := S1x128) S50000x128 ![0, 1] bcast_S1x128_S50000x128_0_1 (broadcastInDim (s := S128) S1x128 ![1] bcast_S128_S1x128_1 b)) (ix2 d j) = b (ix1 j) := by
  rw [bcast_row_mat, biasRow_apply]

/-- One update into the 50000 item rows read at an entry: the reference's arrangement of the shared vocabulary. -/
theorem convItem_apply (x : FVec Ideal S100000x128 .f32) (W : FVec Ideal S128x128 .f32) (b : FVec Ideal S128 .f32)
    (src dst : IVec S500000 32) (d : Fin 50000) (j : Fin 128) :
    convItem (F := Ideal) x W b src dst (ix2 d j)
      = Cert.ConvSpec.rconv (fun n k => x (ix2 n k)) (fun k j => W (ix2 k j)) (fun j => b (ix1 j))
          (Cert.ConvSpec.srcRow 100000 (by decide) 100000#32 src) (Cert.ConvSpec.edgesTo 50000 dst) d j := by
  unfold convItem Cert.ConvSpec.rconv
  rw [addf_apply, hostDivf_apply, aggItem_apply, denItem_apply, biasItem_apply]

/-! ## The update into the 100000 user rows -/

theorem gatherUser_dims : gather_S50000x128_S500000x1_S500000x128_1_0_n_n_0_1_1128 = rowGatherDims 50000 500000 128 gather_S50000x128_S500000x1_S500000x128_1_0_n_n_0_1_1128_wf := rfl
theorem scatRowsUser_dims : scatter_S100000x128_S500000x1_S500000x128_1_0_0_1 = rowScatterDims 100000 500000 128 scatter_S100000x128_S500000x1_S500000x128_1_0_0_1_wf := rfl
theorem scatElemsUser_dims : scatter_S100000_S500000x1_S500000_n_0_0_1 = elemScatterDims 100000 500000 scatter_S100000_S500000x1_S500000_n_0_0_1_wf := rfl

/-- The start-index column at `(e, 0)` is the normalised source index of edge `e`. -/
theorem srcColUser_apply (src : IVec S500000 32) (e : Fin 500000) :
    (broadcastInDim (s := S500000) S500000x1 ![0] bcast_S500000_S500000x1_0 (select (cmpi .slt src (broadcastInDim (s := S_) S500000 ![] bcast_S_S500000 (constantI S_ 32 0#32 : IVec S_ 32))) (addi src (broadcastInDim (s := S_) S500000 ![] bcast_S_S500000 (constantI S_ 32 50000#32 : IVec S_ 32))) src)) (ix2 e (0 : Fin 1)) = Cert.ConvSpec.normWord 50000#32 (src (ix1 e)) :=
  (edgeCol_apply _ e).trans rfl

/-- A gathered row: the table's row at the edge's source row. -/
theorem gatherUser_apply (h : FVec Ideal S50000x128 .f32) (src : IVec S500000 32) (e : Fin 500000) (j : Fin 128) :
    (Host.gather gather_S50000x128_S500000x1_S500000x128_1_0_n_n_0_1_1128 h (broadcastInDim (s := S500000) S500000x1 ![0] bcast_S500000_S500000x1_0 (select (cmpi .slt src (broadcastInDim (s := S_) S500000 ![] bcast_S_S500000 (constantI S_ 32 0#32 : IVec S_ 32))) (addi src (broadcastInDim (s := S_) S500000 ![] bcast_S_S500000 (constantI S_ 32 50000#32 : IVec S_ 32))) src))) (ix2 e j) = h (ix2 (Cert.ConvSpec.srcRow 50000 (by decide) 50000#32 src e) j) := by
  rw [gatherUser_dims, gather_rows_apply (by decide : 0 < 50000), srcColUser_apply, Cert.ConvSpec.srcRow]

/-- The projection of the 50000 source rows read at an entry. -/
theorem dotUser_apply (x : FVec Ideal S50000x128 .f32) (W : FVec Ideal S128x128 .f32) (n : Fin 50000) (j : Fin 128) :
    (Host.dotGeneral dot_S50000x128_S128x128_S50000x128_1_0_0_1_n_n none x W) (ix2 n j) = ∑ k : Fin 128, x (ix2 n k) * W (ix2 k j) :=
  DenseLayers.dotGeneral_rowcol_apply _ none x W n j

/-- The projected rows added into destination row `d`. -/
theorem aggUser_apply (x : FVec Ideal S50000x128 .f32) (W : FVec Ideal S128x128 .f32) (src dst : IVec S500000 32)
    (d : Fin 100000) (j : Fin 128) :
    (Host.scatterAdd scatter_S100000x128_S500000x1_S500000x128_1_0_0_1 (broadcastInDim (s := S_) S100000x128 ![] bcast_S_S100000x128 (constant S_ .f32 0x00000000#32 : FVec Ideal S_ .f32)) (broadcastInDim (s := S500000) S500000x1 ![0] bcast_S500000_S500000x1_0 dst) (Host.gather gather_S50000x128_S500000x1_S500000x128_1_0_n_n_0_1_1128 (Host.dotGeneral dot_S50000x128_S128x128_S50000x128_1_0_0_1_n_n none x W) (broadcastInDim (s := S500000) S500000x1 ![0] bcast_S500000_S500000x1_0 (select (cmpi .slt src (broadcastInDim (s := S_) S500000 ![] bcast_S_S500000 (constantI S_ 32 0#32 : IVec S_ 32))) (addi src (broadcastInDim (s := S_) S500000 ![] bcast_S_S500000 (constantI S_ 32 50000#32 : IVec S_ 32))) src)))) (ix2 d j)
      = (0 : EReal) + ∑ e ∈ Cert.ConvSpec.edgesTo 100000 dst d,
          ∑ k : Fin 128, x (ix2 (Cert.ConvSpec.srcRow 50000 (by decide) 50000#32 src e) k) * W (ix2 k j) := by
  rw [hostScatterAdd_eq, scatRowsUser_dims, rowScatterAdd_apply, filter_edgeCol,
    DenseLayers.broadcastInDim_scalar_constant_apply, Ideal.ofBits_zero_f32]
  exact congrArg _ (Finset.sum_congr rfl fun e _ => (gatherUser_apply _ src e j).trans (dotUser_apply x W _ j))

/-- The in-degree of destination row `d`. -/
theorem degUser_apply (dst : IVec S500000 32) (d : Fin 100000) :
    (Host.scatterAdd scatter_S100000_S500000x1_S500000_n_0_0_1 (broadcastInDim (s := S_) S100000 ![] bcast_S_S100000 (constant S_ .f32 0x00000000#32 : FVec Ideal S_ .f32)) (broadcastInDim (s := S500000) S500000x1 ![0] bcast_S500000_S500000x1_0 dst) (broadcastInDim (s := S_) S500000 ![] bcast_S_S500000 (constant S_ .f32 0x3F800000#32 : FVec Ideal S_ .f32))) (ix1 d) = (0 : EReal) + ∑ _e ∈ Cert.ConvSpec.edgesTo 100000 dst d, (1 : EReal) := by
  rw [hostScatterAdd_eq, scatElemsUser_dims, elemScatterAdd_apply, filter_edgeCol,
    DenseLayers.broadcastInDim_scalar_constant_apply, Ideal.ofBits_zero_f32]
  exact congrArg _ (Finset.sum_congr rfl fun e _ =>
    (DenseLayers.broadcastInDim_scalar_constant_apply _ _ _).trans Ideal.ofBits_one_f32)

/-- The lower clamp, the literal one broadcast over the counters. -/
theorem oneUser_apply (d : Fin 100000) : (broadcastInDim (s := S_) S100000 ![] bcast_S_S100000 (id (constant S_ .f32 0x3F800000#32 : FVec Ideal S_ .f32))) (ix1 d) = (1 : EReal) :=
  (show (broadcastInDim (s := S_) S100000 ![] bcast_S_S100000 (id (constant S_ .f32 0x3F800000#32 : FVec Ideal S_ .f32))) (ix1 d) = Ideal.ofBits .f32 0x3F800000#32 from rfl).trans Ideal.ofBits_one_f32

/-- The clamped in-degree broadcast over the row. -/
theorem denUser_apply (dst : IVec S500000 32) (d : Fin 100000) (j : Fin 128) :
    (broadcastInDim (s := S100000x1) S100000x128 ![0, 1] bcast_S100000x1_S100000x128_0_1 (broadcastInDim (s := S100000) S100000x1 ![0] bcast_S100000_S100000x1_0 (maximumf (broadcastInDim (s := S_) S100000 ![] bcast_S_S100000 (id (constant S_ .f32 0x3F800000#32 : FVec Ideal S_ .f32))) (Host.scatterAdd scatter_S100000_S500000x1_S500000_n_0_0_1 (broadcastInDim (s := S_) S100000 ![] bcast_S_S100000 (constant S_ .f32 0x00000000#32 : FVec Ideal S_ .f32)) (broadcastInDim (s := S500000) S500000x1 ![0] bcast_S500000_S500000x1_0 dst) (broadcastInDim (s := S_) S500000 ![] bcast_S_S500000 (constant S_ .f32 0x3F800000#32 : FVec Ideal S_ .f32)))))) (ix2 d j) = max (1 : EReal) ((0 : EReal) + ∑ _e ∈ Cert.ConvSpec.edgesTo 100000 dst d, (1 : EReal)) := by
  rw [bcast_col_mat, bcast_vec_col, maximumf_apply, degUser_apply, oneUser_apply]

/-- The bias broadcast over the rows. -/
theorem biasUser_apply (b : FVec Ideal S128 .f32) (d : Fin 100000) (j : Fin 128) :
    (broadcastInDim (s := S1x128) S100000x128 ![0, 1] bcast_S1x128_S100000x128_0_1 (broadcastInDim (s := S128) S1x128 ![1] bcast_S128_S1x128_1 b)) (ix2 d j) = b (ix1 j) := by
  rw [bcast_row_mat, biasRow_apply]

/-- One update into the 100000 user rows read at an entry: the reference's arrangement of the shared vocabulary. -/
theorem convUser_apply (x : FVec Ideal S50000x128 .f32) (W : FVec Ideal S128x128 .f32) (b : FVec Ideal S128 .f32)
    (src dst : IVec S500000 32) (d : Fin 100000) (j : Fin 128) :
    convUser (F := Ideal) x W b src dst (ix2 d j)
      = Cert.ConvSpec.rconv (fun n k => x (ix2 n k)) (fun k j => W (ix2 k j)) (fun j => b (ix1 j))
          (Cert.ConvSpec.srcRow 50000 (by decide) 50000#32 src) (Cert.ConvSpec.edgesTo 100000 dst) d j := by
  unfold convUser Cert.ConvSpec.rconv
  rw [addf_apply, hostDivf_apply, aggUser_apply, denUser_apply, biasUser_apply]

/-! ## The leaky rectifier -/

/-- The rectifier on the item rows is the shared pointwise function at each entry. -/
theorem lreluItem_apply (v : FVec Ideal S50000x128 .f32) (i : S50000x128.Idx) :
    lreluItem (F := Ideal) v i = Cert.ConvSpec.lrelu (v i) := rfl

/-- The rectifier on the user rows is the shared pointwise function at each entry. -/
theorem lreluUser_apply (v : FVec Ideal S100000x128 .f32) (i : S100000x128.Idx) :
    lreluUser (F := Ideal) v i = Cert.ConvSpec.lrelu (v i) := rfl

end Cert.ReferenceIdeal.RefRead

end
-- ==== Proof.TwoLayer.lean ====
/-
  The two-layer network in the two arrangements agrees on real data.

  Each layer is one graph-convolution update; the first layer's result goes through the leaky rectifier.  On real
  features, weights and biases the two arrangements of the first layer are equal and their common value is real, so
  the rectified first layer is again a table of reals, the same in both; the second layer, fed that table and real
  weights and biases, is then equal in the two arrangements as well.
-/
import proofs.«135114_j59107339927815_2_alg».proof.Proof.ConvSpec
import proofs.«135114_j59107339927815_2_alg».proof.Proof.ConvLaw

noncomputable section

open scoped BigOperators

namespace Cert.TwoLayer

open Cert.ConvSpec Cert.ConvLaw

/-- Two stacked updates, the inner one rectified: an inner relation with `E₁` edges from `N₀` rows to `N₁` rows and
    an outer relation with `E₂` edges from `N₁` rows to `N₂` rows.  With every input real, the kernel's arrangement in
    both layers equals the reference's arrangement in both layers. -/
theorem two_layer_eq {E₁ E₂ N₀ N₁ N₂ : Nat}
    (x : Fin N₀ → Fin 128 → EReal) (W1 W2 : Fin 128 → Fin 128 → EReal) (b1 b2 : Fin 128 → EReal)
    (hx : ∀ n k, ∃ r : ℝ, x n k = ((r : ℝ) : EReal)) (hW1 : ∀ k j, ∃ r : ℝ, W1 k j = ((r : ℝ) : EReal))
    (hb1 : ∀ j, ∃ r : ℝ, b1 j = ((r : ℝ) : EReal))
    (hW2 : ∀ k j, ∃ r : ℝ, W2 k j = ((r : ℝ) : EReal)) (hb2 : ∀ j, ∃ r : ℝ, b2 j = ((r : ℝ) : EReal))
    (s₁ : Fin E₁ → Fin N₀) (S₁ : Fin N₁ → Finset (Fin E₁)) (s₂ : Fin E₂ → Fin N₁) (S₂ : Fin N₂ → Finset (Fin E₂))
    (d : Fin N₂) (j : Fin 128) :
    kconv (fun n k => lrelu (kconv x W1 b1 s₁ S₁ n k)) W2 b2 s₂ S₂ d j
      = rconv (fun n k => lrelu (rconv x W1 b1 s₁ S₁ n k)) W2 b2 s₂ S₂ d j := by
  choose xr hxr using hx
  choose W1r hW1r using hW1
  choose b1r hb1r using hb1
  choose W2r hW2r using hW2
  choose b2r hb2r using hb2
  obtain rfl : x = fun n k => ((xr n k : ℝ) : EReal) := funext fun n => funext fun k => hxr n k
  obtain rfl : W1 = fun k j => ((W1r k j : ℝ) : EReal) := funext fun k => funext fun j => hW1r k j
  obtain rfl : b1 = fun j => ((b1r j : ℝ) : EReal) := funext fun j => hb1r j
  obtain rfl : W2 = fun k j => ((W2r k j : ℝ) : EReal) := funext fun k => funext fun j => hW2r k j
  obtain rfl : b2 = fun j => ((b2r j : ℝ) : EReal) := funext fun j => hb2r j
  -- the rectified inner layer, in the reference's arrangement, is a table of reals
  have hreal : ∀ n k, ∃ r : ℝ, lrelu (rconv (fun n k => ((xr n k : ℝ) : EReal)) (fun k j => ((W1r k j : ℝ) : EReal))
      (fun j => ((b1r j : ℝ) : EReal)) s₁ S₁ n k) = ((r : ℝ) : EReal) := fun n k => by
    obtain ⟨r, hr⟩ := rconv_real xr W1r b1r s₁ S₁ n k
    rw [hr]
    exact lrelu_real r
  choose h hh using hreal
  -- and the kernel's inner layer is the same table
  have hk : (fun n k => lrelu (kconv (fun n k => ((xr n k : ℝ) : EReal)) (fun k j => ((W1r k j : ℝ) : EReal))
      (fun j => ((b1r j : ℝ) : EReal)) s₁ S₁ n k)) = fun n k => ((h n k : ℝ) : EReal) :=
    funext fun n => funext fun k => by rw [kconv_eq_rconv]; exact hh n k
  have hr : (fun n k => lrelu (rconv (fun n k => ((xr n k : ℝ) : EReal)) (fun k j => ((W1r k j : ℝ) : EReal))
      (fun j => ((b1r j : ℝ) : EReal)) s₁ S₁ n k)) = fun n k => ((h n k : ℝ) : EReal) :=
    funext fun n => funext fun k => hh n k
  rw [hk, hr]
  exact kconv_eq_rconv h W2r b2r s₂ S₂ d j

variable {E NU NI : Nat}

/-- The user rows' output: the inner layer over the relation from users to items, the outer over the relation from
    items to users. -/
theorem o_user_eq (xu : Fin NU → Fin 128 → EReal) (W1 W2 : Fin 128 → Fin 128 → EReal) (b1 b2 : Fin 128 → EReal)
    (hx : ∀ n k, ∃ r : ℝ, xu n k = ((r : ℝ) : EReal)) (hW1 : ∀ k j, ∃ r : ℝ, W1 k j = ((r : ℝ) : EReal))
    (hb1 : ∀ j, ∃ r : ℝ, b1 j = ((r : ℝ) : EReal))
    (hW2 : ∀ k j, ∃ r : ℝ, W2 k j = ((r : ℝ) : EReal)) (hb2 : ∀ j, ∃ r : ℝ, b2 j = ((r : ℝ) : EReal))
    (sR : Fin E → Fin NU) (SR : Fin NI → Finset (Fin E)) (sV : Fin E → Fin NI) (SV : Fin NU → Finset (Fin E))
    (d : Fin NU) (j : Fin 128) :
    kconv (fun n k => lrelu (kconv xu W1 b1 sR SR n k)) W2 b2 sV SV d j
      = rconv (fun n k => lrelu (rconv xu W1 b1 sR SR n k)) W2 b2 sV SV d j :=
  two_layer_eq xu W1 W2 b1 b2 hx hW1 hb1 hW2 hb2 sR SR sV SV d j

/-- The item rows' output: the inner layer over the relation from items to users, the outer over the relation from
    users to items. -/
theorem o_item_eq (xi : Fin NI → Fin 128 → EReal) (W1 W2 : Fin 128 → Fin 128 → EReal) (b1 b2 : Fin 128 → EReal)
    (hx : ∀ n k, ∃ r : ℝ, xi n k = ((r : ℝ) : EReal)) (hW1 : ∀ k j, ∃ r : ℝ, W1 k j = ((r : ℝ) : EReal))
    (hb1 : ∀ j, ∃ r : ℝ, b1 j = ((r : ℝ) : EReal))
    (hW2 : ∀ k j, ∃ r : ℝ, W2 k j = ((r : ℝ) : EReal)) (hb2 : ∀ j, ∃ r : ℝ, b2 j = ((r : ℝ) : EReal))
    (sR : Fin E → Fin NU) (SR : Fin NI → Finset (Fin E)) (sV : Fin E → Fin NI) (SV : Fin NU → Finset (Fin E))
    (d : Fin NI) (j : Fin 128) :
    kconv (fun n k => lrelu (kconv xi W1 b1 sV SV n k)) W2 b2 sR SR d j
      = rconv (fun n k => lrelu (rconv xi W1 b1 sV SV n k)) W2 b2 sR SR d j :=
  two_layer_eq xi W1 W2 b1 b2 hx hW1 hb1 hW2 hb2 sV SV sR SR d j

end Cert.TwoLayer

end
-- ==== Proof.Bridge.lean ====
/-
  The idealized kernel's two results are the reference's two results, as functions of the argument arrays, when the float
  arguments are finite.

  At row `d` and column `j` the kernel's second-layer user row is the update in the kernel's arrangement (aggregate,
  normalise, project) of the rectified first-layer item rows, themselves that update of the user features; the
  reference's is the same two updates in its arrangement (project, aggregate, normalise).  On real data the two
  arrangements agree layer by layer, the first layer's common value being real again.  The item rows likewise.
-/
import proofs.«135114_j59107339927815_2_alg».proof.Proof.KernelRead
import proofs.«135114_j59107339927815_2_alg».proof.Proof.RefRead
import proofs.«135114_j59107339927815_2_alg».proof.Proof.TwoLayer

noncomputable section

namespace Cert.Bridge

open Idealize.ShloMosaic Idealize.ShloMosaic.ValueIdx
open Cert.ConvSpec

/-- The second layer's user rows. -/
theorem oUser_eq (a0 : FVec Ideal Cert.KernelIdeal.S100000x128 .f32) (a1 : FVec Ideal Cert.KernelIdeal.S50000x128 .f32)
    (a2 a3 a4 a5 : IVec Cert.KernelIdeal.S500000 32)
    (a6 : FVec Ideal Cert.KernelIdeal.S128x128 .f32) (a7 : FVec Ideal Cert.KernelIdeal.S128 .f32)
    (a8 : FVec Ideal Cert.KernelIdeal.S128x128 .f32) (a9 : FVec Ideal Cert.KernelIdeal.S128 .f32)
    (a10 : FVec Ideal Cert.KernelIdeal.S128x128 .f32) (a11 : FVec Ideal Cert.KernelIdeal.S128 .f32)
    (a12 : FVec Ideal Cert.KernelIdeal.S128x128 .f32) (a13 : FVec Ideal Cert.KernelIdeal.S128 .f32)
    (h0 : ∀ i, ∃ r : ℝ, a0 i = ((r : ℝ) : EReal)) (h6 : ∀ i, ∃ r : ℝ, a6 i = ((r : ℝ) : EReal))
    (h7 : ∀ i, ∃ r : ℝ, a7 i = ((r : ℝ) : EReal)) (h12 : ∀ i, ∃ r : ℝ, a12 i = ((r : ℝ) : EReal))
    (h13 : ∀ i, ∃ r : ℝ, a13 i = ((r : ℝ) : EReal)) :
    Cert.KernelIdeal.KHost.oUser a0 a2 a3 a4 a5 a6 a7 a12 a13
      = Cert.ReferenceIdeal.RefRun.out89 (F := Ideal) a0 a1 a2 a3 a4 a5 a6 a7 a8 a9 a10 a11 a12 a13 := by
  funext i
  obtain ⟨d, j, rfl⟩ : ∃ (d : Fin 100000) (j : Fin 128), i = ix2 d j := ⟨i 0, i 1, eq_ix2 i⟩
  rw [Cert.KernelIdeal.KRead.oUser_apply,
    Cert.TwoLayer.o_user_eq _ _ _ _ _ (fun n k => h0 _) (fun k j => h6 _) (fun j => h7 _) (fun k j => h12 _) (fun j => h13 _)]
  unfold Cert.ReferenceIdeal.RefRun.out89
  rw [Cert.ReferenceIdeal.RefRead.convUser_apply]
  simp only [Cert.ReferenceIdeal.RefRead.lreluItem_apply, Cert.ReferenceIdeal.RefRead.convItem_apply]

/-- The second layer's item rows. -/
theorem oItem_eq (a0 : FVec Ideal Cert.KernelIdeal.S100000x128 .f32) (a1 : FVec Ideal Cert.KernelIdeal.S50000x128 .f32)
    (a2 a3 a4 a5 : IVec Cert.KernelIdeal.S500000 32)
    (a6 : FVec Ideal Cert.KernelIdeal.S128x128 .f32) (a7 : FVec Ideal Cert.KernelIdeal.S128 .f32)
    (a8 : FVec Ideal Cert.KernelIdeal.S128x128 .f32) (a9 : FVec Ideal Cert.KernelIdeal.S128 .f32)
    (a10 : FVec Ideal Cert.KernelIdeal.S128x128 .f32) (a11 : FVec Ideal Cert.KernelIdeal.S128 .f32)
    (a12 : FVec Ideal Cert.KernelIdeal.S128x128 .f32) (a13 : FVec Ideal Cert.KernelIdeal.S128 .f32)
    (h1 : ∀ i, ∃ r : ℝ, a1 i = ((r : ℝ) : EReal)) (h8 : ∀ i, ∃ r : ℝ, a8 i = ((r : ℝ) : EReal))
    (h9 : ∀ i, ∃ r : ℝ, a9 i = ((r : ℝ) : EReal)) (h10 : ∀ i, ∃ r : ℝ, a10 i = ((r : ℝ) : EReal))
    (h11 : ∀ i, ∃ r : ℝ, a11 i = ((r : ℝ) : EReal)) :
    Cert.KernelIdeal.KHost.oItem a1 a2 a3 a4 a5 a8 a9 a10 a11
      = Cert.ReferenceIdeal.RefRun.out67 (F := Ideal) a0 a1 a2 a3 a4 a5 a6 a7 a8 a9 a10 a11 a12 a13 := by
  funext i
  obtain ⟨d, j, rfl⟩ : ∃ (d : Fin 50000) (j : Fin 128), i = ix2 d j := ⟨i 0, i 1, eq_ix2 i⟩
  rw [Cert.KernelIdeal.KRead.oItem_apply,
    Cert.TwoLayer.o_item_eq _ _ _ _ _ (fun n k => h1 _) (fun k j => h8 _) (fun j => h9 _) (fun k j => h10 _) (fun j => h11 _)]
  unfold Cert.ReferenceIdeal.RefRun.out67
  rw [Cert.ReferenceIdeal.RefRead.convItem_apply]
  simp only [Cert.ReferenceIdeal.RefRead.lreluUser_apply, Cert.ReferenceIdeal.RefRead.convUser_apply]

end Cert.Bridge

end
-- ==== Proof.FiniteInputs.lean ====
/-
  Finiteness of the float inputs, read back from the printed precondition.  The precondition is a
  conjunction of ten tests "every entry of |x| is below +∞", one per float argument; each test, once
  it is known to be 1, says every entry of x is a real number (neither infinity of the extended reals).
-/
import proofs.«135114_j59107339927815_2_alg».proof.Pre_finite_inputs
import Idealize.ShloMosaic.PureOps.Ideal
import Idealize.ShloMosaic.Lib.ReduceAll
import Idealize.ShloMosaic.Lib.ValueIdx

namespace Cert.FiniteInputs

open Idealize.ShloMosaic
open Cert.Pre_finite_inputs

/-- The rank-0 shape has exactly one index. -/
instance : Subsingleton S_.Idx := ⟨fun a b => funext fun d => d.elim0⟩

/-- An extended real whose absolute value max x (-x) is below ⊤ is a real. -/
theorem real_of_abs_lt_top (x : EReal) (h : max x (-x) < ⊤) : ∃ r : ℝ, x = ((r : ℝ) : EReal) := by
  induction x using EReal.rec with
  | bot => simp at h
  | coe r => exact ⟨r, rfl⟩
  | top => simp at h

/-- One test of the precondition: if the all-reduce by "and" of |x| < +∞ is 1, every entry of x is real. -/
theorem real_of_all {s : Shape} {axes : List (Fin s.rank)} (x : FVec Ideal s .f32)
    (hb : S_.BroadcastsInDim s (![] : Fin 0 → Fin s.rank)) (hr : s.ReducesTo axes S_) (hu : 0 < S_.numel)
    (j : S_.Idx)
    (e : Host.reduce IntOp.andi
          (cmpf .olt (Host.absf x) (broadcastInDim s ![] hb (constant (F := Ideal) S_ .f32 0x7F800000#32)))
          (constantI S_ 1 1#1) hr hu j = 1#1) :
    ∀ i, ∃ r : ℝ, x i = ((r : ℝ) : EReal) := by
  intro i
  have hi := Host.reduce_andi_all _ _ hr hu j e i
  have hi' : Ideal.cmp .olt (max (x i) (-(x i))) (Ideal.ofBits .f32 0x7F800000#32) = 1#1 := hi
  have htop : Ideal.ofBits .f32 0x7F800000#32 = (⊤ : EReal) := by simp [Ideal.ofBits, Ideal.ieee]
  rw [htop] at hi'
  refine real_of_abs_lt_top (x i) ?_
  by_contra hn
  simp [Ideal.cmp, hn] at hi'

theorem real_of_pre [Cert.Pre_finite_inputs.Facts]
    (a0 : FVec Ideal S100000x128 .f32) (a1 : FVec Ideal S50000x128 .f32)
    (a2 : IVec S500000 32) (a3 : IVec S500000 32) (a4 : IVec S500000 32) (a5 : IVec S500000 32)
    (a6 : FVec Ideal S128x128 .f32) (a7 : FVec Ideal S128 .f32)
    (a8 : FVec Ideal S128x128 .f32) (a9 : FVec Ideal S128 .f32)
    (a10 : FVec Ideal S128x128 .f32) (a11 : FVec Ideal S128 .f32)
    (a12 : FVec Ideal S128x128 .f32) (a13 : FVec Ideal S128 .f32)
    (h : Cert.Pre_finite_inputs.fn (F := Ideal) a0 a1 a2 a3 a4 a5 a6 a7 a8 a9 a10 a11 a12 a13 = fun _ => 1#1) :
    (∀ i, ∃ r : ℝ, a0 i = ((r : ℝ) : EReal)) ∧
      (∀ i, ∃ r : ℝ, a1 i = ((r : ℝ) : EReal)) ∧
      (∀ i, ∃ r : ℝ, a6 i = ((r : ℝ) : EReal)) ∧
      (∀ i, ∃ r : ℝ, a7 i = ((r : ℝ) : EReal)) ∧
      (∀ i, ∃ r : ℝ, a8 i = ((r : ℝ) : EReal)) ∧
      (∀ i, ∃ r : ℝ, a9 i = ((r : ℝ) : EReal)) ∧
      (∀ i, ∃ r : ℝ, a10 i = ((r : ℝ) : EReal)) ∧
      (∀ i, ∃ r : ℝ, a11 i = ((r : ℝ) : EReal)) ∧
      (∀ i, ∃ r : ℝ, a12 i = ((r : ℝ) : EReal)) ∧
      (∀ i, ∃ r : ℝ, a13 i = ((r : ℝ) : EReal)) := by
  have h0 := congrFun h ValueIdx.ix0
  dsimp only [Cert.Pre_finite_inputs.fn, Cert.Pre_finite_inputs.fn_part1, Cert.Pre_finite_inputs.fn_part2] at h0
  simp only [andi, IntOp.andi_eq_one] at h0
  obtain ⟨⟨⟨⟨⟨⟨⟨⟨⟨e0, e1⟩, e6⟩, e7⟩, e8⟩, e9⟩, e10⟩, e11⟩, e12⟩, e13⟩ := h0
  exact ⟨real_of_all a0 _ _ _ _ e0, real_of_all a1 _ _ _ _ e1, real_of_all a6 _ _ _ _ e6,
    real_of_all a7 _ _ _ _ e7, real_of_all a8 _ _ _ _ e8, real_of_all a9 _ _ _ _ e9,
    real_of_all a10 _ _ _ _ e10, real_of_all a11 _ _ _ _ e11, real_of_all a12 _ _ _ _ e12,
    real_of_all a13 _ _ _ _ e13⟩

end Cert.FiniteInputs
-- ==== Proof.lean ====
/-
  A two-layer graph convolution over a bipartite user/item graph, computed by a tiled kernel with the irregular
  gather and accumulating scatter on the host, against a plain reference.

  Per layer and per destination row, the kernel aggregates the raw source features over the incoming edges, divides by
  the in-degree clamped below by one, and only then multiplies by the weight matrix and adds the bias (rectifying in the
  first layer); the reference multiplies every source row by the weight matrix first, aggregates, divides and adds the
  bias.  Both read a source row through the same normalised, clamped index and drop an edge whose destination index is
  out of range, so both sum over the same edges; the two arrangements then agree because a matrix product distributes
  over a finite sum of REAL rows and commutes with division by a nonzero real — which is where the finiteness of the
  float inputs is used, in both layers (the first layer's common value is real again).

  The three frames: the kernel's two programs by their launch certificates; the reference by its run.  Nothing was
  rewritten between the kernel and its idealization.
-/
import proofs.«135114_j59107339927815_2_alg».proof.Defs
import proofs.«135114_j59107339927815_2_alg».proof.Proof.Gen.Kernel
import proofs.«135114_j59107339927815_2_alg».proof.Proof.Gen.Kernel.Frame
import proofs.«135114_j59107339927815_2_alg».proof.Proof.Gen.KernelIdeal
import proofs.«135114_j59107339927815_2_alg».proof.Proof.Gen.KernelIdeal.Frame
import proofs.«135114_j59107339927815_2_alg».proof.Proof.Gen.ReferenceIdeal
import proofs.«135114_j59107339927815_2_alg».proof.Proof.Gen.Pre_finite_inputs
import proofs.«135114_j59107339927815_2_alg».proof.Proof.KernelValue
import proofs.«135114_j59107339927815_2_alg».proof.Proof.RefRun
import proofs.«135114_j59107339927815_2_alg».proof.Proof.Bridge
import proofs.«135114_j59107339927815_2_alg».proof.Proof.FiniteInputs

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.RefRun.run m ρ)

theorem preserves : Cert.preserves_Kernel_KernelIdeal := trivial

/-- From memories agreeing on the arguments, the kernel's two result arrays and the reference's are the same functions
    of the (finite) argument arrays. -/
theorem algebraic : Cert.algebraic_KernelIdeal_ReferenceIdeal := by
  intro m ρ m' ρ' hpre hagree
  refine ⟨_, _, Cert.KernelIdeal.KValue.run m ρ, ?_⟩
  refine (θ_run Cert.ReferenceIdeal.defs _ _).mono
    (fun r h c => ⟨(h c).1.trans ?_, (h c).2.1.trans ?_, (h c).2.2⟩) (Cert.ReferenceIdeal.RefRun.run m' ρ')
  · obtain ⟨e0, e1, e2, e3, e4, e5, e6, e7, e8, e9, e10, e11, e12, e13⟩ := hagree c
    obtain ⟨h0, h1, h6, h7, h8, h9, h10, h11, h12, h13⟩ := Cert.FiniteInputs.real_of_pre _ _ _ _ _ _ _ _ _ _ _ _ _ _ (hpre c)
    rw [e0, e1, e2, e3, e4, e5, e6, e7, e8, e9, e10, e11, e12, e13]
    exact (Cert.Bridge.oUser_eq _ _ _ _ _ _ _ _ _ _ _ _ _ _ h0 h6 h7 h12 h13).symm
  · obtain ⟨e0, e1, e2, e3, e4, e5, e6, e7, e8, e9, e10, e11, e12, e13⟩ := hagree c
    obtain ⟨h0, h1, h6, h7, h8, h9, h10, h11, h12, h13⟩ := Cert.FiniteInputs.real_of_pre _ _ _ _ _ _ _ _ _ _ _ _ _ _ (hpre c)
    rw [e0, e1, e2, e3, e4, e5, e6, e7, e8, e9, e10, e11, e12, e13]
    exact (Cert.Bridge.oItem_eq _ _ _ _ _ _ _ _ _ _ _ _ _ _ h1 h8 h9 h10 h11).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
